-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)) →
    ∃ (v0 : (c : Dev Cert.KernelIdeal.nD) → Buf (Elt Ideal) ((c.tc : Thread Cert.KernelIdeal.nD Cert.KernelIdeal.τ).loc Cert.KernelIdeal.main_v27_0)) (v1 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27_0) = v0 c
          ∧ r.2.mem ((c.tc : Thread Cert.KernelIdeal.nD Cert.KernelIdeal.τ).loc Cert.KernelIdeal.main_v37) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_v161) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S400000x2 : Shape := ⟨2, ![400000, 2]⟩
abbrev S400000x3 : Shape := ⟨2, ![400000, 3]⟩
abbrev S50000x128 : Shape := ⟨2, ![50000, 128]⟩
abbrev S3x128 : Shape := ⟨2, ![3, 128]⟩
abbrev S128 : Shape := ⟨1, ![128]⟩
abbrev S128x128 : Shape := ⟨2, ![128, 128]⟩
abbrev S384x128 : Shape := ⟨2, ![384, 128]⟩
abbrev S256x128 : Shape := ⟨2, ![256, 128]⟩
abbrev S128x3 : Shape := ⟨2, ![128, 3]⟩
abbrev S3 : Shape := ⟨1, ![3]⟩
abbrev S_ : Shape := ⟨0, ![]⟩

class Facts : Prop where
  bcast_S_S400000x3 : S_.BroadcastsInDim S400000x3 (![] : Fin 0 → Fin S400000x3.rank)
  reducesTo_S400000x3_S_d0_1 : S400000x3.ReducesTo [0, 1] S_
  h_S_ : 0 < S_.numel
  bcast_S_S50000x128 : S_.BroadcastsInDim S50000x128 (![] : Fin 0 → Fin S50000x128.rank)
  reducesTo_S50000x128_S_d0_1 : S50000x128.ReducesTo [0, 1] S_
  bcast_S_S3x128 : S_.BroadcastsInDim S3x128 (![] : Fin 0 → Fin S3x128.rank)
  reducesTo_S3x128_S_d0_1 : S3x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S384x128 : S_.BroadcastsInDim S384x128 (![] : Fin 0 → Fin S384x128.rank)
  reducesTo_S384x128_S_d0_1 : S384x128.ReducesTo [0, 1] S_
  bcast_S_S256x128 : S_.BroadcastsInDim S256x128 (![] : Fin 0 → Fin S256x128.rank)
  reducesTo_S256x128_S_d0_1 : S256x128.ReducesTo [0, 1] S_
  bcast_S_S128x3 : S_.BroadcastsInDim S128x3 (![] : Fin 0 → Fin S128x3.rank)
  reducesTo_S128x3_S_d0_1 : S128x3.ReducesTo [0, 1] S_
  bcast_S_S3 : S_.BroadcastsInDim S3 (![] : Fin 0 → Fin S3.rank)
  reducesTo_S3_S_d0 : S3.ReducesTo [0] S_

variable [Facts]

def fn_part7 {F : FTy → Type} [FloatOps F] (main_v118 : IVec S_ 1) (main_v119 : FVec F S3 .f32) : IVec S_ 1 :=
  let main_cst_46 : FVec F S_ .f32 := constant S_ .f32 0x7F800000#32
  let main_v120 : FVec F S3 .f32 := broadcastInDim S3 ![] bcast_S_S3 main_cst_46
  let main_v121 : IVec S3 1 := cmpf .olt main_v119 main_v120
  let main_c_47 : IVec S_ 1 := constantI S_ 1 1#1
  let main_v122 : IVec S_ 1 := (fun x v => Host.reduce IntOp.andi x v reducesTo_S3_S_d0 h_S_) main_v121 main_c_47
  let main_v123 : IVec S_ 1 := andi main_v118 main_v122
  main_v123

def fn_part6 {F : FTy → Type} [FloatOps F] (main_arg22 : FVec F S128x128 .f32) (main_arg23 : FVec F S128 .f32) (main_arg24 : FVec F S128x3 .f32) (main_arg25 : FVec F S3 .f32) (main_v98 : IVec S_ 1) (main_v101 : IVec S128 1) (main_c_39 : IVec S_ 1) : IVec S_ 1 :=
  let main_v102 : IVec S_ 1 := (fun x v => Host.reduce IntOp.andi x v reducesTo_S128_S_d0 h_S_) main_v101 main_c_39
  let main_v103 : IVec S_ 1 := andi main_v98 main_v102
  let main_v104 : FVec F S128x128 .f32 := Host.absf main_arg22
  let main_cst_40 : FVec F S_ .f32 := constant S_ .f32 0x7F800000#32
  let main_v105 : FVec F S128x128 .f32 := broadcastInDim S128x128 ![] bcast_S_S128x128 main_cst_40
  let main_v106 : IVec S128x128 1 := cmpf .olt main_v104 main_v105
  let main_c_41 : IVec S_ 1 := constantI S_ 1 1#1
  let main_v107 : IVec S_ 1 := (fun x v => Host.reduce IntOp.andi x v reducesTo_S128x128_S_d0_1 h_S_) main_v106 main_c_41
  let main_v108 : IVec S_ 1 := andi main_v103 main_v107
  let main_v109 : FVec F S128 .f32 := Host.absf main_arg23
  let main_cst_42 : FVec F S_ .f32 := constant S_ .f32 0x7F800000#32
  let main_v110 : FVec F S128 .f32 := broadcastInDim S128 ![] bcast_S_S128 main_cst_42
  let main_v111 : IVec S128 1 := cmpf .olt main_v109 main_v110
  let main_c_43 : IVec S_ 1 := constantI S_ 1 1#1
  let main_v112 : IVec S_ 1 := (fun x v => Host.reduce IntOp.andi x v reducesTo_S128_S_d0 h_S_) main_v111 main_c_43
  let main_v113 : IVec S_ 1 := andi main_v108 main_v112
  let main_v114 : FVec F S128x3 .f32 := Host.absf main_arg24
  let main_cst_44 : FVec F S_ .f32 := constant S_ .f32 0x7F800000#32
  let main_v115 : FVec F S128x3 .f32 := broadcastInDim S128x3 ![] bcast_S_S128x3 main_cst_44
  let main_v116 : IVec S128x3 1 := cmpf .olt main_v114 main_v115
  let main_c_45 : IVec S_ 1 := constantI S_ 1 1#1
  let main_v117 : IVec S_ 1 := (fun x v => Host.reduce IntOp.andi x v reducesTo_S128x3_S_d0_1 h_S_) main_v116 main_c_45
  let main_v118 : IVec S_ 1 := andi main_v113 main_v117
  let main_v119 : FVec F S3 .f32 := Host.absf main_arg25
  fn_part7 (F := F) main_v118 main_v119

def fn_part5 {F : FTy → Type} [FloatOps F] (main_arg19 : FVec F S128 .f32) (main_arg20 : FVec F S128 .f32) (main_arg21 : FVec F S128 .f32) (main_arg22 : FVec F S128x128 .f32) (main_arg23 : FVec F S128 .f32) (main_arg24 : FVec F S128x3 .f32) (main_arg25 : FVec F S3 .f32) (main_v83 : IVec S_ 1) (main_v84 : FVec F S128x128 .f32) (main_cst_32 : FVec F S_ .f32) : IVec S_ 1 :=
  let main_v85 : FVec F S128x128 .f32 := broadcastInDim S128x128 ![] bcast_S_S128x128 main_cst_32
  let main_v86 : IVec S128x128 1 := cmpf .olt main_v84 main_v85
  let main_c_33 : IVec S_ 1 := constantI S_ 1 1#1
  let main_v87 : IVec S_ 1 := (fun x v => Host.reduce IntOp.andi x v reducesTo_S128x128_S_d0_1 h_S_) main_v86 main_c_33
  let main_v88 : IVec S_ 1 := andi main_v83 main_v87
  let main_v89 : FVec F S128 .f32 := Host.absf main_arg19
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_v94 : FVec F S128 .f32 := Host.absf main_arg20
  let main_cst_36 : FVec F S_ .f32 := constant S_ .f32 0x7F800000#32
  let main_v95 : FVec F S128 .f32 := broadcastInDim S128 ![] bcast_S_S128 main_cst_36
  let main_v96 : IVec S128 1 := cmpf .olt main_v94 main_v95
  let main_c_37 : IVec S_ 1 := constantI S_ 1 1#1
  let main_v97 : IVec S_ 1 := (fun x v => Host.reduce IntOp.andi x v reducesTo_S128_S_d0 h_S_) main_v96 main_c_37
  let main_v98 : IVec S_ 1 := andi main_v93 main_v97
  let main_v99 : FVec F S128 .f32 := Host.absf main_arg21
  let main_cst_38 : FVec F S_ .f32 := constant S_ .f32 0x7F800000#32
  let main_v100 : FVec F S128 .f32 := broadcastInDim S128 ![] bcast_S_S128 main_cst_38
  let main_v101 : IVec S128 1 := cmpf .olt main_v99 main_v100
  let main_c_39 : IVec S_ 1 := constantI S_ 1 1#1
  fn_part6 (F := F) main_arg22 main_arg23 main_arg24 main_arg25 main_v98 main_v101 main_c_39

def fn_part4 {F : FTy → Type} [FloatOps F] (main_arg15 : FVec F S128 .f32) (main_arg16 : FVec F S256x128 .f32) (main_arg17 : FVec F S128 .f32) (main_arg18 : FVec F S128x128 .f32) (main_arg19 : FVec F S128 .f32) (main_arg20 : FVec F S128 .f32) (main_arg21 : FVec F S128 .f32) (main_arg22 : FVec F S128x128 .f32) (main_arg23 : FVec F S128 .f32) (main_arg24 : FVec F S128x3 .f32) (main_arg25 : FVec F S3 .f32) (main_v63 : IVec S_ 1) (main_v67 : IVec S_ 1) : IVec S_ 1 :=
  let main_v68 : IVec S_ 1 := andi main_v63 main_v67
  let main_v69 : FVec F S128 .f32 := Host.absf main_arg15
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S256x128 .f32 := Host.absf main_arg16
  let main_cst_28 : FVec F S_ .f32 := constant S_ .f32 0x7F800000#32
  let main_v75 : FVec F S256x128 .f32 := broadcastInDim S256x128 ![] bcast_S_S256x128 main_cst_28
  let main_v76 : IVec S256x128 1 := cmpf .olt main_v74 main_v75
  let main_c_29 : IVec S_ 1 := constantI S_ 1 1#1
  let main_v77 : IVec S_ 1 := (fun x v => Host.reduce IntOp.andi x v reducesTo_S256x128_S_d0_1 h_S_) main_v76 main_c_29
  let main_v78 : IVec S_ 1 := andi main_v73 main_v77
  let main_v79 : FVec F S128 .f32 := Host.absf main_arg17
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128x128 .f32 := Host.absf main_arg18
  let main_cst_32 : FVec F S_ .f32 := constant S_ .f32 0x7F800000#32
  fn_part5 (F := F) main_arg19 main_arg20 main_arg21 main_arg22 main_arg23 main_arg24 main_arg25 main_v83 main_v84 main_cst_32

def fn_part3 {F : FTy → Type} [FloatOps F] (main_arg12 : FVec F S128x128 .f32) (main_arg13 : FVec F S128 .f32) (main_arg14 : FVec F S128 .f32) (main_arg15 : FVec F S128 .f32) (main_arg16 : FVec F S256x128 .f32) (main_arg17 : FVec F S128 .f32) (main_arg18 : FVec F S128x128 .f32) (main_arg19 : FVec F S128 .f32) (main_arg20 : FVec F S128 .f32) (main_arg21 : FVec F S128 .f32) (main_arg22 : FVec F S128x128 .f32) (main_arg23 : FVec F S128 .f32) (main_arg24 : FVec F S128x3 .f32) (main_arg25 : FVec F S3 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg12
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg15 main_arg16 main_arg17 main_arg18 main_arg19 main_arg20 main_arg21 main_arg22 main_arg23 main_arg24 main_arg25 main_v63 main_v67

def fn_part2 {F : FTy → Type} [FloatOps F] (main_arg8 : FVec F S128 .f32) (main_arg9 : FVec F S128 .f32) (main_arg10 : FVec F S384x128 .f32) (main_arg11 : FVec F S128 .f32) (main_arg12 : FVec F S128x128 .f32) (main_arg13 : FVec F S128 .f32) (main_arg14 : FVec F S128 .f32) (main_arg15 : FVec F S128 .f32) (main_arg16 : FVec F S256x128 .f32) (main_arg17 : FVec F S128 .f32) (main_arg18 : FVec F S128x128 .f32) (main_arg19 : FVec F S128 .f32) (main_arg20 : FVec F S128 .f32) (main_arg21 : FVec F S128 .f32) (main_arg22 : FVec F S128x128 .f32) (main_arg23 : FVec F S128 .f32) (main_arg24 : FVec F S128x3 .f32) (main_arg25 : FVec F S3 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S384x128 .f32 := Host.absf main_arg10
  let main_cst_16 : FVec F S_ .f32 := constant S_ .f32 0x7F800000#32
  let main_v45 : FVec F S384x128 .f32 := broadcastInDim S384x128 ![] bcast_S_S384x128 main_cst_16
  let main_v46 : IVec S384x128 1 := cmpf .olt main_v44 main_v45
  let main_c_17 : IVec S_ 1 := constantI S_ 1 1#1
  let main_v47 : IVec S_ 1 := (fun x v => Host.reduce IntOp.andi x v reducesTo_S384x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_arg14 main_arg15 main_arg16 main_arg17 main_arg18 main_arg19 main_arg20 main_arg21 main_arg22 main_arg23 main_arg24 main_arg25 main_v48 main_v49 main_v50

def fn_part1 {F : FTy → Type} [FloatOps F] (main_arg5 : FVec F S128 .f32) (main_arg6 : FVec F S128x128 .f32) (main_arg7 : FVec F S128 .f32) (main_arg8 : FVec F S128 .f32) (main_arg9 : FVec F S128 .f32) (main_arg10 : FVec F S384x128 .f32) (main_arg11 : FVec F S128 .f32) (main_arg12 : FVec F S128x128 .f32) (main_arg13 : FVec F S128 .f32) (main_arg14 : FVec F S128 .f32) (main_arg15 : FVec F S128 .f32) (main_arg16 : FVec F S256x128 .f32) (main_arg17 : FVec F S128 .f32) (main_arg18 : FVec F S128x128 .f32) (main_arg19 : FVec F S128 .f32) (main_arg20 : FVec F S128 .f32) (main_arg21 : FVec F S128 .f32) (main_arg22 : FVec F S128x128 .f32) (main_arg23 : FVec F S128 .f32) (main_arg24 : FVec F S128x3 .f32) (main_arg25 : FVec F S3 .f32) (main_v13 : IVec S_ 1) (main_v16 : IVec S3x128 1) : IVec S_ 1 :=
  let main_c_5 : IVec S_ 1 := constantI S_ 1 1#1
  let main_v17 : IVec S_ 1 := (fun x v => Host.reduce IntOp.andi x v reducesTo_S3x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_arg21 main_arg22 main_arg23 main_arg24 main_arg25 main_v33

def fn {F : FTy → Type} [FloatOps F] (main_arg0 : IVec S400000x2 32) (main_arg1 : FVec F S400000x3 .f32) (main_arg2 : FVec F S50000x128 .f32) (main_arg3 : FVec F S50000x128 .f32) (main_arg4 : FVec F S3x128 .f32) (main_arg5 : FVec F S128 .f32) (main_arg6 : FVec F S128x128 .f32) (main_arg7 : FVec F S128 .f32) (main_arg8 : FVec F S128 .f32) (main_arg9 : FVec F S128 .f32) (main_arg10 : FVec F S384x128 .f32) (main_arg11 : FVec F S128 .f32) (main_arg12 : FVec F S128x128 .f32) (main_arg13 : FVec F S128 .f32) (main_arg14 : FVec F S128 .f32) (main_arg15 : FVec F S128 .f32) (main_arg16 : FVec F S256x128 .f32) (main_arg17 : FVec F S128 .f32) (main_arg18 : FVec F S128x128 .f32) (main_arg19 : FVec F S128 .f32) (main_arg20 : FVec F S128 .f32) (main_arg21 : FVec F S128 .f32) (main_arg22 : FVec F S128x128 .f32) (main_arg23 : FVec F S128 .f32) (main_arg24 : FVec F S128x3 .f32) (main_arg25 : FVec F S3 .f32) : IVec S_ 1 :=
  let main_v0 : FVec F S400000x3 .f32 := Host.absf main_arg1
  let main_cst : FVec F S_ .f32 := constant S_ .f32 0x7F800000#32
  let main_v1 : FVec F S400000x3 .f32 := broadcastInDim S400000x3 ![] bcast_S_S400000x3 main_cst
  let main_v2 : IVec S400000x3 1 := cmpf .olt main_v0 main_v1
  let main_c : IVec S_ 1 := constantI S_ 1 1#1
  let main_v3 : IVec S_ 1 := (fun x v => Host.reduce IntOp.andi x v reducesTo_S400000x3_S_d0_1 h_S_) main_v2 main_c
  let main_v4 : FVec F S50000x128 .f32 := Host.absf main_arg2
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S50000x128 .f32 := Host.absf main_arg3
  let main_cst_2 : FVec F S_ .f32 := constant S_ .f32 0x7F800000#32
  let main_v10 : FVec F S50000x128 .f32 := broadcastInDim S50000x128 ![] bcast_S_S50000x128 main_cst_2
  let main_v11 : IVec S50000x128 1 := cmpf .olt main_v9 main_v10
  let main_c_3 : IVec S_ 1 := constantI S_ 1 1#1
  let main_v12 : IVec S_ 1 := (fun x v => Host.reduce IntOp.andi x v reducesTo_S50000x128_S_d0_1 h_S_) main_v11 main_c_3
  let main_v13 : IVec S_ 1 := andi main_v8 main_v12
  let main_v14 : FVec F S3x128 .f32 := Host.absf main_arg4
  let main_cst_4 : FVec F S_ .f32 := constant S_ .f32 0x7F800000#32
  let main_v15 : FVec F S3x128 .f32 := broadcastInDim S3x128 ![] bcast_S_S3x128 main_cst_4
  let main_v16 : IVec S3x128 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_v13 main_v16
-- ==== Kernel.lean ====
abbrev S400000x2 : Shape := ⟨2, ![400000, 2]⟩
abbrev S400000x3 : Shape := ⟨2, ![400000, 3]⟩
abbrev S50000x128 : Shape := ⟨2, ![50000, 128]⟩
abbrev S3x128 : Shape := ⟨2, ![3, 128]⟩
abbrev S128 : Shape := ⟨1, ![128]⟩
abbrev S128x128 : Shape := ⟨2, ![128, 128]⟩
abbrev S384x128 : Shape := ⟨2, ![384, 128]⟩
abbrev S256x128 : Shape := ⟨2, ![256, 128]⟩
abbrev S128x3 : Shape := ⟨2, ![128, 3]⟩
abbrev S3 : Shape := ⟨1, ![3]⟩
abbrev S400000x1 : Shape := ⟨2, ![400000, 1]⟩
abbrev S400000 : Shape := ⟨1, ![400000]⟩
abbrev S_ : Shape := ⟨0, ![]⟩
abbrev S50000x1 : Shape := ⟨2, ![50000, 1]⟩
abbrev S400000x128 : Shape := ⟨2, ![400000, 128]⟩
abbrev S4000x3 : Shape := ⟨2, ![4000, 3]⟩
abbrev S4000x128 : Shape := ⟨2, ![4000, 128]⟩
abbrev S1x128 : Shape := ⟨2, ![1, 128]⟩
abbrev S4000 : Shape := ⟨1, ![4000]⟩
abbrev S4000x1 : Shape := ⟨2, ![4000, 1]⟩
abbrev S50000x3 : Shape := ⟨2, ![50000, 3]⟩
abbrev S2000x128 : Shape := ⟨2, ![2000, 128]⟩
abbrev S2000x3 : Shape := ⟨2, ![2000, 3]⟩
abbrev S2000 : Shape := ⟨1, ![2000]⟩
abbrev S2000x1 : Shape := ⟨2, ![2000, 1]⟩
abbrev S1x3 : Shape := ⟨2, ![1, 3]⟩

abbrev nBuf : Space → Nat
  | .hbm => 73
  | .vmem => 41
  | .smem => 0
  | _ => 0

abbrev bufTy : (tb : Table) → Fin (tcTables nBuf tb) → BufTy
  | .hbm, ⟨0, _⟩ => ⟨S400000x2, .i32⟩
  | .hbm, ⟨1, _⟩ => ⟨S400000x3, .f32⟩
  | .hbm, ⟨2, _⟩ => ⟨S50000x128, .f32⟩
  | .hbm, ⟨3, _⟩ => ⟨S50000x128, .f32⟩
  | .hbm, ⟨4, _⟩ => ⟨S3x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S384x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S128, .f32⟩
  | .hbm, ⟨15, _⟩ => ⟨S128, .f32⟩
  | .hbm, ⟨16, _⟩ => ⟨S256x128, .f32⟩
  | .hbm, ⟨17, _⟩ => ⟨S128, .f32⟩
  | .hbm, ⟨18, _⟩ => ⟨S128x128, .f32⟩
  | .hbm, ⟨19, _⟩ => ⟨S128, .f32⟩
  | .hbm, ⟨20, _⟩ => ⟨S128, .f32⟩
  | .hbm, ⟨21, _⟩ => ⟨S128, .f32⟩
  | .hbm, ⟨22, _⟩ => ⟨S128x128, .f32⟩
  | .hbm, ⟨23, _⟩ => ⟨S128, .f32⟩
  | .hbm, ⟨24, _⟩ => ⟨S128x3, .f32⟩
  | .hbm, ⟨25, _⟩ => ⟨S3, .f32⟩
  | .hbm, ⟨26, _⟩ => ⟨S400000x1, .i32⟩
  | .hbm, ⟨27, _⟩ => ⟨S400000, .i32⟩
  | .hbm, ⟨28, _⟩ => ⟨S400000x1, .i32⟩
  | .hbm, ⟨29, _⟩ => ⟨S400000, .i32⟩
  | .hbm, ⟨30, _⟩ => ⟨S_, .f32⟩
  | .hbm, ⟨31, _⟩ => ⟨S400000x1, .f32⟩
  | .hbm, ⟨32, _⟩ => ⟨S_, .f32⟩
  | .hbm, ⟨33, _⟩ => ⟨S50000x1, .f32⟩
  | .hbm, ⟨34, _⟩ => ⟨S400000x1, .i32⟩
  | .hbm, ⟨35, _⟩ => ⟨S50000x1, .f32⟩
  | .hbm, ⟨36, _⟩ => ⟨S_, .i32⟩
  | .hbm, ⟨37, _⟩ => ⟨S400000, .i32⟩
  | .hbm, ⟨38, _⟩ => ⟨S400000, .i1⟩
  | .hbm, ⟨39, _⟩ => ⟨S_, .i32⟩
  | .hbm, ⟨40, _⟩ => ⟨S400000, .i32⟩
  | .hbm, ⟨41, _⟩ => ⟨S400000, .i32⟩
  | .hbm, ⟨42, _⟩ => ⟨S400000, .i32⟩
  | .hbm, ⟨43, _⟩ => ⟨S400000x1, .i32⟩
  | .hbm, ⟨44, _⟩ => ⟨S400000x128, .f32⟩
  | .hbm, ⟨45, _⟩ => ⟨S400000x128, .bf16⟩
  | .hbm, ⟨46, _⟩ => ⟨S_, .i32⟩
  | .hbm, ⟨47, _⟩ => ⟨S400000, .i32⟩
  | .hbm, ⟨48, _⟩ => ⟨S400000, .i1⟩
  | .hbm, ⟨49, _⟩ => ⟨S_, .i32⟩
  | .hbm, ⟨50, _⟩ => ⟨S400000, .i32⟩
  | .hbm, ⟨51, _⟩ => ⟨S400000, .i32⟩
  | .hbm, ⟨52, _⟩ => ⟨S400000, .i32⟩
  | .hbm, ⟨53, _⟩ => ⟨S400000x1, .i32⟩
  | .hbm, ⟨54, _⟩ => ⟨S400000x128, .f32⟩
  | .hbm, ⟨55, _⟩ => ⟨S400000x128, .bf16⟩
  | .hbm, ⟨56, _⟩ => ⟨S128x128, .f32⟩
  | .hbm, ⟨57, _⟩ => ⟨S128x128, .f32⟩
  | .hbm, ⟨58, _⟩ => ⟨S128x128, .f32⟩
  | .hbm, ⟨59, _⟩ => ⟨S400000x128, .f32⟩
  | .hbm, ⟨60, _⟩ => ⟨S400000x128, .f32⟩
  | .hbm, ⟨61, _⟩ => ⟨S_, .f32⟩
  | .hbm, ⟨62, _⟩ => ⟨S50000x128, .f32⟩
  | .hbm, ⟨63, _⟩ => ⟨S400000x1, .i32⟩
  | .hbm, ⟨64, _⟩ => ⟨S50000x128, .f32⟩
  | .hbm, ⟨65, _⟩ => ⟨S_, .f32⟩
  | .hbm, ⟨66, _⟩ => ⟨S50000x1, .f32⟩
  | .hbm, ⟨67, _⟩ => ⟨S50000x1, .f32⟩
  | .hbm, ⟨68, _⟩ => ⟨S50000x128, .f32⟩
  | .hbm, ⟨69, _⟩ => ⟨S50000x128, .f32⟩
  | .hbm, ⟨70, _⟩ => ⟨S128x128, .f32⟩
  | .hbm, ⟨71, _⟩ => ⟨S128x128, .f32⟩
  | .hbm, ⟨72, _⟩ => ⟨S50000x3, .f32⟩
  | .local _ .vmem, ⟨0, _⟩ => ⟨S4000x3, .f32⟩
  | .local _ .vmem, ⟨1, _⟩ => ⟨S4000x3, .f32⟩
  | .local _ .vmem, ⟨2, _⟩ => ⟨S4000x128, .bf16⟩
  | .local _ .vmem, ⟨3, _⟩ => ⟨S4000x128, .bf16⟩
  | .local _ .vmem, ⟨4, _⟩ => ⟨S4000x128, .bf16⟩
  | .local _ .vmem, ⟨5, _⟩ => ⟨S4000x128, .bf16⟩
  | .local _ .vmem, ⟨6, _⟩ => ⟨S3x128, .f32⟩
  | .local _ .vmem, ⟨7, _⟩ => ⟨S128, .f32⟩
  | .local _ .vmem, ⟨8, _⟩ => ⟨S128x128, .f32⟩
  | .local _ .vmem, ⟨9, _⟩ => ⟨S128, .f32⟩
  | .local _ .vmem, ⟨10, _⟩ => ⟨S128, .f32⟩
  | .local _ .vmem, ⟨11, _⟩ => ⟨S128, .f32⟩
  | .local _ .vmem, ⟨12, _⟩ => ⟨S128x128, .f32⟩
  | .local _ .vmem, ⟨13, _⟩ => ⟨S128x128, .f32⟩
  | .local _ .vmem, ⟨14, _⟩ => ⟨S128x128, .f32⟩
  | .local _ .vmem, ⟨15, _⟩ => ⟨S128, .f32⟩
  | .local _ .vmem, ⟨16, _⟩ => ⟨S128x128, .f32⟩
  | .local _ .vmem, ⟨17, _⟩ => ⟨S128, .f32⟩
  | .local _ .vmem, ⟨18, _⟩ => ⟨S128, .f32⟩
  | .local _ .vmem, ⟨19, _⟩ => ⟨S128, .f32⟩
  | .local _ .vmem, ⟨20, _⟩ => ⟨S4000x128, .f32⟩
  | .local _ .vmem, ⟨21, _⟩ => ⟨S4000x128, .f32⟩
  | .local _ .vmem, ⟨22, _⟩ => ⟨S4000x128, .f32⟩
  | .local _ .vmem, ⟨23, _⟩ => ⟨S4000x128, .f32⟩
  | .local _ .vmem, ⟨24, _⟩ => ⟨S2000x128, .f32⟩
  | .local _ .vmem, ⟨25, _⟩ => ⟨S2000x128, .f32⟩
  | .local _ .vmem, ⟨26, _⟩ => ⟨S2000x128, .f32⟩
  | .local _ .vmem, ⟨27, _⟩ => ⟨S2000x128, .f32⟩
  | .local _ .vmem, ⟨28, _⟩ => ⟨S128x128, .f32⟩
  | .local _ .vmem, ⟨29, _⟩ => ⟨S128x128, .f32⟩
  | .local _ .vmem, ⟨30, _⟩ => ⟨S128, .f32⟩
  | .local _ .vmem, ⟨31, _⟩ => ⟨S128x128, .f32⟩
  | .local _ .vmem, ⟨32, _⟩ => ⟨S128, .f32⟩
  | .local _ .vmem, ⟨33, _⟩ => ⟨S128, .f32⟩
  | .local _ .vmem, ⟨34, _⟩ => ⟨S128, .f32⟩
  | .local _ .vmem, ⟨35, _⟩ => ⟨S128x128, .f32⟩
  | .local _ .vmem, ⟨36, _⟩ => ⟨S128, .f32⟩
  | .local _ .vmem, ⟨37, _⟩ => ⟨S128x3, .f32⟩
  | .local _ .vmem, ⟨38, _⟩ => ⟨S3, .f32⟩
  | .local _ .vmem, ⟨39, _⟩ => ⟨S2000x3, .f32⟩
  | .local _ .vmem, ⟨40, _⟩ => ⟨S2000x3, .f32⟩
  | _, _ => ⟨S400000x2, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_cst : Ref sig .tc := ⟨.hbm, 30, rfl⟩
abbrev main_v4 : Ref sig .tc := ⟨.hbm, 31, rfl⟩
abbrev main_cst_0 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_c : Ref sig .tc := ⟨.hbm, 36, rfl⟩
abbrev main_v8 : Ref sig .tc := ⟨.hbm, 37, rfl⟩
abbrev main_v9 : Ref sig .tc := ⟨.hbm, 38, rfl⟩
abbrev main_c_1 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_c_2 : Ref sig .tc := ⟨.hbm, 46, rfl⟩
abbrev main_v16 : Ref sig .tc := ⟨.hbm, 47, rfl⟩
abbrev main_v17 : Ref sig .tc := ⟨.hbm, 48, rfl⟩
abbrev main_c_3 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27_0 : Ref sig .tc := ⟨.hbm, 59, rfl⟩
abbrev main_v27_1 : Ref sig .tc := ⟨.hbm, 60, rfl⟩
abbrev main_cst_4 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_cst_5 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg17_0 : Ref sig .tc := ⟨.vmem, 20, rfl⟩
abbrev cc0_stg17_1 : Ref sig .tc := ⟨.vmem, 21, rfl⟩
abbrev cc0_stg18_0 : Ref sig .tc := ⟨.vmem, 22, rfl⟩
abbrev cc0_stg18_1 : Ref sig .tc := ⟨.vmem, 23, rfl⟩
abbrev cc1_stg0_0 : Ref sig .tc := ⟨.vmem, 24, rfl⟩
abbrev cc1_stg0_1 : Ref sig .tc := ⟨.vmem, 25, rfl⟩
abbrev cc1_stg1_0 : Ref sig .tc := ⟨.vmem, 26, rfl⟩
abbrev cc1_stg1_1 : Ref sig .tc := ⟨.vmem, 27, rfl⟩
abbrev cc1_stg2_0 : Ref sig .tc := ⟨.vmem, 28, rfl⟩
abbrev cc1_stg3_0 : Ref sig .tc := ⟨.vmem, 29, rfl⟩
abbrev cc1_stg4_0 : Ref sig .tc := ⟨.vmem, 30, rfl⟩
abbrev cc1_stg5_0 : Ref sig .tc := ⟨.vmem, 31, rfl⟩
abbrev cc1_stg6_0 : Ref sig .tc := ⟨.vmem, 32, rfl⟩
abbrev cc1_stg7_0 : Ref sig .tc := ⟨.vmem, 33, rfl⟩
abbrev cc1_stg8_0 : Ref sig .tc := ⟨.vmem, 34, rfl⟩
abbrev cc1_stg9_0 : Ref sig .tc := ⟨.vmem, 35, rfl⟩
abbrev cc1_stg10_0 : Ref sig .tc := ⟨.vmem, 36, rfl⟩
abbrev cc1_stg11_0 : Ref sig .tc := ⟨.vmem, 37, rfl⟩
abbrev cc1_stg12_0 : Ref sig .tc := ⟨.vmem, 38, rfl⟩
abbrev cc1_stg13_0 : Ref sig .tc := ⟨.vmem, 39, rfl⟩
abbrev cc1_stg13_1 : Ref sig .tc := ⟨.vmem, 40, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem17_0 : DmaSem sig := 20
abbrev cc0_sem17_1 : DmaSem sig := 21
abbrev cc0_sem18_0 : DmaSem sig := 22
abbrev cc0_sem18_1 : DmaSem sig := 23
abbrev cc1_sem0_0 : DmaSem sig := 24
abbrev cc1_sem0_1 : DmaSem sig := 25
abbrev cc1_sem1_0 : DmaSem sig := 26
abbrev cc1_sem1_1 : DmaSem sig := 27
abbrev cc1_sem2_0 : DmaSem sig := 28
abbrev cc1_sem3_0 : DmaSem sig := 29
abbrev cc1_sem4_0 : DmaSem sig := 30
abbrev cc1_sem5_0 : DmaSem sig := 31
abbrev cc1_sem6_0 : DmaSem sig := 32
abbrev cc1_sem7_0 : DmaSem sig := 33
abbrev cc1_sem8_0 : DmaSem sig := 34
abbrev cc1_sem9_0 : DmaSem sig := 35
abbrev cc1_sem10_0 : DmaSem sig := 36
abbrev cc1_sem11_0 : DmaSem sig := 37
abbrev cc1_sem12_0 : DmaSem sig := 38
abbrev cc1_sem13_0 : DmaSem sig := 39
abbrev cc1_sem13_1 : DmaSem sig := 40

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_15 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_16 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S4000x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S4000x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_13 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S128x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S128x3 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S3 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 2 → Memref sig .tc .vmem S2000x3 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

class Facts₀ : Prop where
  slices_S400000x2_S400000x1_0_0 : S400000x2.Slices ![0, 0] S400000x1
  shapeCasts_S400000x1_S400000 : S400000x1.ShapeCasts S400000
  slices_S400000x2_S400000x1_0_1 : S400000x2.Slices ![0, 1] S400000x1
  bcast_S_S400000x1 : S_.BroadcastsInDim S400000x1 (![] : Fin 0 → Fin S400000x1.rank)
  bcast_S_S50000x1 : S_.BroadcastsInDim S50000x1 (![] : Fin 0 → Fin S50000x1.rank)
  bcast_S400000_S400000x1_0 : S400000.BroadcastsInDim S400000x1 (![0] : Fin 1 → Fin S400000x1.rank)
  bcast_S_S400000 : S_.BroadcastsInDim S400000 (![] : Fin 0 → Fin S400000.rank)
  bitsLt_bf16_f32 : FTy.bits .bf16 < FTy.bits .f32
  slices_S384x128_S128x128_0_0 : S384x128.Slices ![0, 0] S128x128
  slices_S384x128_S128x128_128_0 : S384x128.Slices ![128, 0] S128x128
  slices_S384x128_S128x128_256_0 : S384x128.Slices ![256, 0] S128x128
  inb_S4000x3_S4000x3_0_0 : ∀ a, (![0, 0] : Fin 2 → Nat) a + S4000x3.size a ≤ S4000x3.size a
  h_S4000x3 : 0 < S4000x3.numel
  inb_S3x128_S3x128_0_0 : ∀ a, (![0, 0] : Fin 2 → Nat) a + S3x128.size a ≤ S3x128.size a
  h_S3x128 : 0 < S3x128.numel
  inb_S128_S128_0 : ∀ a, (![0] : Fin 1 → Nat) a + S128.size a ≤ S128.size a
  h_S128 : 0 < S128.numel
  shapeCasts_S128_S1x128 : S128.ShapeCasts S1x128
  broadcasts_S1x128_S4000x128 : S1x128.Broadcasts S4000x128
  inb_S128x128_S128x128_0_0 : ∀ a, (![0, 0] : Fin 2 → Nat) a + S128x128.size a ≤ S128x128.size a
  h_S128x128 : 0 < S128x128.numel
  reduces_S4000x128_S4000 : S4000x128.Reduces [1] S4000
  shapeCasts_S4000_S4000x1 : S4000.ShapeCasts S4000x1
  broadcasts_S4000x1_S4000x128 : S4000x1.Broadcasts S4000x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  shapeCasts_S128x128_S128x128 : S128x128.ShapeCasts S128x128
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  slices_S256x128_S128x128_0_0 : S256x128.Slices ![0, 0] S128x128
  slices_S256x128_S128x128_128_0 : S256x128.Slices ![128, 0] S128x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  broadcasts_S1x128_S2000x128 : S1x128.Broadcasts S2000x128
  reduces_S2000x128_S2000 : S2000x128.Reduces [1] S2000
  shapeCasts_S2000_S2000x1 : S2000.ShapeCasts S2000x1
  broadcasts_S2000x1_S2000x128 : S2000x1.Broadcasts S2000x128
  inb_S128x3_S128x3_0_0 : ∀ a, (![0, 0] : Fin 2 → Nat) a + S128x3.size a ≤ S128x3.size a
  h_S128x3 : 0 < S128x3.numel
  inb_S3_S3_0 : ∀ a, (![0] : Fin 1 → Nat) a + S3.size a ≤ S3.size a
  h_S3 : 0 < S3.numel
  shapeCasts_S3_S1x3 : S3.ShapeCasts S1x3
  broadcasts_S1x3_S2000x3 : S1x3.Broadcasts S2000x3
  inb_S2000x3_S2000x3_0_0 : ∀ a, (![0, 0] : Fin 2 → Nat) a + S2000x3.size a ≤ S2000x3.size a
  h_S2000x3 : 0 < S2000x3.numel
  scatter_S50000x1_S400000x1_S400000x1_1_0_0_1_wf : ScatterDims.WF S50000x1 S400000x1 S400000x1 [1] [0] [0] 1
  gather_S50000x128_S400000x1_S400000x128_1_0_n_n_0_1_1128_wf : GatherDims.WF S50000x128 S400000x1 S400000x128 [1] [0] [] [0] [] 1 ![1, 128]
  dot_S4000x3_S3x128_S4000x128_1_0_0_1_n_n_wf : DotDims.WF S4000x3 S3x128 S4000x128 [1] [0] [0] [1] [] []
  dot_S4000x128_S128x128_S4000x128_1_0_0_1_n_n_wf : DotDims.WF S4000x128 S128x128 S4000x128 [1] [0] [0] [1] [] []
  scatter_S50000x128_S400000x1_S400000x128_1_0_0_1_wf : ScatterDims.WF S50000x128 S400000x1 S400000x128 [1] [0] [0] 1
  dot_S2000x128_S128x128_S2000x128_1_0_0_1_n_n_wf : DotDims.WF S2000x128 S128x128 S2000x128 [1] [0] [0] [1] [] []
  dot_S2000x128_S128x3_S2000x3_1_0_0_1_n_n_wf : DotDims.WF S2000x128 S128x3 S2000x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x3.size a ≤ S400000x3.size a
  hwx0_0 : ∀ i : grid0.Coords, EltTy.bits .f32 = 32 ∨ (Rect.block (s := S400000x3) S4000x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S400000x128.size a
  hwx0_1 : ∀ i : grid0.Coords, EltTy.bits .bf16 = 32 ∨ (Rect.block (s := S400000x128) S4000x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S400000x128.size a
  hwx0_2 : ∀ i : grid0.Coords, EltTy.bits .bf16 = 32 ∨ (Rect.block (s := S400000x128) S4000x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x128.size a ≤ S3x128.size a
  hwx0_3 : ∀ i : grid0.Coords, EltTy.bits .f32 = 32 ∨ (Rect.block (s := S3x128) S3x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128.size a ≤ S128.size a
  hwx0_7 : ∀ i : grid0.Coords, EltTy.bits .f32 = 32 ∨ (Rect.block (s := S128) S128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x128.size a ≤ S128x128.size a
  hwx0_9 : ∀ i : grid0.Coords, EltTy.bits .f32 = 32 ∨ (Rect.block (s := S128x128) S128x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128x128.size a ≤ S128x128.size a
  hwx0_10 : ∀ i : grid0.Coords, EltTy.bits .f32 = 32 ∨ (Rect.block (s := S128x128) S128x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128x128.size a ≤ S128x128.size a
  hwx0_11 : ∀ i : grid0.Coords, EltTy.bits .f32 = 32 ∨ (Rect.block (s := S128x128) S128x128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S128.size a ≤ S128.size a
  hwx0_12 : ∀ i : grid0.Coords, EltTy.bits .f32 = 32 ∨ (Rect.block (s := S128) S128.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S128x128.size a ≤ S128x128.size a
  hwx0_13 : ∀ i : grid0.Coords, EltTy.bits .f32 = 32 ∨ (Rect.block (s := S128x128) S128x128.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S128.size a ≤ S128.size a
  hwx0_14 : ∀ i : grid0.Coords, EltTy.bits .f32 = 32 ∨ (Rect.block (s := S128) S128.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S128.size a ≤ S128.size a
  hwx0_15 : ∀ i : grid0.Coords, EltTy.bits .f32 = 32 ∨ (Rect.block (s := S128) S128.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S128.size a ≤ S128.size a
  hwx0_16 : ∀ i : grid0.Coords, EltTy.bits .f32 = 32 ∨ (Rect.block (s := S128) S128.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S4000x128.size a ≤ S400000x128.size a
  hwx0_17 : ∀ i : grid0.Coords, EltTy.bits .f32 = 32 ∨ (Rect.block (s := S400000x128) S4000x128.size (cc0_transform_17 i) (hinb0_17 i)).WholeWords (EltTy.packing .f32)
  hstage0_18 : ∀ j, (stage0_18 j).IsWhole
  nbuf0_18 : grid0.bufCount reads0_18 false = 2
  hreads0_18 : ∀ i i' : grid0.Coords, (∀ a, reads0_18 a = true → i a = i' a) → cc0_transform_18 i = cc0_transform_18 i'
  hinb0_18 : ∀ (i : grid0.Coords) a, (cc0_transform_18 i a + 1) * S4000x128.size a ≤ S400000x128.size a
  hwx0_18 : ∀ i : grid0.Coords, EltTy.bits .f32 = 32 ∨ (Rect.block (s := S400000x128) S4000x128.size (cc0_transform_18 i) (hinb0_18 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128.size a ≤ S128.size a
  hwx1_6 : ∀ i : grid1.Coords, EltTy.bits .f32 = 32 ∨ (Rect.block (s := S128) S128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128.size a ≤ S128.size a
  hwx1_7 : ∀ i : grid1.Coords, EltTy.bits .f32 = 32 ∨ (Rect.block (s := S128) S128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128.size a ≤ S128.size a
  hwx1_8 : ∀ i : grid1.Coords, EltTy.bits .f32 = 32 ∨ (Rect.block (s := S128) S128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S128x128.size a ≤ S128x128.size a
  hwx1_9 : ∀ i : grid1.Coords, EltTy.bits .f32 = 32 ∨ (Rect.block (s := S128x128) S128x128.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S128.size a ≤ S128.size a
  hwx1_10 : ∀ i : grid1.Coords, EltTy.bits .f32 = 32 ∨ (Rect.block (s := S128) S128.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S128x3.size a ≤ S128x3.size a
  hwx1_11 : ∀ i : grid1.Coords, EltTy.bits .f32 = 32 ∨ (Rect.block (s := S128x3) S128x3.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S3.size a ≤ S3.size a
  hwx1_12 : ∀ i : grid1.Coords, EltTy.bits .f32 = 32 ∨ (Rect.block (s := S3) S3.size (cc1_transform_12 i) (hinb1_12 i)).WholeWords (EltTy.packing .f32)
  hstage1_13 : ∀ j, (stage1_13 j).IsWhole
  nbuf1_13 : grid1.bufCount reads1_13 false = 2
  hreads1_13 : ∀ i i' : grid1.Coords, (∀ a, reads1_13 a = true → i a = i' a) → cc1_transform_13 i = cc1_transform_13 i'
  hinb1_13 : ∀ (i : grid1.Coords) a, (cc1_transform_13 i a + 1) * S2000x3.size a ≤ S50000x3.size a
  hwx1_13 : ∀ i : grid1.Coords, EltTy.bits .f32 = 32 ∨ (Rect.block (s := S50000x3) S2000x3.size (cc1_transform_13 i) (hinb1_13 i)).WholeWords (EltTy.packing .f32)

variable [Facts₀]

def scatter_S50000x1_S400000x1_S400000x1_1_0_0_1 : ScatterDims S50000x1 S400000x1 S400000x1 where
  updateWindowDims := [1]
  insertedWindowDims := [0]
  scatterDimsToOperandDims := [0]
  indexVectorDim := 1
  wf := scatter_S50000x1_S400000x1_S400000x1_1_0_0_1_wf
def gather_S50000x128_S400000x1_S400000x128_1_0_n_n_0_1_1128 : GatherDims S50000x128 S400000x1 S400000x128 where
  offsetDims := [1]
  collapsedSliceDims := [0]
  operandBatchingDims := []
  startIndicesBatchingDims := []
  startIndexMap := [0]
  indexVectorDim := 1
  sliceSizes := ![1, 128]
  wf := gather_S50000x128_S400000x1_S400000x128_1_0_n_n_0_1_1128_wf
def dot_S4000x3_S3x128_S4000x128_1_0_0_1_n_n : DotDims S4000x3 S3x128 S4000x128 where
  lhsContracting := [1]
  rhsContracting := [0]
  lhsNonContracting := [0]
  rhsNonContracting := [1]
  lhsBatch := []
  rhsBatch := []
  wf := dot_S4000x3_S3x128_S4000x128_1_0_0_1_n_n_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def scatter_S50000x128_S400000x1_S400000x128_1_0_0_1 : ScatterDims S50000x128 S400000x1 S400000x128 where
  updateWindowDims := [1]
  insertedWindowDims := [0]
  scatterDimsToOperandDims := [0]
  indexVectorDim := 1
  wf := scatter_S50000x128_S400000x1_S400000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x3_S2000x3_1_0_0_1_n_n : DotDims S2000x128 S128x3 S2000x3 where
  lhsContracting := [1]
  rhsContracting := [0]
  lhsNonContracting := [0]
  rhsNonContracting := [1]
  lhsBatch := []
  rhsBatch := []
  wf := dot_S2000x128_S128x3_S2000x3_1_0_0_1_n_n_wf

abbrev win0_0 : Pipeline.Window sig grid0 :=
  Pipeline.Window.ofSpec (Memref.whole main_arg1) S4000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S4000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S3x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg9) S128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v24) S128x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v25) S128x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v26) S128x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg11) S128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg12) S128x128.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg13) S128.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg14) S128.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_arg15) S128.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v27_0) S4000x128.size cc0_transform_17 reads0_17 true false 2 stage0_17 sem0_17
    hrank0 hreads0_17 hinb0_17 nbuf0_17 (Memref.isWhole_whole _) hwx0_17 hstage0_17

abbrev win0_18 : Pipeline.Window sig grid0 :=
  Pipeline.Window.ofSpec (Memref.whole main_v27_1) S4000x128.size cc0_transform_18 reads0_18 true false 2 stage0_18 sem0_18
    hrank0 hreads0_18 hinb0_18 nbuf0_18 (Memref.isWhole_whole _) hwx0_18 hstage0_18

abbrev win0 : Fin 19 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | ⟨_ + 19, h⟩ => absurd h (Nat.not_lt.2 (Nat.le_add_left _ _))
abbrev spec0 : Fin 19 → Pipeline.WinSpec sig grid0.rank := fun w => (win0 w).toWinSpec

abbrev win1_0 : Pipeline.Window sig grid1 :=
  Pipeline.Window.ofSpec (Memref.whole main_arg3) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v35) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v36) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg17) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg18) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg19) S128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg20) S128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg21) S128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_arg22) S128x128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_arg23) S128.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_arg24) S128x3.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_arg25) S3.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_v37) S2000x3.size cc1_transform_13 reads1_13 true false 2 stage1_13 sem1_13
    hrank1 hreads1_13 hinb1_13 nbuf1_13 (Memref.isWhole_whole _) hwx1_13 hstage1_13

abbrev win1 : Fin 14 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | ⟨_ + 14, h⟩ => absurd h (Nat.not_lt.2 (Nat.le_add_left _ _))
abbrev spec1 : Fin 14 → Pipeline.WinSpec sig grid1.rank := fun w => (win1 w).toWinSpec

class Facts : Prop extends Facts₀ where

variable [Facts]
-- ==== ReferenceIdeal.lean ====
abbrev S400000x2 : Shape := ⟨2, ![400000, 2]⟩
abbrev S400000x3 : Shape := ⟨2, ![400000, 3]⟩
abbrev S50000x128 : Shape := ⟨2, ![50000, 128]⟩
abbrev S3x128 : Shape := ⟨2, ![3, 128]⟩
abbrev S128 : Shape := ⟨1, ![128]⟩
abbrev S128x128 : Shape := ⟨2, ![128, 128]⟩
abbrev S384x128 : Shape := ⟨2, ![384, 128]⟩
abbrev S256x128 : Shape := ⟨2, ![256, 128]⟩
abbrev S128x3 : Shape := ⟨2, ![128, 3]⟩
abbrev S3 : Shape := ⟨1, ![3]⟩
abbrev S400000x1 : Shape := ⟨2, ![400000, 1]⟩
abbrev S400000 : Shape := ⟨1, ![400000]⟩
abbrev S400000x128 : Shape := ⟨2, ![400000, 128]⟩
abbrev S1x128 : Shape := ⟨2, ![1, 128]⟩
abbrev S_ : Shape := ⟨0, ![]⟩
abbrev S400000x384 : Shape := ⟨2, ![400000, 384]⟩
abbrev S50000x1 : Shape := ⟨2, ![50000, 1]⟩
abbrev S50000x256 : Shape := ⟨2, ![50000, 256]⟩
abbrev S50000 : Shape := ⟨1, ![50000]⟩
abbrev S50000x3 : Shape := ⟨2, ![50000, 3]⟩
abbrev S1x3 : Shape := ⟨2, ![1, 3]⟩

abbrev nBuf : Space → Nat
  | .hbm => 219
  | .vmem => 0
  | .smem => 0
  | _ => 0

abbrev hbmTy0_0 (i : Nat) : BufTy := match i % 128 with
  | 0 => ⟨S400000x2, .i32⟩
  | 1 => ⟨S400000x3, .f32⟩
  | 2 => ⟨S50000x128, .f32⟩
  | 3 => ⟨S50000x128, .f32⟩
  | 4 => ⟨S3x128, .f32⟩
  | 5 => ⟨S128, .f32⟩
  | 6 => ⟨S128x128, .f32⟩
  | 7 => ⟨S128, .f32⟩
  | 8 => ⟨S128, .f32⟩
  | 9 => ⟨S128, .f32⟩
  | 10 => ⟨S384x128, .f32⟩
  | 11 => ⟨S128, .f32⟩
  | 12 => ⟨S128x128, .f32⟩
  | 13 => ⟨S128, .f32⟩
  | 14 => ⟨S128, .f32⟩
  | 15 => ⟨S128, .f32⟩
  | 16 => ⟨S256x128, .f32⟩
  | 17 => ⟨S128, .f32⟩
  | 18 => ⟨S128x128, .f32⟩
  | 19 => ⟨S128, .f32⟩
  | 20 => ⟨S128, .f32⟩
  | 21 => ⟨S128, .f32⟩
  | 22 => ⟨S128x128, .f32⟩
  | 23 => ⟨S128, .f32⟩
  | 24 => ⟨S128x3, .f32⟩
  | 25 => ⟨S3, .f32⟩
  | 26 => ⟨S400000x1, .i32⟩
  | 27 => ⟨S400000, .i32⟩
  | 28 => ⟨S400000x1, .i32⟩
  | 29 => ⟨S400000, .i32⟩
  | 30 => ⟨S400000x128, .f32⟩
  | 31 => ⟨S1x128, .f32⟩
  | 32 => ⟨S400000x128, .f32⟩
  | 33 => ⟨S400000x128, .f32⟩
  | 34 => ⟨S400000x128, .f32⟩
  | 35 => ⟨S400000x128, .f32⟩
  | 36 => ⟨S_, .f32⟩
  | 37 => ⟨S400000x128, .f32⟩
  | 38 => ⟨S400000x128, .f32⟩
  | 39 => ⟨S_, .f32⟩
  | 40 => ⟨S400000x128, .f32⟩
  | 41 => ⟨S400000x128, .f32⟩
  | 42 => ⟨S400000x128, .f32⟩
  | 43 => ⟨S400000x128, .f32⟩
  | 44 => ⟨S1x128, .f32⟩
  | 45 => ⟨S400000x128, .f32⟩
  | 46 => ⟨S400000x128, .f32⟩
  | 47 => ⟨S_, .f32⟩
  | 48 => ⟨S400000, .f32⟩
  | 49 => ⟨S400000x1, .f32⟩
  | 50 => ⟨S_, .f32⟩
  | 51 => ⟨S400000x1, .f32⟩
  | 52 => ⟨S400000x1, .f32⟩
  | 53 => ⟨S400000x128, .f32⟩
  | 54 => ⟨S400000x128, .f32⟩
  | 55 => ⟨S400000x128, .f32⟩
  | 56 => ⟨S_, .f32⟩
  | 57 => ⟨S400000, .f32⟩
  | 58 => ⟨S400000x1, .f32⟩
  | 59 => ⟨S_, .f32⟩
  | 60 => ⟨S400000x1, .f32⟩
  | 61 => ⟨S400000x1, .f32⟩
  | 62 => ⟨S400000x128, .f32⟩
  | 63 => ⟨S400000x128, .f32⟩
  | 64 => ⟨S_, .f32⟩
  | 65 => ⟨S400000x1, .f32⟩
  | 66 => ⟨S400000x1, .f32⟩
  | 67 => ⟨S400000x1, .f32⟩
  | 68 => ⟨S400000x128, .f32⟩
  | 69 => ⟨S400000x128, .f32⟩
  | 70 => ⟨S1x128, .f32⟩
  | 71 => ⟨S400000x128, .f32⟩
  | 72 => ⟨S400000x128, .f32⟩
  | 73 => ⟨S1x128, .f32⟩
  | 74 => ⟨S400000x128, .f32⟩
  | 75 => ⟨S400000x128, .f32⟩
  | 76 => ⟨S_, .i32⟩
  | 77 => ⟨S400000, .i32⟩
  | 78 => ⟨S400000, .i1⟩
  | 79 => ⟨S_, .i32⟩
  | 80 => ⟨S400000, .i32⟩
  | 81 => ⟨S400000, .i32⟩
  | 82 => ⟨S400000, .i32⟩
  | 83 => ⟨S400000x1, .i32⟩
  | 84 => ⟨S400000x128, .f32⟩
  | 85 => ⟨S_, .i32⟩
  | 86 => ⟨S400000, .i32⟩
  | 87 => ⟨S400000, .i1⟩
  | 88 => ⟨S_, .i32⟩
  | 89 => ⟨S400000, .i32⟩
  | 90 => ⟨S400000, .i32⟩
  | 91 => ⟨S400000, .i32⟩
  | 92 => ⟨S400000x1, .i32⟩
  | 93 => ⟨S400000x128, .f32⟩
  | 94 => ⟨S400000x384, .f32⟩
  | 95 => ⟨S400000x128, .f32⟩
  | 96 => ⟨S1x128, .f32⟩
  | 97 => ⟨S400000x128, .f32⟩
  | 98 => ⟨S400000x128, .f32⟩
  | 99 => ⟨S400000x128, .f32⟩
  | 100 => ⟨S400000x128, .f32⟩
  | 101 => ⟨S_, .f32⟩
  | 102 => ⟨S400000x128, .f32⟩
  | 103 => ⟨S400000x128, .f32⟩
  | 104 => ⟨S_, .f32⟩
  | 105 => ⟨S400000x128, .f32⟩
  | 106 => ⟨S400000x128, .f32⟩
  | 107 => ⟨S400000x128, .f32⟩
  | 108 => ⟨S400000x128, .f32⟩
  | 109 => ⟨S1x128, .f32⟩
  | 110 => ⟨S400000x128, .f32⟩
  | 111 => ⟨S400000x128, .f32⟩
  | 112 => ⟨S_, .f32⟩
  | 113 => ⟨S400000, .f32⟩
  | 114 => ⟨S400000x1, .f32⟩
  | 115 => ⟨S_, .f32⟩
  | 116 => ⟨S400000x1, .f32⟩
  | 117 => ⟨S400000x1, .f32⟩
  | 118 => ⟨S400000x128, .f32⟩
  | 119 => ⟨S400000x128, .f32⟩
  | 120 => ⟨S400000x128, .f32⟩
  | 121 => ⟨S_, .f32⟩
  | 122 => ⟨S400000, .f32⟩
  | 123 => ⟨S400000x1, .f32⟩
  | 124 => ⟨S_, .f32⟩
  | 125 => ⟨S400000x1, .f32⟩
  | 126 => ⟨S400000x1, .f32⟩
  | 127 => ⟨S400000x128, .f32⟩
  | _ => ⟨S400000x2, .i32⟩

abbrev hbmTy0_1 (i : Nat) : BufTy := match i % 128 with
  | 0 => ⟨S400000x128, .f32⟩
  | 1 => ⟨S_, .f32⟩
  | 2 => ⟨S400000x1, .f32⟩
  | 3 => ⟨S400000x1, .f32⟩
  | 4 => ⟨S400000x1, .f32⟩
  | 5 => ⟨S400000x128, .f32⟩
  | 6 => ⟨S400000x128, .f32⟩
  | 7 => ⟨S1x128, .f32⟩
  | 8 => ⟨S400000x128, .f32⟩
  | 9 => ⟨S400000x128, .f32⟩
  | 10 => ⟨S1x128, .f32⟩
  | 11 => ⟨S400000x128, .f32⟩
  | 12 => ⟨S400000x128, .f32⟩
  | 13 => ⟨S_, .f32⟩
  | 14 => ⟨S50000x128, .f32⟩
  | 15 => ⟨S400000x1, .i32⟩
  | 16 => ⟨S50000x128, .f32⟩
  | 17 => ⟨S_, .f32⟩
  | 18 => ⟨S400000x1, .f32⟩
  | 19 => ⟨S_, .f32⟩
  | 20 => ⟨S50000x1, .f32⟩
  | 21 => ⟨S400000x1, .i32⟩
  | 22 => ⟨S50000x1, .f32⟩
  | 23 => ⟨S_, .f32⟩
  | 24 => ⟨S50000x1, .f32⟩
  | 25 => ⟨S50000x1, .f32⟩
  | 26 => ⟨S50000x128, .f32⟩
  | 27 => ⟨S50000x128, .f32⟩
  | 28 => ⟨S50000x256, .f32⟩
  | 29 => ⟨S50000x128, .f32⟩
  | 30 => ⟨S1x128, .f32⟩
  | 31 => ⟨S50000x128, .f32⟩
  | 32 => ⟨S50000x128, .f32⟩
  | 33 => ⟨S50000x128, .f32⟩
  | 34 => ⟨S50000x128, .f32⟩
  | 35 => ⟨S_, .f32⟩
  | 36 => ⟨S50000x128, .f32⟩
  | 37 => ⟨S50000x128, .f32⟩
  | 38 => ⟨S_, .f32⟩
  | 39 => ⟨S50000x128, .f32⟩
  | 40 => ⟨S50000x128, .f32⟩
  | 41 => ⟨S50000x128, .f32⟩
  | 42 => ⟨S50000x128, .f32⟩
  | 43 => ⟨S1x128, .f32⟩
  | 44 => ⟨S50000x128, .f32⟩
  | 45 => ⟨S50000x128, .f32⟩
  | 46 => ⟨S_, .f32⟩
  | 47 => ⟨S50000, .f32⟩
  | 48 => ⟨S50000x1, .f32⟩
  | 49 => ⟨S_, .f32⟩
  | 50 => ⟨S50000x1, .f32⟩
  | 51 => ⟨S50000x1, .f32⟩
  | 52 => ⟨S50000x128, .f32⟩
  | 53 => ⟨S50000x128, .f32⟩
  | 54 => ⟨S50000x128, .f32⟩
  | 55 => ⟨S_, .f32⟩
  | 56 => ⟨S50000, .f32⟩
  | 57 => ⟨S50000x1, .f32⟩
  | 58 => ⟨S_, .f32⟩
  | 59 => ⟨S50000x1, .f32⟩
  | 60 => ⟨S50000x1, .f32⟩
  | 61 => ⟨S50000x128, .f32⟩
  | 62 => ⟨S50000x128, .f32⟩
  | 63 => ⟨S_, .f32⟩
  | 64 => ⟨S50000x1, .f32⟩
  | 65 => ⟨S50000x1, .f32⟩
  | 66 => ⟨S50000x1, .f32⟩
  | 67 => ⟨S50000x128, .f32⟩
  | 68 => ⟨S50000x128, .f32⟩
  | 69 => ⟨S1x128, .f32⟩
  | 70 => ⟨S50000x128, .f32⟩
  | 71 => ⟨S50000x128, .f32⟩
  | 72 => ⟨S1x128, .f32⟩
  | 73 => ⟨S50000x128, .f32⟩
  | 74 => ⟨S50000x128, .f32⟩
  | 75 => ⟨S50000x128, .f32⟩
  | 76 => ⟨S1x128, .f32⟩
  | 77 => ⟨S50000x128, .f32⟩
  | 78 => ⟨S50000x128, .f32⟩
  | 79 => ⟨S50000x128, .f32⟩
  | 80 => ⟨S50000x128, .f32⟩
  | 81 => ⟨S_, .f32⟩
  | 82 => ⟨S50000x128, .f32⟩
  | 83 => ⟨S50000x128, .f32⟩
  | 84 => ⟨S_, .f32⟩
  | 85 => ⟨S50000x128, .f32⟩
  | 86 => ⟨S50000x128, .f32⟩
  | 87 => ⟨S50000x3, .f32⟩
  | 88 => ⟨S1x3, .f32⟩
  | 89 => ⟨S50000x3, .f32⟩
  | 90 => ⟨S50000x3, .f32⟩
  | _ => ⟨S400000x2, .i32⟩

abbrev hbmTy (i : Nat) : BufTy := match i / 128 with
  | 0 => hbmTy0_0 i
  | 1 => hbmTy0_1 i
  | _ => ⟨S400000x2, .i32⟩

abbrev bufTy : (tb : Table) → Fin (tcTables nBuf tb) → BufTy
  | .hbm, ⟨i, _⟩ => hbmTy i
  | _, _ => ⟨S400000x2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_cst : Ref sig .tc := ⟨.hbm, 36, rfl⟩
abbrev main_v10 : Ref sig .tc := ⟨.hbm, 37, rfl⟩
abbrev main_v11 : Ref sig .tc := ⟨.hbm, 38, rfl⟩
abbrev main_cst_0 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_cst_1 : Ref sig .tc := ⟨.hbm, 47, rfl⟩
abbrev main_v19 : Ref sig .tc := ⟨.hbm, 48, rfl⟩
abbrev main_v20 : Ref sig .tc := ⟨.hbm, 49, rfl⟩
abbrev main_cst_2 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_cst_3 : Ref sig .tc := ⟨.hbm, 56, rfl⟩
abbrev main_v26 : Ref sig .tc := ⟨.hbm, 57, rfl⟩
abbrev main_v27 : Ref sig .tc := ⟨.hbm, 58, rfl⟩
abbrev main_cst_4 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_cst_5 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_c : Ref sig .tc := ⟨.hbm, 76, rfl⟩
abbrev main_v43 : Ref sig .tc := ⟨.hbm, 77, rfl⟩
abbrev main_v44 : Ref sig .tc := ⟨.hbm, 78, rfl⟩
abbrev main_c_6 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_c_7 : Ref sig .tc := ⟨.hbm, 85, rfl⟩
abbrev main_v50 : Ref sig .tc := ⟨.hbm, 86, rfl⟩
abbrev main_v51 : Ref sig .tc := ⟨.hbm, 87, rfl⟩
abbrev main_c_8 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_cst_9 : Ref sig .tc := ⟨.hbm, 101, rfl⟩
abbrev main_v64 : Ref sig .tc := ⟨.hbm, 102, rfl⟩
abbrev main_v65 : Ref sig .tc := ⟨.hbm, 103, rfl⟩
abbrev main_cst_10 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_cst_11 : Ref sig .tc := ⟨.hbm, 112, rfl⟩
abbrev main_v73 : Ref sig .tc := ⟨.hbm, 113, rfl⟩
abbrev main_v74 : Ref sig .tc := ⟨.hbm, 114, rfl⟩
abbrev main_cst_12 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_cst_13 : Ref sig .tc := ⟨.hbm, 121, rfl⟩
abbrev main_v80 : Ref sig .tc := ⟨.hbm, 122, rfl⟩
abbrev main_v81 : Ref sig .tc := ⟨.hbm, 123, rfl⟩
abbrev main_cst_14 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_cst_15 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_cst_16 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_cst_17 : Ref sig .tc := ⟨.hbm, 145, rfl⟩
abbrev main_v100 : Ref sig .tc := ⟨.hbm, 146, rfl⟩
abbrev main_cst_18 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_cst_19 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_cst_20 : Ref sig .tc := ⟨.hbm, 163, rfl⟩
abbrev main_v115 : Ref sig .tc := ⟨.hbm, 164, rfl⟩
abbrev main_v116 : Ref sig .tc := ⟨.hbm, 165, rfl⟩
abbrev main_cst_21 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩
abbrev main_cst_22 : Ref sig .tc := ⟨.hbm, 174, rfl⟩
abbrev main_v124 : Ref sig .tc := ⟨.hbm, 175, rfl⟩
abbrev main_v125 : Ref sig .tc := ⟨.hbm, 176, rfl⟩
abbrev main_cst_23 : Ref sig .tc := ⟨.hbm, 177, rfl⟩
abbrev main_v126 : Ref sig .tc := ⟨.hbm, 178, rfl⟩
abbrev main_v127 : Ref sig .tc := ⟨.hbm, 179, rfl⟩
abbrev main_v128 : Ref sig .tc := ⟨.hbm, 180, rfl⟩
abbrev main_v129 : Ref sig .tc := ⟨.hbm, 181, rfl⟩
abbrev main_v130 : Ref sig .tc := ⟨.hbm, 182, rfl⟩
abbrev main_cst_24 : Ref sig .tc := ⟨.hbm, 183, rfl⟩
abbrev main_v131 : Ref sig .tc := ⟨.hbm, 184, rfl⟩
abbrev main_v132 : Ref sig .tc := ⟨.hbm, 185, rfl⟩
abbrev main_cst_25 : Ref sig .tc := ⟨.hbm, 186, rfl⟩
abbrev main_v133 : Ref sig .tc := ⟨.hbm, 187, rfl⟩
abbrev main_v134 : Ref sig .tc := ⟨.hbm, 188, rfl⟩
abbrev main_v135 : Ref sig .tc := ⟨.hbm, 189, rfl⟩
abbrev main_v136 : Ref sig .tc := ⟨.hbm, 190, rfl⟩
abbrev main_cst_26 : Ref sig .tc := ⟨.hbm, 191, rfl⟩
abbrev main_v137 : Ref sig .tc := ⟨.hbm, 192, rfl⟩
abbrev main_v138 : Ref sig .tc := ⟨.hbm, 193, rfl⟩
abbrev main_v139 : Ref sig .tc := ⟨.hbm, 194, rfl⟩
abbrev main_v140 : Ref sig .tc := ⟨.hbm, 195, rfl⟩
abbrev main_v141 : Ref sig .tc := ⟨.hbm, 196, rfl⟩
abbrev main_v142 : Ref sig .tc := ⟨.hbm, 197, rfl⟩
abbrev main_v143 : Ref sig .tc := ⟨.hbm, 198, rfl⟩
abbrev main_v144 : Ref sig .tc := ⟨.hbm, 199, rfl⟩
abbrev main_v145 : Ref sig .tc := ⟨.hbm, 200, rfl⟩
abbrev main_v146 : Ref sig .tc := ⟨.hbm, 201, rfl⟩
abbrev main_v147 : Ref sig .tc := ⟨.hbm, 202, rfl⟩
abbrev main_v148 : Ref sig .tc := ⟨.hbm, 203, rfl⟩
abbrev main_v149 : Ref sig .tc := ⟨.hbm, 204, rfl⟩
abbrev main_v150 : Ref sig .tc := ⟨.hbm, 205, rfl⟩
abbrev main_v151 : Ref sig .tc := ⟨.hbm, 206, rfl⟩
abbrev main_v152 : Ref sig .tc := ⟨.hbm, 207, rfl⟩
abbrev main_v153 : Ref sig .tc := ⟨.hbm, 208, rfl⟩
abbrev main_cst_27 : Ref sig .tc := ⟨.hbm, 209, rfl⟩
abbrev main_v154 : Ref sig .tc := ⟨.hbm, 210, rfl⟩
abbrev main_v155 : Ref sig .tc := ⟨.hbm, 211, rfl⟩
abbrev main_cst_28 : Ref sig .tc := ⟨.hbm, 212, rfl⟩
abbrev main_v156 : Ref sig .tc := ⟨.hbm, 213, rfl⟩
abbrev main_v157 : Ref sig .tc := ⟨.hbm, 214, rfl⟩
abbrev main_v158 : Ref sig .tc := ⟨.hbm, 215, rfl⟩
abbrev main_v159 : Ref sig .tc := ⟨.hbm, 216, rfl⟩
abbrev main_v160 : Ref sig .tc := ⟨.hbm, 217, rfl⟩
abbrev main_v161 : Ref sig .tc := ⟨.hbm, 218, rfl⟩

abbrev nD : Nat := 1
abbrev τ : Topo := Topo.v7x

variable {F : FTy → Type} [FloatOps F]

class Facts₀ : Prop where
  slices_S400000x2_S400000x1_0_0 : S400000x2.Slices ![0, 0] S400000x1
  shapeCasts_S400000x1_S400000 : S400000x1.ShapeCasts S400000
  slices_S400000x2_S400000x1_0_1 : S400000x2.Slices ![0, 1] S400000x1
  bcast_S128_S1x128_1 : S128.BroadcastsInDim S1x128 (![1] : Fin 1 → Fin S1x128.rank)
  bcast_S1x128_S400000x128_0_1 : S1x128.BroadcastsInDim S400000x128 (![0, 1] : Fin 2 → Fin S400000x128.rank)
  bcast_S_S400000x128 : S_.BroadcastsInDim S400000x128 (![] : Fin 0 → Fin S400000x128.rank)
  reducesTo_S400000x128_S400000_d1 : S400000x128.ReducesTo [1] S400000
  h_S_ : 0 < S_.numel
  bcast_S400000_S400000x1_0 : S400000.BroadcastsInDim S400000x1 (![0] : Fin 1 → Fin S400000x1.rank)
  bcast_S_S400000x1 : S_.BroadcastsInDim S400000x1 (![] : Fin 0 → Fin S400000x1.rank)
  bcast_S400000x1_S400000x128_0_1 : S400000x1.BroadcastsInDim S400000x128 (![0, 1] : Fin 2 → Fin S400000x128.rank)
  bcast_S_S400000 : S_.BroadcastsInDim S400000 (![] : Fin 0 → Fin S400000.rank)
  concatenates_S400000x128_S400000x128_S400000x128_S400000x384_d1 : Shape.Concatenates [S400000x128, S400000x128, S400000x128] S400000x384 1
  bcast_S_S50000x128 : S_.BroadcastsInDim S50000x128 (![] : Fin 0 → Fin S50000x128.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  concatenates_S50000x128_S50000x128_S50000x256_d1 : Shape.Concatenates [S50000x128, S50000x128] S50000x256 1
  bcast_S1x128_S50000x128_0_1 : S1x128.BroadcastsInDim S50000x128 (![0, 1] : Fin 2 → Fin S50000x128.rank)
  reducesTo_S50000x128_S50000_d1 : S50000x128.ReducesTo [1] S50000
  bcast_S50000_S50000x1_0 : S50000.BroadcastsInDim S50000x1 (![0] : Fin 1 → Fin S50000x1.rank)
  bcast_S3_S1x3_1 : S3.BroadcastsInDim S1x3 (![1] : Fin 1 → Fin S1x3.rank)
  bcast_S1x3_S50000x3_0_1 : S1x3.BroadcastsInDim S50000x3 (![0, 1] : Fin 2 → Fin S50000x3.rank)
  dot_S400000x3_S3x128_S400000x128_1_0_0_1_n_n_wf : DotDims.WF S400000x3 S3x128 S400000x128 [1] [0] [0] [1] [] []
  dot_S400000x128_S128x128_S400000x128_1_0_0_1_n_n_wf : DotDims.WF S400000x128 S128x128 S400000x128 [1] [0] [0] [1] [] []
  gather_S50000x128_S400000x1_S400000x128_1_0_n_n_0_1_1128_wf : GatherDims.WF S50000x128 S400000x1 S400000x128 [1] [0] [] [0] [] 1 ![1, 128]
  dot_S400000x384_S384x128_S400000x128_1_0_0_1_n_n_wf : DotDims.WF S400000x384 S384x128 S400000x128 [1] [0] [0] [1] [] []
  scatter_S50000x128_S400000x1_S400000x128_1_0_0_1_wf : ScatterDims.WF S50000x128 S400000x1 S400000x128 [1] [0] [0] 1
  scatter_S50000x1_S400000x1_S400000x1_1_0_0_1_wf : ScatterDims.WF S50000x1 S400000x1 S400000x1 [1] [0] [0] 1
  dot_S50000x256_S256x128_S50000x128_1_0_0_1_n_n_wf : DotDims.WF S50000x256 S256x128 S50000x128 [1] [0] [0] [1] [] []
  dot_S50000x128_S128x128_S50000x128_1_0_0_1_n_n_wf : DotDims.WF S50000x128 S128x128 S50000x128 [1] [0] [0] [1] [] []
  dot_S50000x128_S128x3_S50000x3_1_0_0_1_n_n_wf : DotDims.WF S50000x128 S128x3 S50000x3 [1] [0] [0] [1] [] []

variable [Facts₀]

def dot_S400000x3_S3x128_S400000x128_1_0_0_1_n_n : DotDims S400000x3 S3x128 S400000x128 where
  lhsContracting := [1]
  rhsContracting := [0]
  lhsNonContracting := [0]
  rhsNonContracting := [1]
  lhsBatch := []
  rhsBatch := []
  wf := dot_S400000x3_S3x128_S400000x128_1_0_0_1_n_n_wf
def dot_S400000x128_S128x128_S400000x128_1_0_0_1_n_n : DotDims S400000x128 S128x128 S400000x128 where
  lhsContracting := [1]
  rhsContracting := [0]
  lhsNonContracting := [0]
  rhsNonContracting := [1]
  lhsBatch := []
  rhsBatch := []
  wf := dot_S400000x128_S128x128_S400000x128_1_0_0_1_n_n_wf
def gather_S50000x128_S400000x1_S400000x128_1_0_n_n_0_1_1128 : GatherDims S50000x128 S400000x1 S400000x128 where
  offsetDims := [1]
  collapsedSliceDims := [0]
  operandBatchingDims := []
  startIndicesBatchingDims := []
  startIndexMap := [0]
  indexVectorDim := 1
  sliceSizes := ![1, 128]
  wf := gather_S50000x128_S400000x1_S400000x128_1_0_n_n_0_1_1128_wf
def dot_S400000x384_S384x128_S400000x128_1_0_0_1_n_n : DotDims S400000x384 S384x128 S400000x128 where
  lhsContracting := [1]
  rhsContracting := [0]
  lhsNonContracting := [0]
  rhsNonContracting := [1]
  lhsBatch := []
  rhsBatch := []
  wf := dot_S400000x384_S384x128_S400000x128_1_0_0_1_n_n_wf
def scatter_S50000x128_S400000x1_S400000x128_1_0_0_1 : ScatterDims S50000x128 S400000x1 S400000x128 where
  updateWindowDims := [1]
  insertedWindowDims := [0]
  scatterDimsToOperandDims := [0]
  indexVectorDim := 1
  wf := scatter_S50000x128_S400000x1_S400000x128_1_0_0_1_wf
def scatter_S50000x1_S400000x1_S400000x1_1_0_0_1 : ScatterDims S50000x1 S400000x1 S400000x1 where
  updateWindowDims := [1]
  insertedWindowDims := [0]
  scatterDimsToOperandDims := [0]
  indexVectorDim := 1
  wf := scatter_S50000x1_S400000x1_S400000x1_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x3_S50000x3_1_0_0_1_n_n : DotDims S50000x128 S128x3 S50000x3 where
  lhsContracting := [1]
  rhsContracting := [0]
  lhsNonContracting := [0]
  rhsNonContracting := [1]
  lhsBatch := []
  rhsBatch := []
  wf := dot_S50000x128_S128x3_S50000x3_1_0_0_1_n_n_wf

class Facts : Prop extends Facts₀ where

variable [Facts]
-- ==== Proof.KernelRun.lean ====
/-
  The idealized program's run with every unscoped buffer's final contents kept. Every weakly fair execution of @main on
  the TensorCores terminates without a fault, and in every final state each unscoped buffer of a core holds what the
  fold through @main's segments leaves in it: the host stretches applied to the launch memory, each kernel region's
  arrays at what its blocks' write-backs leave. The two results are read off this fold: the edge latents are region 0's
  output array 17 (nothing later writes it), the node outputs region 1's output array 13.
-/
import proofs.«115111_j71949292142783_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, and every unscoped buffer ends at the fold's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

end Cert.KernelIdeal.Run

end
-- ==== Proof.LibPlainDot.lean ====
/-
  A plain matrix product at the exact extended reals: for dimension numbers that contract the left operand's
  second axis against the right operand's first (no batch axis), the contraction sum at the output entry (p, q)
  is the sum over k of left (p, k) times right (k, q). From that, two readings of "rows times columns plus a row
  vector": a matrix unit's product into a zero accumulator with the vector re-laid as one row and repeated down the
  rows, and a host contraction with the vector broadcast in two steps. Both are the function `affine`. Also: the
  logistic function is one over one plus the exponential of the negated argument, on every extended real.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LibPlainDot

open Idealize.ShloMosaic Idealize.ShloMosaic.ValueIdx

/-- The output entry (p, q) of rows-times-columns plus a row vector: the sum over k of x (p, k) · w (k, q), plus b q. -/
def affine {M K N : ℕ} (x : FVec Ideal ⟨2, ![M, K]⟩ .f32) (w : FVec Ideal ⟨2, ![K, N]⟩ .f32) (b : FVec Ideal ⟨1, ![N]⟩ .f32) :
    FVec Ideal ⟨2, ![M, N]⟩ .f32 :=
  fun i => (∑ k : Fin K, x (ix2 (n0 := M) (i 0) k) * w (ix2 (n1 := N) k (i 1))) + b (ix1 (n := N) (i 1))

theorem affine_apply {M K N : ℕ} (x : FVec Ideal ⟨2, ![M, K]⟩ .f32) (w : FVec Ideal ⟨2, ![K, N]⟩ .f32) (b : FVec Ideal ⟨1, ![N]⟩ .f32)
    (p : Fin M) (q : Fin N) : affine x w b (ix2 p q) = (∑ k : Fin K, x (ix2 p k) * w (ix2 k q)) + b (ix1 q) := rfl

/-- A block of T rows of `affine`: when x holds rows r … r + T − 1 of X, and w and b are W and B, the block's entry at y
    is `affine X W B` at the array index i whose row is r plus y's row and whose column is y's. -/
theorem affine_rows {M K N T : ℕ} (X : FVec Ideal ⟨2, ![M, K]⟩ .f32) (W : FVec Ideal ⟨2, ![K, N]⟩ .f32) (B : FVec Ideal ⟨1, ![N]⟩ .f32)
    (x : FVec Ideal ⟨2, ![T, K]⟩ .f32) (w : FVec Ideal ⟨2, ![K, N]⟩ .f32) (b : FVec Ideal ⟨1, ![N]⟩ .f32) (r : ℕ)
    (hx : ∀ (p : Fin T) (k : Fin K) (hp : r + p.val < M), x (ix2 p k) = X (ix2 ⟨r + p.val, hp⟩ k))
    (hw : ∀ z, w z = W z) (hb : ∀ z, b z = B z)
    (y : (⟨2, ![T, N]⟩ : Shape).Idx) (i : (⟨2, ![M, N]⟩ : Shape).Idx)
    (hi0 : (i 0).val = r + (y 0).val) (hi1 : (i 1).val = (y 1).val) :
    affine x w b y = affine X W B i := by
  obtain ⟨p, q, rfl⟩ : ∃ (p : Fin T) (q : Fin N), y = ix2 p q := ⟨y 0, y 1, eq_ix2 y⟩
  obtain ⟨p', q', rfl⟩ : ∃ (p' : Fin M) (q' : Fin N), i = ix2 p' q' := ⟨i 0, i 1, eq_ix2 i⟩
  have h0 : p'.val = r + p.val := hi0
  have h1 : q' = q := Fin.ext hi1
  subst h1
  have hp' : p' = ⟨r + p.val, h0 ▸ p'.isLt⟩ := Fin.ext h0
  rw [affine_apply, affine_apply, hb]
  refine congrArg (· + B (ix1 q')) (Finset.sum_congr rfl fun k _ => ?_)
  rw [hx p k (h0 ▸ p'.isLt), hw, ← hp']

/-- The contraction index of a plain product is its one coordinate, so the contraction sum is a sum over `Fin K`. -/
theorem plain_sum {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (l : (⟨2, ![M, K]⟩ : Shape).Idx → EReal) (r : (⟨2, ![K, N]⟩ : Shape).Idx → EReal) (p : Fin M) (q : Fin N) :
    ∑ k : d.contr.Idx, l (d.lhsIdx (ix2 p q) k) * r (d.rhsIdx (ix2 p q) k) = ∑ k : Fin K, l (ix2 p k) * r (ix2 k q) := by
  obtain ⟨lc, rc, ln, rn, lb, rb, wf⟩ := d
  simp only at h1 h2 h3 h4 h5 h6
  subst h1 h2 h3 h4 h5 h6
  generalize hD : (⟨[1], [0], [0], [1], [], [], wf⟩ : DotDims ⟨2, ![M, K]⟩ ⟨2, ![K, N]⟩ ⟨2, ![M, N]⟩) = D
  have c1 : D.lhsContracting = [1] := by subst hD; rfl
  have c2 : D.rhsContracting = [0] := by subst hD; rfl
  have hr : D.contr.rank = 1 := by subst hD; rfl
  have hs : D.contr.size ⟨0, by omega⟩ = K := by subst hD; rfl
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ =>
      subst hD
      unfold DotDims.lhsIdx
      split
      · rename_i hb; exact absurd hb List.not_mem_nil
      · split
        · rfl
        · rename_i hn; exact absurd (List.mem_singleton.mpr rfl) hn
    | ⟨1, _⟩ => exact (D.lhsIdx_val_of_single c1 _ _).trans hk)
  have er : D.rhsIdx (ix2 p q) ((contrEquiv1 D K hr hs).symm k) = ix2 k q := funext fun a => Fin.ext (by
    match a with
    | ⟨0, _⟩ => exact (D.rhsIdx_val_of_single c2 _ _).trans hk
    | ⟨1, _⟩ =>
      subst hD
      unfold DotDims.rhsIdx
      split
      · rename_i hb; exact absurd hb List.not_mem_nil
      · split
        · rfl
        · rename_i hn; exact absurd (List.mem_singleton.mpr rfl) hn)
  rw [el, er]

/-- A matrix unit's product of two operands narrowed to bf16 into a zero accumulator, plus a vector re-laid as one
    row and repeated down the rows: at (p, q) it is `affine`. Narrowing is the identity on exact values. -/
theorem matmul_bias_apply {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x : FVec Ideal ⟨2, ![M, K]⟩ .f32) (w : FVec Ideal ⟨2, ![K, N]⟩ .f32) (b : FVec Ideal ⟨1, ![N]⟩ .f32)
    (hb : FTy.bf16.bits < FTy.f32.bits)
    (hc : (⟨1, ![N]⟩ : Shape).ShapeCasts ⟨2, ![1, N]⟩) (hbc : (⟨2, ![1, N]⟩ : Shape).Broadcasts ⟨2, ![M, N]⟩)
    (p : Fin M) (q : Fin N) :
    addf (matmul d none (truncf .bf16 x hb) (truncf .bf16 w hb) (constant ⟨2, ![M, N]⟩ .f32 0x00000000#32))
        (broadcastTo ⟨2, ![M, N]⟩ (shapeCast ⟨2, ![1, N]⟩ b hc) hbc) (ix2 p q)
      = affine x w b (ix2 p q) := by
  rw [affine_apply, addf_apply, broadcastTo_1b_ab_apply, shapeCast_a_1a_apply]
  refine congrArg (· + b (ix1 q)) ?_
  refine (Ideal.matmul_constant_zero_apply d none _ _ (ix2 p q)).trans ?_
  exact plain_sum d h1 h2 h3 h4 h5 h6 x w p q

/-- A vector broadcast to one row reads, at (u, i), the vector at i. -/
theorem bcast_a_1a_apply {a : ℕ} (x : (⟨1, ![a]⟩ : Shape).Idx → EReal)
    (h : (⟨1, ![a]⟩ : Shape).BroadcastsInDim ⟨2, ![1, a]⟩ ![1]) (u : Fin 1) (i : Fin a) :
    broadcastInDim ⟨2, ![1, a]⟩ ![1] h x (ix2 u i) = x (ix1 i) :=
  broadcastInDim_apply _ h x _ _ (fun ax => match ax with
    | ⟨0, _⟩ => by
      show i.val = if a = 1 then 0 else i.val
      split
      · have := i.isLt; omega
      · rfl)

/-- One row broadcast down the rows reads, at (p, c), the row at c. -/
theorem bcast_1b_ab_apply {a b : ℕ} (v : (⟨2, ![1, b]⟩ : Shape).Idx → EReal)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) :=
  broadcastInDim_apply _ h v _ (ix2 (0 : Fin 1) c) (fun ax => match ax with
    | ⟨0, _⟩ => by
      show (0 : ℕ) = if (1 : ℕ) = 1 then 0 else p.val
      rw [if_pos rfl]
    | ⟨1, _⟩ => by
      show c.val = if b = 1 then 0 else c.val
      split
      · have := c.isLt; omega
      · rfl)

/-- A host contraction of the same kind plus the vector broadcast to one row and then down the rows: `affine`. -/
theorem dot_bias_eq {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x : FVec Ideal ⟨2, ![M, K]⟩ .f32) (w : FVec Ideal ⟨2, ![K, N]⟩ .f32) (b : FVec Ideal ⟨1, ![N]⟩ .f32)
    (hr : (⟨1, ![N]⟩ : Shape).BroadcastsInDim ⟨2, ![1, N]⟩ ![1])
    (hbc : (⟨2, ![1, N]⟩ : Shape).BroadcastsInDim ⟨2, ![M, N]⟩ ![0, 1]) :
    addf (Host.dotGeneral (F := Ideal) d none x w)
        (broadcastInDim ⟨2, ![M, N]⟩ ![0, 1] hbc (broadcastInDim ⟨2, ![1, N]⟩ ![1] hr b))
      = affine x w b := by
  funext j
  obtain ⟨p, q, rfl⟩ : ∃ (p : Fin M) (q : Fin N), j = ix2 p q := ⟨j 0, j 1, eq_ix2 j⟩
  rw [affine_apply, addf_apply, bcast_1b_ab_apply, bcast_a_1a_apply]
  refine congrArg (· + b (ix1 q)) ?_
  simp only [Host.dotGeneral]
  rw [Ideal.dotGeneral_apply]
  exact plain_sum d h1 h2 h3 h4 h5 h6 x w p q

/-- The float word of 1.0 denotes the extended real one. -/
theorem one_f32 : Ideal.ofBits .f32 0x3F800000#32 = 1 := IdealRules.sign_bit.ideal_onePat .f32

/-- The host's spelling of the logistic function — one over (one plus the exponential of the negation), the ones
    broadcast constants — is, entry by entry, the logistic function a vector unit applies. -/
theorem host_sigmoid_eq {s : Shape} (y : FVec Ideal s .f32) (h : (⟨0, ![]⟩ : Shape).BroadcastsInDim s ![]) :
    Host.divf (F := Ideal) (broadcastInDim s ![] h (constant (F := Ideal) ⟨0, ![]⟩ .f32 0x3F800000#32))
        (addf (broadcastInDim s ![] h (constant (F := Ideal) ⟨0, ![]⟩ .f32 0x3F800000#32)) (Host.exp (F := Ideal) (Host.negf (F := Ideal) y)))
      = logistic y := by
  funext i
  simp only [Host.divf, Host.exp, Host.negf, addf, logistic, broadcastInDim, constant, Ideal.hostDivf_def, Ideal.logistic_def,
    Ideal.ofBits_def, one_f32, Ideal.logistic, Ideal.addf_def, Ideal.hostUnary_exp_def, Ideal.hostNegf_def, Ideal.negf_def]

/-- One graph layer's update of the node features: the logistic function of (features plus aggregated neighbours) times
    the weights plus the bias. -/
def ginLayer {M K N : ℕ} (h n : FVec Ideal ⟨2, ![M, K]⟩ .f32) (w : FVec Ideal ⟨2, ![K, N]⟩ .f32) (b : FVec Ideal ⟨1, ![N]⟩ .f32) :
    FVec Ideal ⟨2, ![M, N]⟩ .f32 :=
  fun i => Ideal.logistic (affine (fun j => h j + n j) w b i)

/-- The vector unit's form: the two operands (each through an identity re-lay) added, narrowed, multiplied into a zero
    accumulator, the bias row added, the logistic function applied. -/
theorem gin_pay_eq {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x n : FVec Ideal ⟨2, ![M, K]⟩ .f32) (w : FVec Ideal ⟨2, ![K, N]⟩ .f32) (b : FVec Ideal ⟨1, ![N]⟩ .f32)
    (hb : FTy.bf16.bits < FTy.f32.bits) (hs : (⟨2, ![M, K]⟩ : Shape).ShapeCasts ⟨2, ![M, K]⟩)
    (hc : (⟨1, ![N]⟩ : Shape).ShapeCasts ⟨2, ![1, N]⟩) (hbc : (⟨2, ![1, N]⟩ : Shape).Broadcasts ⟨2, ![M, N]⟩) :
    logistic (addf (matmul d none (truncf .bf16 (addf (shapeCast ⟨2, ![M, K]⟩ x hs) (shapeCast ⟨2, ![M, K]⟩ n hs)) hb) (truncf .bf16 w hb)
        (constant ⟨2, ![M, N]⟩ .f32 0x00000000#32)) (broadcastTo ⟨2, ![M, N]⟩ (shapeCast ⟨2, ![1, N]⟩ b hc) hbc))
      = ginLayer x n w b := by
  funext j
  obtain ⟨p, q, rfl⟩ : ∃ (p : Fin M) (q : Fin N), j = ix2 p q := ⟨j 0, j 1, eq_ix2 j⟩
  rw [shapeCast_self, shapeCast_self]
  show Ideal.logistic _ = Ideal.logistic _
  exact congrArg Ideal.logistic (matmul_bias_apply d h1 h2 h3 h4 h5 h6 (addf x n) w b hb hc hbc p q)

/-- A block of T rows of a layer's update, as `affine_rows`. -/
theorem ginLayer_rows {M K N T : ℕ} (H Nb : FVec Ideal ⟨2, ![M, K]⟩ .f32) (W : FVec Ideal ⟨2, ![K, N]⟩ .f32) (B : FVec Ideal ⟨1, ![N]⟩ .f32)
    (x n : FVec Ideal ⟨2, ![T, K]⟩ .f32) (w : FVec Ideal ⟨2, ![K, N]⟩ .f32) (b : FVec Ideal ⟨1, ![N]⟩ .f32) (r : ℕ)
    (hx : ∀ (p : Fin T) (k : Fin K) (hp : r + p.val < M), x (ix2 p k) = H (ix2 ⟨r + p.val, hp⟩ k))
    (hn : ∀ (p : Fin T) (k : Fin K) (hp : r + p.val < M), n (ix2 p k) = Nb (ix2 ⟨r + p.val, hp⟩ k))
    (hw : ∀ z, w z = W z) (hb : ∀ z, b z = B z)
    (y : (⟨2, ![T, N]⟩ : Shape).Idx) (i : (⟨2, ![M, N]⟩ : Shape).Idx)
    (hi0 : (i 0).val = r + (y 0).val) (hi1 : (i 1).val = (y 1).val) :
    ginLayer x n w b y = ginLayer H Nb W B i :=
  congrArg Ideal.logistic (affine_rows (fun j => H j + Nb j) W B (fun j => x j + n j) w b r
    (fun p k hp => by show x (ix2 p k) + n (ix2 p k) = _; rw [hx p k hp, hn p k hp]) hw hb y i hi0 hi1)

/-- The host's form: the contraction of the sum with the weights, the bias broadcast in two steps, and the logistic
    function spelt as one over one plus the exponential of the negation. -/
theorem host_gin_eq {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (h n : FVec Ideal ⟨2, ![M, K]⟩ .f32) (w : FVec Ideal ⟨2, ![K, N]⟩ .f32) (b : FVec Ideal ⟨1, ![N]⟩ .f32)
    (hr : (⟨1, ![N]⟩ : Shape).BroadcastsInDim ⟨2, ![1, N]⟩ ![1])
    (hbc : (⟨2, ![1, N]⟩ : Shape).BroadcastsInDim ⟨2, ![M, N]⟩ ![0, 1])
    (hone : (⟨0, ![]⟩ : Shape).BroadcastsInDim ⟨2, ![M, N]⟩ ![]) :
    Host.divf (F := Ideal) (broadcastInDim ⟨2, ![M, N]⟩ ![] hone (constant (F := Ideal) ⟨0, ![]⟩ .f32 0x3F800000#32))
        (addf (broadcastInDim ⟨2, ![M, N]⟩ ![] hone (constant (F := Ideal) ⟨0, ![]⟩ .f32 0x3F800000#32))
          (Host.exp (F := Ideal) (Host.negf (F := Ideal) (addf (Host.dotGeneral (F := Ideal) d none (addf h n) w)
            (broadcastInDim ⟨2, ![M, N]⟩ ![0, 1] hbc (broadcastInDim ⟨2, ![1, N]⟩ ![1] hr b))))))
      = ginLayer h n w b := by
  rw [host_sigmoid_eq, dot_bias_eq d h1 h2 h3 h4 h5 h6 (addf h n) w b hr hbc]
  rfl

end Cert.LibPlainDot

end
-- ==== Proof.LibMatProd.lean ====
/-
  The product of two matrices over the extended reals, entry by entry: entry (p, q) of x times w is the sum over k of
  x (p, k) · w (k, q). Three readings of it. A host contraction of x's second axis with w's first axis is this product.
  A matrix unit's product of the two operands narrowed to bf16, accumulated into zeros, is this product, since
  narrowing changes nothing on exact values. And a band of consecutive rows of the product is the product of that band
  of rows of x with w, which is what one block of a row-tiled computation holds.
-/
import proofs.«115111_j71949292142783_2_alg».proof.Proof.LibPlainDot

noncomputable section

namespace Cert.LibMatProd

open Idealize.ShloMosaic Idealize.ShloMosaic.ValueIdx Cert.LibPlainDot

/-- Entry (p, q) of rows times columns: the sum over k of x (p, k) · w (k, q). -/
def matProd {M K N : ℕ} (x : FVec Ideal ⟨2, ![M, K]⟩ .f32) (w : FVec Ideal ⟨2, ![K, N]⟩ .f32) : FVec Ideal ⟨2, ![M, N]⟩ .f32 :=
  fun i => ∑ k : Fin K, x (ix2 (n0 := M) (i 0) k) * w (ix2 (n1 := N) k (i 1))

theorem matProd_apply {M K N : ℕ} (x : FVec Ideal ⟨2, ![M, K]⟩ .f32) (w : FVec Ideal ⟨2, ![K, N]⟩ .f32) (p : Fin M) (q : Fin N) :
    matProd x w (ix2 p q) = ∑ k : Fin K, x (ix2 p k) * w (ix2 k q) := rfl

/-- A host contraction of the left operand's second axis with the right operand's first axis is the matrix product. -/
theorem host_dot_eq {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x : FVec Ideal ⟨2, ![M, K]⟩ .f32) (w : FVec Ideal ⟨2, ![K, N]⟩ .f32) :
    Host.dotGeneral (F := Ideal) d none x w = matProd x w := by
  funext j
  obtain ⟨p, q, rfl⟩ : ∃ (p : Fin M) (q : Fin N), j = ix2 p q := ⟨j 0, j 1, eq_ix2 j⟩
  rw [matProd_apply]
  simp only [Host.dotGeneral]
  rw [Ideal.dotGeneral_apply]
  exact plain_sum d h1 h2 h3 h4 h5 h6 x w p q

/-- A matrix unit's product of two operands narrowed to bf16, accumulated into zeros, is the matrix product of the
    operands themselves: on exact values narrowing is the identity and the zero accumulator adds nothing. -/
theorem matmul_eq {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x : FVec Ideal ⟨2, ![M, K]⟩ .f32) (w : FVec Ideal ⟨2, ![K, N]⟩ .f32) (hb : FTy.bf16.bits < FTy.f32.bits) :
    matmul d none (truncf .bf16 x hb) (truncf .bf16 w hb) (constant ⟨2, ![M, N]⟩ .f32 0x00000000#32) = matProd x w := by
  funext j
  obtain ⟨p, q, rfl⟩ : ∃ (p : Fin M) (q : Fin N), j = ix2 p q := ⟨j 0, j 1, eq_ix2 j⟩
  rw [matProd_apply]
  refine (Ideal.matmul_constant_zero_apply d none _ _ (ix2 p q)).trans ?_
  exact plain_sum d h1 h2 h3 h4 h5 h6 x w p q

/-- Rows r, …, r + T − 1 of a product: when x holds those rows of X and w is W, the entry of x times w at y is the entry
    of X times W at the index whose row is r plus y's row and whose column is y's. -/
theorem matProd_rows {M K N T : ℕ} (X : FVec Ideal ⟨2, ![M, K]⟩ .f32) (W : FVec Ideal ⟨2, ![K, N]⟩ .f32)
    (x : FVec Ideal ⟨2, ![T, K]⟩ .f32) (w : FVec Ideal ⟨2, ![K, N]⟩ .f32) (r : ℕ)
    (hx : ∀ (p : Fin T) (k : Fin K) (hp : r + p.val < M), x (ix2 p k) = X (ix2 ⟨r + p.val, hp⟩ k))
    (hw : ∀ z, w z = W z)
    (y : (⟨2, ![T, N]⟩ : Shape).Idx) (i : (⟨2, ![M, N]⟩ : Shape).Idx)
    (hi0 : (i 0).val = r + (y 0).val) (hi1 : (i 1).val = (y 1).val) :
    matProd x w y = matProd X W i := by
  obtain ⟨p, q, rfl⟩ : ∃ (p : Fin T) (q : Fin N), y = ix2 p q := ⟨y 0, y 1, eq_ix2 y⟩
  obtain ⟨p', q', rfl⟩ : ∃ (p' : Fin M) (q' : Fin N), i = ix2 p' q' := ⟨i 0, i 1, eq_ix2 i⟩
  have h0 : p'.val = r + p.val := hi0
  have h1 : q' = q := Fin.ext hi1
  subst h1
  have hp' : p' = ⟨r + p.val, h0 ▸ p'.isLt⟩ := Fin.ext h0
  rw [matProd_apply, matProd_apply]
  refine Finset.sum_congr rfl fun k _ => ?_
  rw [hx p k (h0 ▸ p'.isLt), hw, ← hp']

end Cert.LibMatProd

end
-- ==== Proof.LibLayers.lean ====
/-
  The layers of a graph autoencoder as functions of whole matrices over the extended reals, entry by entry.

  Three primitives build every layer: the matrix product (entry (p, q) is the sum over k of a (p, k) · w (k, q)), the clamp
  below at zero (entry by entry the larger of the entry and the value of the all-zero float word), and the addition of a
  one-row matrix to every row. A graph-convolution layer is `clamp (adj · s)`; a dense layer is `a · w + row`.

  Each primitive has two spellings that denote it: a vector unit's (a product accumulated into zeros, whatever format its
  operands were narrowed to, since narrowing is the identity on exact values; a maximum against a splat zero; a row repeated
  down the rows) and a host's (a contraction of the second axis with the first; a maximum against a broadcast scalar zero; a
  vector broadcast to one row and then down the rows).

  A band of T consecutive rows of a layer's output is the same layer applied to that band of rows of its left operand:
  the product, the clamp and the row addition all act row by row. This is what lets a kernel that walks a matrix in bands
  of rows be read as one function of the whole matrix.
-/
import proofs.«115111_j71949292142783_2_alg».proof.Proof.LibMatProd

noncomputable section

namespace Cert.Layers

open Idealize.ShloMosaic Idealize.ShloMosaic.ValueIdx Cert.LibPlainDot Cert.LibMatProd

/-- A matrix of extended reals with M rows and N columns. -/
abbrev Mat (M N : ℕ) : Type := (⟨2, ![M, N]⟩ : Shape).Idx → EReal

/-- Entry by entry, the larger of the entry and the value of the all-zero float word. -/
def clamp {M N : ℕ} (a : Mat M N) : Mat M N := fun i => max (a i) (Ideal.ofBits .f32 0x00000000#32)

/-- A one-row matrix added to every row: entry (p, q) is a (p, q) + row (0, q). -/
def addRow {M N : ℕ} (a : Mat M N) (row : Mat 1 N) : Mat M N := fun i => a i + row (ix2 (0 : Fin 1) (i 1))

/-- A dense layer: a · w, plus the one-row matrix on every row. -/
def dense {M K N : ℕ} (a : Mat M K) (w : Mat K N) (row : Mat 1 N) : Mat M N := addRow (matProd a w) row

/-- A graph-convolution layer: the aggregation adj · s clamped below at zero. -/
def conv {M K N : ℕ} (adj : Mat M K) (s : Mat K N) : Mat M N := clamp (matProd adj s)

/-- The decoder: three dense layers, the first two clamped below at zero. -/
def decoder {M A B C D : ℕ} (z : Mat M A) (w1 : Mat A B) (b1 : Mat 1 B) (w2 : Mat B C) (b2 : Mat 1 C) (w3 : Mat C D) (b3 : Mat 1 D) :
    Mat M D :=
  dense (clamp (dense (clamp (dense z w1 b1)) w2 b2)) w3 b3

/-! ## A vector unit's spellings -/

/-- A matrix unit's product accumulated into zeros is the matrix product, whatever the operands' formats. -/
theorem unit_prod {M K N : ℕ} {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (a : FVec Ideal ⟨2, ![M, K]⟩ φ₁) (w : FVec Ideal ⟨2, ![K, N]⟩ φ₂) :
    matmul d none a w (constant ⟨2, ![M, N]⟩ .f32 0x00000000#32) = matProd (a : Mat M K) (w : Mat K N) := by
  funext j
  obtain ⟨p, q, rfl⟩ : ∃ (p : Fin M) (q : Fin N), j = ix2 p q := ⟨j 0, j 1, eq_ix2 j⟩
  rw [matProd_apply]
  refine (Ideal.matmul_constant_zero_apply d none a w (ix2 p q)).trans ?_
  exact plain_sum d h1 h2 h3 h4 h5 h6 a w p q

/-- A maximum against the splat of the zero word is the clamp. -/
theorem unit_clamp {M N : ℕ} (a : FVec Ideal ⟨2, ![M, N]⟩ .f32) :
    maximumf a (broadcast ⟨2, ![M, N]⟩ (Scalar.ofBits (F := Ideal) .f32 0x00000000#32)) = clamp (a : Mat M N) := rfl

/-- A one-row matrix, through an identity re-lay, repeated down the rows and added: the row addition. -/
theorem unit_addRow {M N : ℕ} (a : FVec Ideal ⟨2, ![M, N]⟩ .f32) (row : FVec Ideal ⟨2, ![1, N]⟩ .f32)
    (h2 : (⟨2, ![1, N]⟩ : Shape).ShapeCasts ⟨2, ![1, N]⟩) (hb : (⟨2, ![1, N]⟩ : Shape).Broadcasts ⟨2, ![M, N]⟩) :
    addf a (broadcastTo ⟨2, ![M, N]⟩ (shapeCast ⟨2, ![1, N]⟩ row h2) hb) = addRow (a : Mat M N) (row : Mat 1 N) := by
  funext j
  obtain ⟨p, q, rfl⟩ : ∃ (p : Fin M) (q : Fin N), j = ix2 p q := ⟨j 0, j 1, eq_ix2 j⟩
  rw [shapeCast_self, addf_apply, broadcastTo_1b_ab_apply]
  rfl

/-! ## A host's spellings -/

/-- A host contraction of the second axis with the first is the matrix product. -/
theorem host_prod {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (a : FVec Ideal ⟨2, ![M, K]⟩ .f32) (w : FVec Ideal ⟨2, ![K, N]⟩ .f32) :
    Host.dotGeneral (F := Ideal) d none a w = matProd (a : Mat M K) (w : Mat K N) :=
  host_dot_eq d h1 h2 h3 h4 h5 h6 a w

/-- A maximum against the broadcast scalar zero is the clamp. -/
theorem host_clamp {M N : ℕ} (a : FVec Ideal ⟨2, ![M, N]⟩ .f32) (h0 : (⟨0, ![]⟩ : Shape).BroadcastsInDim ⟨2, ![M, N]⟩ ![]) :
    maximumf a (broadcastInDim ⟨2, ![M, N]⟩ ![] h0 (constant (F := Ideal) ⟨0, ![]⟩ .f32 0x00000000#32)) = clamp (a : Mat M N) := by
  funext j
  have hz : broadcastInDim ⟨2, ![M, N]⟩ ![] h0 (constant (F := Ideal) ⟨0, ![]⟩ .f32 0x00000000#32) j
      = Ideal.ofBits .f32 0x00000000#32 :=
    (broadcastInDim_apply _ h0 _ _ (fun a => a.elim0) (fun ax => ax.elim0)).trans rfl
  rw [maximumf_apply, hz]
  rfl

/-- The one-row matrix that a vector re-laid as one row is: entry (0, q) is the vector's entry q. -/
def rowOf {N : ℕ} (b : (⟨1, ![N]⟩ : Shape).Idx → EReal) : Mat 1 N := fun i => b (ix1 (i 1))

/-- A vector broadcast to one row and then down the rows, added: the row addition of the vector as a row. -/
theorem host_addRow {M N : ℕ} (a : FVec Ideal ⟨2, ![M, N]⟩ .f32) (b : FVec Ideal ⟨1, ![N]⟩ .f32)
    (hr : (⟨1, ![N]⟩ : Shape).BroadcastsInDim ⟨2, ![1, N]⟩ ![1])
    (hbc : (⟨2, ![1, N]⟩ : Shape).BroadcastsInDim ⟨2, ![M, N]⟩ ![0, 1]) :
    addf a (broadcastInDim ⟨2, ![M, N]⟩ ![0, 1] hbc (broadcastInDim ⟨2, ![1, N]⟩ ![1] hr b)) = addRow (a : Mat M N) (rowOf b) := by
  funext j
  obtain ⟨p, q, rfl⟩ : ∃ (p : Fin M) (q : Fin N), j = ix2 p q := ⟨j 0, j 1, eq_ix2 j⟩
  rw [addf_apply, bcast_1b_ab_apply, bcast_a_1a_apply]
  rfl

/-- A vector re-laid as one row by a reshape is the same one-row matrix. -/
theorem reshape_row {N : ℕ} (b : (⟨1, ![N]⟩ : Shape).Idx → EReal) (h : (⟨1, ![N]⟩ : Shape).ShapeCasts ⟨2, ![1, N]⟩) :
    shapeCast ⟨2, ![1, N]⟩ b h = rowOf b := by
  funext j
  obtain ⟨u, q, rfl⟩ : ∃ (u : Fin 1) (q : Fin N), j = ix2 u q := ⟨j 0, j 1, eq_ix2 j⟩
  exact shapeCast_a_1a_apply b h u q

/-! ## Bands of rows -/

/-- Rows r, …, r + T − 1 of a matrix. -/
def band {M N : ℕ} (T r : ℕ) (h : r + T ≤ M) (a : Mat M N) : Mat T N :=
  fun y => a (ix2 ⟨r + (y 0).val, by have := idx2_lt0 y; omega⟩ (y 1))

theorem band_prod {M K N : ℕ} (T r : ℕ) (h : r + T ≤ M) (a : Mat M K) (w : Mat K N) :
    matProd (band T r h a) w = band T r h (matProd a w) := rfl

theorem band_clamp {M N : ℕ} (T r : ℕ) (h : r + T ≤ M) (a : Mat M N) : clamp (band T r h a) = band T r h (clamp a) := rfl

theorem band_addRow {M N : ℕ} (T r : ℕ) (h : r + T ≤ M) (a : Mat M N) (row : Mat 1 N) :
    addRow (band T r h a) row = band T r h (addRow a row) := rfl

theorem band_conv {M K N : ℕ} (T r : ℕ) (h : r + T ≤ M) (adj : Mat M K) (s : Mat K N) :
    conv (band T r h adj) s = band T r h (conv adj s) := rfl

theorem band_dense {M K N : ℕ} (T r : ℕ) (h : r + T ≤ M) (a : Mat M K) (w : Mat K N) (row : Mat 1 N) :
    dense (band T r h a) w row = band T r h (dense a w row) := rfl

theorem band_decoder {M A B C D : ℕ} (T r : ℕ) (h : r + T ≤ M) (z : Mat M A) (w1 : Mat A B) (b1 : Mat 1 B) (w2 : Mat B C)
    (b2 : Mat 1 C) (w3 : Mat C D) (b3 : Mat 1 D) :
    decoder (band T r h z) w1 b1 w2 b2 w3 b3 = band T r h (decoder z w1 b1 w2 b2 w3 b3) := rfl

/-- The band's entry at y is the matrix's entry at the index whose row is r plus y's row and whose column is y's. -/
theorem band_apply {M N : ℕ} (T r : ℕ) (h : r + T ≤ M) (a : Mat M N) (y : (⟨2, ![T, N]⟩ : Shape).Idx)
    (i : (⟨2, ![M, N]⟩ : Shape).Idx) (hi0 : (i 0).val = r + (y 0).val) (hi1 : (i 1).val = (y 1).val) :
    band T r h a y = a i := by
  refine congrArg a (funext fun d => Fin.ext ?_)
  match d with
  | ⟨0, _⟩ => exact hi0.symm
  | ⟨1, _⟩ => exact hi1.symm

/-- The band of all the rows is the matrix. -/
theorem band_all {M N : ℕ} (h : 0 + M ≤ M) (a : Mat M N) : band M 0 h a = a :=
  funext fun y => band_apply M 0 h a y y (Nat.zero_add _).symm rfl

end Cert.Layers

end
-- ==== Proof.LibColumn.lean ====
/-
  Layout operations on a COLUMN, read at an index: a vector `[a]` viewed as a one-column matrix `[a, 1]`, a
  one-column matrix broadcast along its rows to `[a, b]`, and a `[1, 1, a]` array viewed as one row `[1, a]`.
  (The row forms — `[1, b] → [a, b]`, a leading unit axis added or dropped — are in the library; these are their
  column counterparts, which every row reduction that keeps its axis meets.) Also: the comparison of two row
  indices below `2^32`, as 32-bit words, is the comparison of the indices.
-/
import Idealize.ShloMosaic.Lib.Pipeline.Value
import Idealize.ShloMosaic.Lib.ValueIdx
import Idealize.ShloMosaic.Lib.ValueLayout

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A `[1, 1, a]` array cast to `[1, a]` reads, at `(u, i)`, the operand at `(0, 0, i)`. -/
theorem shapeCast_11a_1a_apply {a : ℕ} (x : (⟨3, ![1, 1, a]⟩ : Shape).Idx → α) (h : (⟨3, ![1, 1, a]⟩ : Shape).ShapeCasts ⟨2, ![1, a]⟩)
    (u : Fin 1) (i : Fin a) : shapeCast ⟨2, ![1, a]⟩ x h (ix2 u i) = x (ix3 (0 : Fin 1) (0 : Fin 1) i) :=
  shapeCast_apply x h _ _ (by
    have hu : u.val = 0 := by omega
    rw [Shape.rowMajor_val_three, Shape.rowMajor_val_two]
    show (0 * 1 + 0) * a + i.val = u.val * a + i.val
    rw [hu])

/-- Two indices below `2^32` are equal exactly when their 32-bit words are: the word of the comparison is `1` on
    the diagonal and `0` off it. -/
theorem cmpi_eq_ofNat {n : ℕ} (hn : n ≤ 2 ^ 32) (l k : Fin n) :
    IntOp.cmpi .eq (BitVec.ofNat 32 l.val) (BitVec.ofNat 32 k.val) = if l = k then 1#1 else 0#1 := by
  have hl : l.val < 2 ^ 32 := lt_of_lt_of_le l.isLt hn
  have hk : k.val < 2 ^ 32 := lt_of_lt_of_le k.isLt hn
  have hiff : BitVec.ofNat 32 l.val = BitVec.ofNat 32 k.val ↔ l = k := by
    constructor
    · intro h
      have h' := congrArg BitVec.toNat h
      rw [BitVec.toNat_ofNat, BitVec.toNat_ofNat, Nat.mod_eq_of_lt hl, Nat.mod_eq_of_lt hk] at h'
      exact Fin.ext h'
    · rintro rfl; rfl
  unfold IntOp.cmpi
  by_cases h : l = k
  · subst h; simp
  · have hne : ¬ BitVec.ofNat 32 l.val = BitVec.ofNat 32 k.val := fun e => h (hiff.mp e)
    have hb : (BitVec.ofNat 32 l.val == BitVec.ofNat 32 k.val) = false := beq_eq_false_iff_ne.mpr hne
    rw [if_neg h]
    show BitVec.ofBool (BitVec.ofNat 32 l.val == BitVec.ofNat 32 k.val) = 0#1
    rw [hb]
    rfl

end Cert.LibColumn
-- ==== Proof.LibKeepdims.lean ====
/-
  Reductions over one axis of a rank-2 or rank-3 array, and the layout operations that put the reduced axis back as a
  unit axis and spread it again, read at an index written by coordinates, for any extents. A sum over an axis is the
  `Fin`-indexed sum over that axis's coordinates; a maximum is the fold of `max` over them from the accumulator's
  value.
-/
import Idealize.ShloMosaic.Lib.Pipeline.Value
import Idealize.ShloMosaic.Lib.ValueIdx
import Idealize.ShloMosaic.Lib.ValueLayout
import Idealize.ShloMosaic.PureOps.Ideal.Laws

namespace Cert.LibKeepdims

open Idealize.ShloMosaic Idealize.ShloMosaic.ValueIdx

variable {α : Type}

/-! ## Layout -/

/-- An `[a, c]` array cast to `[a, 1, c]` reads, at `(p, u, k)`, the operand at `(p, k)`. -/
theorem shapeCast_ac_a1c_apply {a c : ℕ} (x : (⟨2, ![a, c]⟩ : Shape).Idx → α)
    (h : (⟨2, ![a, c]⟩ : Shape).ShapeCasts ⟨3, ![a, 1, c]⟩) (p : Fin a) (u : Fin 1) (k : Fin c) :
    shapeCast ⟨3, ![a, 1, c]⟩ x h (ix3 p u k) = x (ix2 p k) :=
  shapeCast_apply x h _ _ (by
    have hu : u.val = 0 := by omega
    rw [Shape.rowMajor_val_two, Shape.rowMajor_val_three]
    show p.val * c + k.val = (p.val * 1 + u.val) * c + k.val
    rw [hu, Nat.mul_one, Nat.add_zero])

/-- An `[a, b]` array cast to `[a, b, 1]` reads, at `(p, q, u)`, the operand at `(p, q)`. -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_two, Shape.rowMajor_val_three]
    show p.val * b + q.val = (p.val * b + q.val) * 1 + u.val
    rw [hu, Nat.mul_one, Nat.add_zero])

/-- An `[a, 1, c]` array broadcast to `[a, b, c]` reads, at `(p, q, k)`, the operand at `(p, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (k : Fin c) :
    broadcastTo ⟨3, ![a, b, c]⟩ v h (ix3 p q k) = v (ix3 p (0 : Fin 1) k) := by
  refine broadcastTo_apply v h (ix3 p q k) (ix3 p (0 : Fin 1) k) fun ax => ?_
  match ax with
  | ⟨0, _⟩ =>
    show p.val = if a = 1 then 0 else p.val
    split
    · have := p.isLt; omega
    · rfl
  | ⟨1, _⟩ => rfl
  | ⟨2, _⟩ =>
    show k.val = if c = 1 then 0 else k.val
    split
    · have := k.isLt; omega
    · rfl

/-- An `[a, b, 1]` array broadcast to `[a, b, c]` reads, at `(p, q, k)`, the operand at `(p, q, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (q : Fin b) (k : Fin c) :
    broadcastTo ⟨3, ![a, b, c]⟩ v h (ix3 p q k) = v (ix3 p q (0 : Fin 1)) := by
  refine broadcastTo_apply v h (ix3 p q k) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-! ## The reduced index with the coordinate put back -/

theorem lift_mid3 {a b c : ℕ} (h : (⟨3, ![a, b, c]⟩ : Shape).Reduces [1] (⟨2, ![a, c]⟩ : Shape)) (p : Fin a) (k : Fin c)
    (q : Fin ((⟨3, ![a, b, c]⟩ : Shape).size 1)) : h.lift (ix2 p k) q = ix3 p (⟨q.val, q.isLt⟩ : Fin b) k := by
  funext ax; apply Fin.ext
  fin_cases ax <;> rfl

theorem lift_last3 {a b c : ℕ} (h : (⟨3, ![a, b, c]⟩ : Shape).Reduces [2] (⟨2, ![a, b]⟩ : Shape)) (p : Fin a) (q : Fin b)
    (k : Fin ((⟨3, ![a, b, c]⟩ : Shape).size 2)) : h.lift (ix2 p q) k = ix3 p q (⟨k.val, k.isLt⟩ : Fin c) := by
  funext ax; apply Fin.ext
  fin_cases ax <;> rfl

theorem lift_last2 {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext ax; apply Fin.ext
  fin_cases ax <;> rfl

/-! ## Sums and maxima over one axis, at the ideal values -/

variable {φ : FTy}

/-- The sum over the middle axis of an `[a, b, c]` array, at `(p, k)`: the sum over `q` of the entries `(p, q, k)`. -/
theorem sum_mid3_apply {a b c : ℕ} (src : FVec Ideal ⟨3, ![a, b, c]⟩ φ) (acc : BitVec φ.bits)
    (h : (⟨3, ![a, b, c]⟩ : Shape).Reduces [1] (⟨2, ![a, c]⟩ : Shape)) (hφ : FKind.Formats φ) (hacc : acc = FKind.add.neutral φ hφ)
    (p : Fin a) (k : Fin c) :
    multiReduction .add [1] ⟨2, ![a, c]⟩ src acc h hφ hacc (ix2 p k) = ∑ q : Fin b, src (ix3 p q k) :=
  (Ideal.multiReduction_add_single src acc h hφ hacc (ix2 p k)).trans
    (Finset.sum_congr rfl fun q _ => congrArg src (lift_mid3 h p k q))

/-- The sum over the last axis of an `[a, b, c]` array, at `(p, q)`: the sum over `k` of the entries `(p, q, k)`. -/
theorem sum_last3_apply {a b c : ℕ} (src : FVec Ideal ⟨3, ![a, b, c]⟩ φ) (acc : BitVec φ.bits)
    (h : (⟨3, ![a, b, c]⟩ : Shape).Reduces [2] (⟨2, ![a, b]⟩ : Shape)) (hφ : FKind.Formats φ) (hacc : acc = FKind.add.neutral φ hφ)
    (p : Fin a) (q : Fin b) :
    multiReduction .add [2] ⟨2, ![a, b]⟩ src acc h hφ hacc (ix2 p q) = ∑ k : Fin c, src (ix3 p q k) :=
  (Ideal.multiReduction_add_single src acc h hφ hacc (ix2 p q)).trans
    (Finset.sum_congr rfl fun k _ => congrArg src (lift_last3 h p q k))

/-- The sum over the last axis of an `[a, b]` array, at `p`: the sum over `k` of the entries `(p, k)`. -/
theorem sum_last2_apply {a b : ℕ} (src : FVec Ideal ⟨2, ![a, b]⟩ φ) (acc : BitVec φ.bits)
    (h : (⟨2, ![a, b]⟩ : Shape).Reduces [1] (⟨1, ![a]⟩ : Shape)) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (lift_last2 h p k))

/-- The maximum over the middle axis of an `[a, b, c]` array, at `(p, k)`: the fold of `max`, from the accumulator's
    value, over the entries `(p, q, k)`. -/
theorem max_mid3_apply {a b c : ℕ} (src : FVec Ideal ⟨3, ![a, b, c]⟩ φ) (acc : BitVec φ.bits)
    (h : (⟨3, ![a, b, c]⟩ : Shape).Reduces [1] (⟨2, ![a, c]⟩ : Shape)) (hφ : FKind.Formats φ) (hacc : acc = FKind.maximumf.neutral φ hφ)
    (p : Fin a) (k : Fin c) :
    multiReduction .maximumf [1] ⟨2, ![a, c]⟩ src acc h hφ hacc (ix2 p k)
      = (Finset.univ : Finset (Fin b)).fold max (Ideal.ofBits φ acc) (fun q : Fin b => src (ix3 p q k)) := by
  refine (Ideal.multiReduction_maximumf_single src acc h hφ hacc (ix2 p k)).trans ?_
  have hf : (src ∘ h.lift (ix2 p k)) = fun q : Fin b => src (ix3 p q k) := funext fun q => congrArg src (lift_mid3 h p k q)
  exact congrArg (fun f => Finset.fold max (Ideal.ofBits φ acc) f (Finset.univ : Finset (Fin b))) hf

/-- The maximum over the last axis of an `[a, b]` array, at `p`: the fold of `max`, from the accumulator's value, over
    the entries `(p, k)`. -/
theorem max_last2_apply {a b : ℕ} (src : FVec Ideal ⟨2, ![a, b]⟩ φ) (acc : BitVec φ.bits)
    (h : (⟨2, ![a, b]⟩ : Shape).Reduces [1] (⟨1, ![a]⟩ : Shape)) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) (fun k : Fin b => src (ix2 p k)) := by
  refine (Ideal.multiReduction_maximumf_single src acc h hφ hacc (ix1 p)).trans ?_
  have hf : (src ∘ h.lift (ix1 p)) = fun k : Fin b => src (ix2 p k) := funext fun k => congrArg src (lift_last2 h p k)
  exact congrArg (fun f => Finset.fold max (Ideal.ofBits φ acc) f (Finset.univ : Finset (Fin b))) hf

/-! ## The pointwise transcendentals at an index -/

theorem exp_apply {s : Shape} (x : FVec Ideal s φ) (i : s.Idx) : exp x i = Ideal.exp (x i) := rfl
theorem log_apply {s : Shape} (x : FVec Ideal s φ) (i : s.Idx) : log x i = Ideal.log (x i) := rfl

end Cert.LibKeepdims
-- ==== Proof.LibNormLayers.lean ====
/-
  Row-wise layers on matrices of extended reals, beyond the matrix product and the row addition: the entrywise
  x · logistic x and logistic x, the entrywise sum of two matrices, the product of every row with a one-row matrix, and
  the normalisation of every row — subtract the row's mean, then divide by the square root of (the mean of the squared
  deviations plus a constant), the means being the row sum divided by a given divisor.

  Each has two spellings that denote it at the exact extended reals. A vector unit sums a row by a lane reduction from
  the neutral accumulator, stands the sums up as a column by a re-lay, divides by a splat constant and spreads the column
  over the lanes. A host sums a row by a reduction from a scalar zero (zero plus the sum is the sum), stands the sums
  up as a column by a broadcast along axis 0, divides by a broadcast scalar and broadcasts the column along both axes.
  The host's logistic is one over (one plus the exponential of the negation).

  All of them act row by row, so a band of consecutive rows of the result is the same layer applied to that band.
-/
import proofs.«115111_j71949292142783_2_alg».proof.Proof.LibLayers
import proofs.«115111_j71949292142783_2_alg».proof.Proof.LibColumn
import proofs.«115111_j71949292142783_2_alg».proof.Proof.LibKeepdims
import Idealize.ShloMosaic.Lib.IdealHost

noncomputable section

namespace Cert.NormLayers

open Idealize.ShloMosaic Idealize.ShloMosaic.ValueIdx Cert.LibPlainDot Cert.LibMatProd Cert.Layers Cert.LibKeepdims

/-! ## The layers -/

/-- Entry by entry, x · logistic x. -/
def silu {M N : ℕ} (a : Mat M N) : Mat M N := fun i => a i * Ideal.logistic (a i)

/-- Entry by entry, logistic x. -/
def sigm {M N : ℕ} (a : Mat M N) : Mat M N := fun i => Ideal.logistic (a i)

/-- Entry by entry, the sum of two matrices. -/
def plus {M N : ℕ} (a b : Mat M N) : Mat M N := fun i => a i + b i

/-- Every row multiplied, entry by entry, with a one-row matrix: entry (p, q) is a (p, q) · row (0, q). -/
def mulRow {M N : ℕ} (a : Mat M N) (row : Mat 1 N) : Mat M N := fun i => a i * row (ix2 (0 : Fin 1) (i 1))

/-- The mean of row p with divisor d: the row's sum divided by d. -/
def rowMean {M N : ℕ} (d : EReal) (a : Mat M N) (p : Fin M) : EReal := Ideal.div (∑ k : Fin N, a (ix2 p k)) d

/-- Every entry minus its row's mean. -/
def centred {M N : ℕ} (d : EReal) (a : Mat M N) : Mat M N := fun i => a i - rowMean d a (i 0)

/-- Every entry times the reciprocal square root of (its row's mean square plus ε). -/
def scaled {M N : ℕ} (d ε : EReal) (c : Mat M N) : Mat M N :=
  fun i => c i * Ideal.rsqrt (rowMean d (fun j => c j * c j) (i 0) + ε)

/-- A row's deviations from its mean over the root of their mean square plus ε. -/
def normed {M N : ℕ} (d ε : EReal) (a : Mat M N) : Mat M N := scaled d ε (centred d a)

/-- Layer normalisation: the normalised rows times a gain row plus an offset row. -/
def lnorm {M N : ℕ} (d ε : EReal) (a : Mat M N) (g be : Mat 1 N) : Mat M N := addRow (mulRow (normed d ε a) g) be

/-! ## Bands of rows -/

theorem band_silu {M N : ℕ} (T r : ℕ) (h : r + T ≤ M) (a : Mat M N) : silu (band T r h a) = band T r h (silu a) := rfl
theorem band_sigm {M N : ℕ} (T r : ℕ) (h : r + T ≤ M) (a : Mat M N) : sigm (band T r h a) = band T r h (sigm a) := rfl
theorem band_plus {M N : ℕ} (T r : ℕ) (h : r + T ≤ M) (a b : Mat M N) :
    plus (band T r h a) (band T r h b) = band T r h (plus a b) := rfl
theorem band_mulRow {M N : ℕ} (T r : ℕ) (h : r + T ≤ M) (a : Mat M N) (row : Mat 1 N) :
    mulRow (band T r h a) row = band T r h (mulRow a row) := rfl
theorem band_centred {M N : ℕ} (T r : ℕ) (h : r + T ≤ M) (d : EReal) (a : Mat M N) :
    centred d (band T r h a) = band T r h (centred d a) := rfl
theorem band_scaled {M N : ℕ} (T r : ℕ) (h : r + T ≤ M) (d ε : EReal) (c : Mat M N) :
    scaled d ε (band T r h c) = band T r h (scaled d ε c) := rfl
theorem band_normed {M N : ℕ} (T r : ℕ) (h : r + T ≤ M) (d ε : EReal) (a : Mat M N) :
    normed d ε (band T r h a) = band T r h (normed d ε a) := rfl
theorem band_lnorm {M N : ℕ} (T r : ℕ) (h : r + T ≤ M) (d ε : EReal) (a : Mat M N) (g be : Mat 1 N) :
    lnorm d ε (band T r h a) g be = band T r h (lnorm d ε a g be) := rfl

/-! ## A vector unit's spellings -/

theorem unit_silu {M N : ℕ} (a : FVec Ideal ⟨2, ![M, N]⟩ .f32) : mulf a (logistic a) = silu (a : Mat M N) := rfl

theorem unit_sigm {M N : ℕ} (a : FVec Ideal ⟨2, ![M, N]⟩ .f32) : logistic a = sigm (a : Mat M N) := rfl

theorem unit_plus {M N : ℕ} (a b : FVec Ideal ⟨2, ![M, N]⟩ .f32) : addf a b = plus (a : Mat M N) (b : Mat M N) := rfl

/-- A vector re-laid as one row, repeated down the rows and added: the row addition of the vector as a row. -/
theorem unit_addVec {M N : ℕ} (a : FVec Ideal ⟨2, ![M, N]⟩ .f32) (b : FVec Ideal ⟨1, ![N]⟩ .f32)
    (h2 : (⟨1, ![N]⟩ : Shape).ShapeCasts ⟨2, ![1, N]⟩) (hb : (⟨2, ![1, N]⟩ : Shape).Broadcasts ⟨2, ![M, N]⟩) :
    addf a (broadcastTo ⟨2, ![M, N]⟩ (shapeCast ⟨2, ![1, N]⟩ b h2) hb) = addRow (a : Mat M N) (rowOf b) := by
  funext j
  obtain ⟨p, q, rfl⟩ : ∃ (p : Fin M) (q : Fin N), j = ix2 p q := ⟨j 0, j 1, eq_ix2 j⟩
  rw [reshape_row, addf_apply, broadcastTo_1b_ab_apply]
  rfl

/-- A vector re-laid as one row, repeated down the rows and multiplied in: the row product with the vector as a row. -/
theorem unit_mulVec {M N : ℕ} (a : FVec Ideal ⟨2, ![M, N]⟩ .f32) (g : FVec Ideal ⟨1, ![N]⟩ .f32)
    (h2 : (⟨1, ![N]⟩ : Shape).ShapeCasts ⟨2, ![1, N]⟩) (hb : (⟨2, ![1, N]⟩ : Shape).Broadcasts ⟨2, ![M, N]⟩) :
    mulf a (broadcastTo ⟨2, ![M, N]⟩ (shapeCast ⟨2, ![1, N]⟩ g h2) hb) = mulRow (a : Mat M N) (rowOf g) := by
  funext j
  obtain ⟨p, q, rfl⟩ : ∃ (p : Fin M) (q : Fin N), j = ix2 p q := ⟨j 0, j 1, eq_ix2 j⟩
  rw [reshape_row, mulf_apply, broadcastTo_1b_ab_apply]
  rfl

/-- A lane sum from the neutral accumulator, stood up as a column and divided by a splat constant, reads the row's mean. -/
theorem unit_mean_col {M N : ℕ} (a : FVec Ideal ⟨2, ![M, N]⟩ .f32) (acc : BitVec FTy.f32.bits)
    (hr : (⟨2, ![M, N]⟩ : Shape).Reduces [1] (⟨1, ![M]⟩ : Shape)) (hφ : FKind.Formats FTy.f32)
    (hacc : acc = FKind.add.neutral .f32 hφ) (hc : (⟨1, ![M]⟩ : Shape).ShapeCasts ⟨2, ![M, 1]⟩) (dw : BitVec 32)
    (p : Fin M) (u : Fin 1) :
    divf (shapeCast ⟨2, ![M, 1]⟩ (multiReduction .add [1] ⟨1, ![M]⟩ a acc hr hφ hacc) hc)
        (broadcast ⟨2, ![M, 1]⟩ (Scalar.ofBits (F := Ideal) .f32 dw)) (ix2 p u)
      = rowMean (Ideal.ofBits .f32 dw) (a : Mat M N) p := by
  rw [divf_apply, Cert.LibColumn.shapeCast_a_a1_apply, sum_last2_apply]
  rfl

/-- Subtracting the column of row means, spread over the lanes: the deviations from the row means. -/
theorem unit_centred {M N : ℕ} (a : FVec Ideal ⟨2, ![M, N]⟩ .f32) (acc : BitVec FTy.f32.bits)
    (hr : (⟨2, ![M, N]⟩ : Shape).Reduces [1] (⟨1, ![M]⟩ : Shape)) (hφ : FKind.Formats FTy.f32)
    (hacc : acc = FKind.add.neutral .f32 hφ) (hc : (⟨1, ![M]⟩ : Shape).ShapeCasts ⟨2, ![M, 1]⟩)
    (hb : (⟨2, ![M, 1]⟩ : Shape).Broadcasts ⟨2, ![M, N]⟩) (dw : BitVec 32) :
    subf a (broadcastTo ⟨2, ![M, N]⟩ (divf (shapeCast ⟨2, ![M, 1]⟩ (multiReduction .add [1] ⟨1, ![M]⟩ a acc hr hφ hacc) hc)
        (broadcast ⟨2, ![M, 1]⟩ (Scalar.ofBits (F := Ideal) .f32 dw))) hb)
      = centred (Ideal.ofBits .f32 dw) (a : Mat M N) := by
  funext j
  obtain ⟨p, q, rfl⟩ : ∃ (p : Fin M) (q : Fin N), j = ix2 p q := ⟨j 0, j 1, eq_ix2 j⟩
  rw [subf_apply, Cert.LibColumn.broadcastTo_a1_ab_apply, unit_mean_col]
  rfl

/-- Multiplying by the column of reciprocal roots of (mean square plus a splat constant), spread over the lanes. -/
theorem unit_scaled {M N : ℕ} (c : FVec Ideal ⟨2, ![M, N]⟩ .f32) (acc : BitVec FTy.f32.bits)
    (hr : (⟨2, ![M, N]⟩ : Shape).Reduces [1] (⟨1, ![M]⟩ : Shape)) (hφ : FKind.Formats FTy.f32)
    (hacc : acc = FKind.add.neutral .f32 hφ) (hc : (⟨1, ![M]⟩ : Shape).ShapeCasts ⟨2, ![M, 1]⟩)
    (hb : (⟨2, ![M, 1]⟩ : Shape).Broadcasts ⟨2, ![M, N]⟩) (dw εw : BitVec 32) :
    mulf c (broadcastTo ⟨2, ![M, N]⟩ (rsqrt (addf
        (divf (shapeCast ⟨2, ![M, 1]⟩ (multiReduction .add [1] ⟨1, ![M]⟩ (mulf c c) acc hr hφ hacc) hc)
          (broadcast ⟨2, ![M, 1]⟩ (Scalar.ofBits (F := Ideal) .f32 dw)))
        (broadcast ⟨2, ![M, 1]⟩ (Scalar.ofBits (F := Ideal) .f32 εw)))) hb)
      = scaled (Ideal.ofBits .f32 dw) (Ideal.ofBits .f32 εw) (c : Mat M N) := by
  funext j
  obtain ⟨p, q, rfl⟩ : ∃ (p : Fin M) (q : Fin N), j = ix2 p q := ⟨j 0, j 1, eq_ix2 j⟩
  rw [mulf_apply, Cert.LibColumn.broadcastTo_a1_ab_apply]
  have hm := unit_mean_col (mulf c c) acc hr hφ hacc hc dw p (0 : Fin 1)
  refine congrArg (fun z => c (ix2 p q) * Ideal.rsqrt (z + Ideal.ofBits .f32 εw)) hm

/-! ## A host's spellings -/

/-- The host's x · (1 / (1 + e^(−x))) with broadcast ones is x · logistic x. -/
theorem host_silu {M N : ℕ} (a : FVec Ideal ⟨2, ![M, N]⟩ .f32) (h0 : (⟨0, ![]⟩ : Shape).BroadcastsInDim ⟨2, ![M, N]⟩ ![]) :
    mulf a (Host.divf (F := Ideal) (broadcastInDim ⟨2, ![M, N]⟩ ![] h0 (constant (F := Ideal) ⟨0, ![]⟩ .f32 0x3F800000#32))
        (addf (broadcastInDim ⟨2, ![M, N]⟩ ![] h0 (constant (F := Ideal) ⟨0, ![]⟩ .f32 0x3F800000#32))
          (Host.exp (F := Ideal) (Host.negf (F := Ideal) a))))
      = silu (a : Mat M N) := by
  rw [host_sigmoid_eq]; rfl

/-- The host's 1 / (1 + e^(−x)) with broadcast ones is logistic x. -/
theorem host_sigm {M N : ℕ} (a : FVec Ideal ⟨2, ![M, N]⟩ .f32) (h0 : (⟨0, ![]⟩ : Shape).BroadcastsInDim ⟨2, ![M, N]⟩ ![]) :
    Host.divf (F := Ideal) (broadcastInDim ⟨2, ![M, N]⟩ ![] h0 (constant (F := Ideal) ⟨0, ![]⟩ .f32 0x3F800000#32))
        (addf (broadcastInDim ⟨2, ![M, N]⟩ ![] h0 (constant (F := Ideal) ⟨0, ![]⟩ .f32 0x3F800000#32))
          (Host.exp (F := Ideal) (Host.negf (F := Ideal) a)))
      = sigm (a : Mat M N) := by
  rw [host_sigmoid_eq]; rfl

/-- A vector broadcast to one row and then down the rows, multiplied in. -/
theorem host_mulVec {M N : ℕ} (a : FVec Ideal ⟨2, ![M, N]⟩ .f32) (g : FVec Ideal ⟨1, ![N]⟩ .f32)
    (hr : (⟨1, ![N]⟩ : Shape).BroadcastsInDim ⟨2, ![1, N]⟩ ![1])
    (hbc : (⟨2, ![1, N]⟩ : Shape).BroadcastsInDim ⟨2, ![M, N]⟩ ![0, 1]) :
    mulf a (broadcastInDim ⟨2, ![M, N]⟩ ![0, 1] hbc (broadcastInDim ⟨2, ![1, N]⟩ ![1] hr g)) = mulRow (a : Mat M N) (rowOf g) := by
  funext j
  obtain ⟨p, q, rfl⟩ : ∃ (p : Fin M) (q : Fin N), j = ix2 p q := ⟨j 0, j 1, eq_ix2 j⟩
  rw [mulf_apply, bcast_1b_ab_apply, bcast_a_1a_apply]
  rfl

/-- A column broadcast along both axes reads, at (p, q), the column at (p, 0). -/
theorem bcast_a1_ab_apply {a b : ℕ} (v : (⟨2, ![a, 1]⟩ : Shape).Idx → EReal)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) :=
  broadcastInDim_apply _ h v _ (ix2 p (0 : Fin 1)) (fun ax => match ax with
    | ⟨0, _⟩ => by
      show p.val = if a = 1 then 0 else p.val
      split
      · have := p.isLt; omega
      · rfl
    | ⟨1, _⟩ => by
      show (0 : ℕ) = if (1 : ℕ) = 1 then 0 else c.val
      rw [if_pos rfl])

/-- A vector stood up as a column by a broadcast along axis 0 reads, at (p, u), the vector at p. -/
theorem bcast_a_a1_apply {a : ℕ} (x : (⟨1, ![a]⟩ : Shape).Idx → EReal)
    (h : (⟨1, ![a]⟩ : Shape).BroadcastsInDim ⟨2, ![a, 1]⟩ ![0]) (p : Fin a) (u : Fin 1) :
    broadcastInDim ⟨2, ![a, 1]⟩ ![0] h x (ix2 p u) = x (ix1 p) :=
  broadcastInDim_apply _ h x _ (ix1 p) (fun ax => match ax with
    | ⟨0, _⟩ => by
      show p.val = if a = 1 then 0 else p.val
      split
      · have := p.isLt; omega
      · rfl)

/-- A host row sum from a scalar zero, stood up as a column and divided by a broadcast scalar, reads the row's mean. -/
theorem host_mean_col {M N : ℕ} (a : FVec Ideal ⟨2, ![M, N]⟩ .f32)
    (hrt : (⟨2, ![M, N]⟩ : Shape).ReducesTo [1] (⟨1, ![M]⟩ : Shape)) (hr : (⟨2, ![M, N]⟩ : Shape).Reduces [1] (⟨1, ![M]⟩ : Shape))
    (hu : 0 < (⟨0, ![]⟩ : Shape).numel)
    (h1 : (⟨1, ![M]⟩ : Shape).BroadcastsInDim ⟨2, ![M, 1]⟩ ![0]) (h0 : (⟨0, ![]⟩ : Shape).BroadcastsInDim ⟨2, ![M, 1]⟩ ![])
    (dw : BitVec 32) (p : Fin M) (u : Fin 1) :
    Host.divf (F := Ideal) (broadcastInDim ⟨2, ![M, 1]⟩ ![0] h1
          (Host.reduceAdd a (constant (F := Ideal) ⟨0, ![]⟩ .f32 0x00000000#32) hrt hu))
        (broadcastInDim ⟨2, ![M, 1]⟩ ![] h0 (constant (F := Ideal) ⟨0, ![]⟩ .f32 dw)) (ix2 p u)
      = rowMean (Ideal.ofBits .f32 dw) (a : Mat M N) p := by
  rw [hostDivf_apply, bcast_a_a1_apply, hostReduceAdd_apply, broadcastInDim_scalar_apply,
    Ideal.hostReduceAdd_single hrt hr]
  show Ideal.div (Ideal.ofBits .f32 0x00000000#32 + ∑ k : Fin N, a (hr.lift (ix1 p) k)) (Ideal.ofBits .f32 dw) = _
  rw [Ideal.ofBits_zero_f32, zero_add]
  exact congrArg (fun z => Ideal.div z (Ideal.ofBits .f32 dw))
    (Finset.sum_congr rfl fun k _ => congrArg a (lift_last2 hr p k))

/-- Subtracting the column of row means broadcast along both axes: the deviations from the row means. -/
theorem host_centred {M N : ℕ} (a : FVec Ideal ⟨2, ![M, N]⟩ .f32)
    (hrt : (⟨2, ![M, N]⟩ : Shape).ReducesTo [1] (⟨1, ![M]⟩ : Shape)) (hr : (⟨2, ![M, N]⟩ : Shape).Reduces [1] (⟨1, ![M]⟩ : Shape))
    (hu : 0 < (⟨0, ![]⟩ : Shape).numel)
    (h1 : (⟨1, ![M]⟩ : Shape).BroadcastsInDim ⟨2, ![M, 1]⟩ ![0]) (h0 : (⟨0, ![]⟩ : Shape).BroadcastsInDim ⟨2, ![M, 1]⟩ ![])
    (hb : (⟨2, ![M, 1]⟩ : Shape).BroadcastsInDim ⟨2, ![M, N]⟩ ![0, 1]) (dw : BitVec 32) :
    subf a (broadcastInDim ⟨2, ![M, N]⟩ ![0, 1] hb (Host.divf (F := Ideal) (broadcastInDim ⟨2, ![M, 1]⟩ ![0] h1
          (Host.reduceAdd a (constant (F := Ideal) ⟨0, ![]⟩ .f32 0x00000000#32) hrt hu))
        (broadcastInDim ⟨2, ![M, 1]⟩ ![] h0 (constant (F := Ideal) ⟨0, ![]⟩ .f32 dw))))
      = centred (Ideal.ofBits .f32 dw) (a : Mat M N) := by
  funext j
  obtain ⟨p, q, rfl⟩ : ∃ (p : Fin M) (q : Fin N), j = ix2 p q := ⟨j 0, j 1, eq_ix2 j⟩
  rw [subf_apply, bcast_a1_ab_apply, host_mean_col a hrt hr]
  rfl

/-- Multiplying by the column of reciprocal roots of (mean square plus a broadcast scalar), broadcast along both axes. -/
theorem host_scaled {M N : ℕ} (c : FVec Ideal ⟨2, ![M, N]⟩ .f32)
    (hrt : (⟨2, ![M, N]⟩ : Shape).ReducesTo [1] (⟨1, ![M]⟩ : Shape)) (hr : (⟨2, ![M, N]⟩ : Shape).Reduces [1] (⟨1, ![M]⟩ : Shape))
    (hu : 0 < (⟨0, ![]⟩ : Shape).numel)
    (h1 : (⟨1, ![M]⟩ : Shape).BroadcastsInDim ⟨2, ![M, 1]⟩ ![0]) (h0 : (⟨0, ![]⟩ : Shape).BroadcastsInDim ⟨2, ![M, 1]⟩ ![])
    (hb : (⟨2, ![M, 1]⟩ : Shape).BroadcastsInDim ⟨2, ![M, N]⟩ ![0, 1]) (dw εw : BitVec 32) :
    mulf c (broadcastInDim ⟨2, ![M, N]⟩ ![0, 1] hb (Host.rsqrt (F := Ideal) (addf
        (Host.divf (F := Ideal) (broadcastInDim ⟨2, ![M, 1]⟩ ![0] h1
            (Host.reduceAdd (mulf c c) (constant (F := Ideal) ⟨0, ![]⟩ .f32 0x00000000#32) hrt hu))
          (broadcastInDim ⟨2, ![M, 1]⟩ ![] h0 (constant (F := Ideal) ⟨0, ![]⟩ .f32 dw)))
        (broadcastInDim ⟨2, ![M, 1]⟩ ![] h0 (constant (F := Ideal) ⟨0, ![]⟩ .f32 εw)))))
      = scaled (Ideal.ofBits .f32 dw) (Ideal.ofBits .f32 εw) (c : Mat M N) := by
  funext j
  obtain ⟨p, q, rfl⟩ : ∃ (p : Fin M) (q : Fin N), j = ix2 p q := ⟨j 0, j 1, eq_ix2 j⟩
  rw [mulf_apply, bcast_a1_ab_apply]
  have hm := host_mean_col (mulf c c) hrt hr hu h1 h0 dw p (0 : Fin 1)
  have he : broadcastInDim ⟨2, ![M, 1]⟩ ![] h0 (constant (F := Ideal) ⟨0, ![]⟩ .f32 εw) (ix2 p (0 : Fin 1))
      = Ideal.ofBits .f32 εw := (broadcastInDim_scalar_apply h0 _ _).trans rfl
  rw [show ∀ (x : FVec Ideal ⟨2, ![M, 1]⟩ .f32) (i : (⟨2, ![M, 1]⟩ : Shape).Idx),
      Host.rsqrt (F := Ideal) x i = Ideal.rsqrt (x i) from fun _ _ => rfl, addf_apply, hm, he]
  rfl

end Cert.NormLayers

end
-- ==== Proof.LibSum384.lean ====
/-
  A finite sum over 384 consecutive indices is the sum of its three consecutive blocks of 128, in any commutative
  additive monoid. (Only associativity of addition is used; no finiteness of the summands.)
-/
import Mathlib.Algebra.BigOperators.Fin

namespace Cert.RefSpec

/-- `∑ k < 384, f k = ∑ k < 128, f k + ∑ k < 128, f (k + 128) + ∑ k < 128, f (k + 256)`. -/
theorem sum_384 {M : Type*} [AddCommMonoid M] (f : Fin 384 → M) :
    ∑ k : Fin 384, f k
      = (∑ k : Fin 128, f ⟨k.val, by omega⟩) + (∑ k : Fin 128, f ⟨k.val + 128, by omega⟩)
        + (∑ k : Fin 128, f ⟨k.val + 256, by omega⟩) := by
  have h : ∀ g : Fin (128 + 128 + 128) → M,
      ∑ k, g k = (∑ k : Fin 128, g (Fin.castAdd 128 (Fin.castAdd 128 k)))
        + (∑ k : Fin 128, g (Fin.castAdd 128 (Fin.natAdd 128 k))) + ∑ k : Fin 128, g (Fin.natAdd (128 + 128) k) := by
    intro g
    rw [Fin.sum_univ_add, Fin.sum_univ_add]
  exact h f

end Cert.RefSpec
-- ==== Proof.Net.lean ====
/-
  The message-passing network's dense parts as functions of whole matrices over the extended reals.

  A feed-forward block maps a matrix x, row by row, to lnorm (silu (x · W1 + b1) · W2 + b2): two dense layers with
  x · logistic x between them and a layer normalisation (row mean and mean square taken with divisor 128, the constant
  under the root the float nearest 10⁻⁵) at the end. Everything after the first product is `ffnTail`, a function of that
  product, so that the same block can be fed the first product computed in one piece or in several.

  The edge update feeds the block the three matrices [sender latents | receiver features | edge latents] side by side
  against a 384-row weight matrix; the node update feeds it [node features | mean incoming edge] against a 256-row one.
  A product of side-by-side blocks against a weight matrix is the sum of each block's product against the matching band
  of rows of the weights — only commutativity and associativity of addition are used, so this holds on all extended
  reals, infinities included.
-/
import proofs.«115111_j71949292142783_2_alg».proof.Proof.LibNormLayers
import proofs.«115111_j71949292142783_2_alg».proof.Proof.LibSum384

noncomputable section

namespace Cert.Net

open Idealize.ShloMosaic Idealize.ShloMosaic.ValueIdx Cert.LibMatProd Cert.Layers Cert.NormLayers

/-- The divisor of the row means: the float 128. -/
abbrev dW : EReal := Ideal.ofBits .f32 0x43000000#32
/-- The constant under the root: the float nearest 10⁻⁵. -/
abbrev εW : EReal := Ideal.ofBits .f32 0x3727C5AC#32

/-- A feed-forward block after its first product h = x · W1: lnorm (silu (h + b1) · W2 + b2). -/
def ffnTail {M : ℕ} (h : Mat M 128) (b1 : Mat 1 128) (W2 : Mat 128 128) (b2 g be : Mat 1 128) : Mat M 128 :=
  lnorm dW εW (dense (silu (addRow h b1)) W2 b2) g be

/-- A feed-forward block with layer normalisation. -/
def ffn {M K : ℕ} (x : Mat M K) (W1 : Mat K 128) (b1 : Mat 1 128) (W2 : Mat 128 128) (b2 g be : Mat 1 128) : Mat M 128 :=
  ffnTail (matProd x W1) b1 W2 b2 g be

/-- The output head: logistic (x · W1 + b1) · W2 + b2, no normalisation. -/
def head {M N : ℕ} (x : Mat M 128) (W1 : Mat 128 128) (b1 : Mat 1 128) (W2 : Mat 128 N) (b2 : Mat 1 N) : Mat M N :=
  dense (sigm (dense x W1 b1)) W2 b2

theorem band_ffnTail {M : ℕ} (T r : ℕ) (hh : r + T ≤ M) (h : Mat M 128) (b1 : Mat 1 128) (W2 : Mat 128 128) (b2 g be : Mat 1 128) :
    ffnTail (band T r hh h) b1 W2 b2 g be = band T r hh (ffnTail h b1 W2 b2 g be) := rfl

theorem band_ffn {M K : ℕ} (T r : ℕ) (hh : r + T ≤ M) (x : Mat M K) (W1 : Mat K 128) (b1 : Mat 1 128) (W2 : Mat 128 128)
    (b2 g be : Mat 1 128) : ffn (band T r hh x) W1 b1 W2 b2 g be = band T r hh (ffn x W1 b1 W2 b2 g be) := rfl

theorem band_head {M N : ℕ} (T r : ℕ) (hh : r + T ≤ M) (x : Mat M 128) (W1 : Mat 128 128) (b1 : Mat 1 128) (W2 : Mat 128 N)
    (b2 : Mat 1 N) : head (band T r hh x) W1 b1 W2 b2 = band T r hh (head x W1 b1 W2 b2) := rfl

/-! ## Matrices side by side -/

/-- Three 128-column matrices side by side: columns 0–127 from a, 128–255 from b, 256–383 from c. -/
def cat3 {M : ℕ} (a b c : Mat M 128) : Mat M 384 := fun i =>
  if h : (i 1).val < 128 then a (ix2 (i 0) ⟨(i 1).val, h⟩)
  else if h2 : (i 1).val < 256 then b (ix2 (i 0) ⟨(i 1).val - 128, by omega⟩)
  else c (ix2 (i 0) ⟨(i 1).val - 256, by have := idx2_lt1 i; omega⟩)

/-- Two 128-column matrices side by side. -/
def cat2 {M : ℕ} (a b : Mat M 128) : Mat M 256 := fun i =>
  if h : (i 1).val < 128 then a (ix2 (i 0) ⟨(i 1).val, h⟩)
  else b (ix2 (i 0) ⟨(i 1).val - 128, by have := idx2_lt1 i; omega⟩)

theorem sum_256 {A : Type*} [AddCommMonoid A] (f : Fin 256 → A) :
    ∑ k : Fin 256, f k = (∑ k : Fin 128, f ⟨k.val, by omega⟩) + ∑ k : Fin 128, f ⟨k.val + 128, by omega⟩ := by
  have h : ∀ g : Fin (128 + 128) → A,
      ∑ k, g k = (∑ k : Fin 128, g (Fin.castAdd 128 k)) + ∑ k : Fin 128, g (Fin.natAdd 128 k) := fun g => Fin.sum_univ_add g
  exact h f

/-- Rows r … r + 127 of a weight matrix, read at (k, q). -/
theorem band_w {K N : ℕ} (r : ℕ) (h : r + 128 ≤ K) (W : Mat K N) (k : Fin 128) (q : Fin N) :
    band 128 r h W (ix2 k q) = W (ix2 ⟨k.val + r, by omega⟩ q) :=
  band_apply 128 r h W (ix2 k q) (ix2 ⟨k.val + r, by omega⟩ q) (Nat.add_comm _ _) rfl

/-- [a | b | c] · W = a · W[0:128] + b · W[128:256] + c · W[256:384]. -/
theorem cat3_prod {M N : ℕ} (a b c : Mat M 128) (W : Mat 384 N) :
    matProd (cat3 a b c) W
      = plus (plus (matProd a (band 128 0 (by omega) W)) (matProd b (band 128 128 (by omega) W)))
          (matProd c (band 128 256 (by omega) W)) := by
  funext j
  obtain ⟨p, q, rfl⟩ : ∃ (p : Fin M) (q : Fin N), j = ix2 p q := ⟨j 0, j 1, eq_ix2 j⟩
  rw [matProd_apply, Cert.RefSpec.sum_384]
  show _ = (matProd a _ (ix2 p q) + matProd b _ (ix2 p q)) + matProd c _ (ix2 p q)
  rw [matProd_apply, matProd_apply, matProd_apply]
  refine congrArg₂ (· + ·) (congrArg₂ (· + ·) ?_ ?_) ?_
  · refine Finset.sum_congr rfl fun k _ => ?_
    rw [band_w]
    have hk : cat3 a b c (ix2 p (⟨k.val, by omega⟩ : Fin 384)) = a (ix2 p k) := by
      unfold cat3; rw [dif_pos (show ((ix2 p (⟨k.val, by omega⟩ : Fin 384)) 1).val < 128 from k.isLt)]; rfl
    rw [hk]; rfl
  · refine Finset.sum_congr rfl fun k _ => ?_
    rw [band_w]
    have hk : cat3 a b c (ix2 p (⟨k.val + 128, by omega⟩ : Fin 384)) = b (ix2 p k) := by
      unfold cat3
      rw [dif_neg (show ¬ ((ix2 p (⟨k.val + 128, by omega⟩ : Fin 384)) 1).val < 128 from Nat.not_lt.mpr (Nat.le_add_left _ _)),
        dif_pos (show ((ix2 p (⟨k.val + 128, by omega⟩ : Fin 384)) 1).val < 256 from by show k.val + 128 < 256; omega)]
      exact congrArg b (congrArg (ix2 p) (Fin.ext (show k.val + 128 - 128 = k.val from by omega)))
    rw [hk]
  · refine Finset.sum_congr rfl fun k _ => ?_
    rw [band_w]
    have hk : cat3 a b c (ix2 p (⟨k.val + 256, by omega⟩ : Fin 384)) = c (ix2 p k) := by
      unfold cat3
      rw [dif_neg (show ¬ ((ix2 p (⟨k.val + 256, by omega⟩ : Fin 384)) 1).val < 128 from by show ¬ k.val + 256 < 128; omega),
        dif_neg (show ¬ ((ix2 p (⟨k.val + 256, by omega⟩ : Fin 384)) 1).val < 256 from Nat.not_lt.mpr (Nat.le_add_left _ _))]
      exact congrArg c (congrArg (ix2 p) (Fin.ext (show k.val + 256 - 256 = k.val from by omega)))
    rw [hk]

/-- [a | b] · W = a · W[0:128] + b · W[128:256]. -/
theorem cat2_prod {M N : ℕ} (a b : Mat M 128) (W : Mat 256 N) :
    matProd (cat2 a b) W = plus (matProd a (band 128 0 (by omega) W)) (matProd b (band 128 128 (by omega) W)) := by
  funext j
  obtain ⟨p, q, rfl⟩ : ∃ (p : Fin M) (q : Fin N), j = ix2 p q := ⟨j 0, j 1, eq_ix2 j⟩
  rw [matProd_apply, sum_256]
  show _ = matProd a _ (ix2 p q) + matProd b _ (ix2 p q)
  rw [matProd_apply, matProd_apply]
  refine congrArg₂ (· + ·) ?_ ?_
  · refine Finset.sum_congr rfl fun k _ => ?_
    rw [band_w]
    have hk : cat2 a b (ix2 p (⟨k.val, by omega⟩ : Fin 256)) = a (ix2 p k) := by
      unfold cat2; rw [dif_pos (show ((ix2 p (⟨k.val, by omega⟩ : Fin 256)) 1).val < 128 from k.isLt)]; rfl
    rw [hk]; rfl
  · refine Finset.sum_congr rfl fun k _ => ?_
    rw [band_w]
    have hk : cat2 a b (ix2 p (⟨k.val + 128, by omega⟩ : Fin 256)) = b (ix2 p k) := by
      unfold cat2
      rw [dif_neg (show ¬ ((ix2 p (⟨k.val + 128, by omega⟩ : Fin 256)) 1).val < 128 from Nat.not_lt.mpr (Nat.le_add_left _ _))]
      exact congrArg b (congrArg (ix2 p) (Fin.ext (show k.val + 128 - 128 = k.val from by omega)))
    rw [hk]

end Cert.Net

end
-- ==== Proof.EdgeBody.lean ====
/-
  What the edge kernel's body leaves in its two output blocks, as the network's layers applied to the input blocks.

  The first output block is the feed-forward block of the 3-column edge-feature block (the edge latents of these
  rows). The second is the feed-forward tail fed the sum of three products — sender block, receiver block and the edge
  latents just computed, each against its own 128-row weight matrix. Narrowing to bf16 before a product changes
  nothing on exact values, and a product accumulated into zeros is the product.
-/
import proofs.«115111_j71949292142783_2_alg».proof.Proof.Gen.KernelIdeal.Frame
import proofs.«115111_j71949292142783_2_alg».proof.Proof.Net
import Idealize.ShloMosaic.Lib.Pipeline.Value

set_option maxRecDepth 16384

noncomputable section

namespace Cert.KernelIdeal.Body

open Cert.KernelIdeal Cert.KernelIdeal.Gen
open Idealize.ShloMosaic Idealize.ShloMosaic.ValueIdx Idealize.ShloMosaic.Pipeline
open Cert.LibMatProd Cert.Layers Cert.NormLayers Cert.Net

theorem off2 : (![0, 0] : Fin 2 → Nat) = fun _ => 0 := funext fun a => by fin_cases a <;> rfl
theorem off1 : (![0] : Fin 1 → Nat) = fun _ => 0 := funext fun a => by fin_cases a; rfl

set_option backward.isDefEq.respectTransparency.types false in
/-- The normalised, gain-scaled second dense layer of the edge embedding (the offset row is added afterwards). -/
theorem pay2_eq (v0 : Vec Ideal S4000x3 .f32) (v2 : Vec Ideal S3x128 .f32) (v5 : Vec Ideal S128 .f32)
    (v11 : Vec Ideal S128x128 .f32) (v15 v19 : Vec Ideal S128 .f32) :
    k0_pay2 (F := Ideal) v0 v2 v5 v11 v15 v19
      = mulRow (normed dW εW (dense (silu (dense (v0 : Mat 4000 3) (v2 : Mat 3 128) (rowOf v5))) (v11 : Mat 128 128) (rowOf v15))) (rowOf v19) := by
  unfold k0_pay2
  dsimp only
  rw [unit_prod dot_S4000x3_S3x128_S4000x128_1_0_0_1_n_n rfl rfl rfl rfl rfl rfl,
    unit_prod dot_S4000x128_S128x128_S4000x128_1_0_0_1_n_n rfl rfl rfl rfl rfl rfl,
    unit_addVec, unit_addVec, unit_centred, unit_scaled, unit_mulVec]
  rfl

set_option backward.isDefEq.respectTransparency.types false in
/-- Adding the offset row completes the layer normalisation. -/
theorem pay3_eq (v20 : Vec Ideal S128 .f32) (v41 : FVec Ideal S4000x128 .f32) :
    k0_pay3 (F := Ideal) v20 v41 = addRow (v41 : Mat 4000 128) (rowOf v20) := by
  unfold k0_pay3
  dsimp only
  rw [unit_addVec]

set_option backward.isDefEq.respectTransparency.types false in
/-- The edge update's second dense layer, from the three partial first-layer products. -/
theorem pay4_eq (v20 : Vec Ideal S128 .f32) (v41 : FVec Ideal S4000x128 .f32) (v46 v48 : Vec Ideal S4000x128 .bf16)
    (v51 v55 v60 : Vec Ideal S128x128 .f32) (v65 : Vec Ideal S128 .f32) (v72 : Vec Ideal S128x128 .f32) (v75 : Vec Ideal S128 .f32) :
    k0_pay4 (F := Ideal) v20 v41 v46 v48 v51 v55 v60 v65 v72 v75
      = dense (silu (addRow (plus (plus (matProd (v46 : Mat 4000 128) (v51 : Mat 128 128)) (matProd (v48 : Mat 4000 128) (v55 : Mat 128 128)))
          (matProd (addRow (v41 : Mat 4000 128) (rowOf v20)) (v60 : Mat 128 128))) (rowOf v65))) (v72 : Mat 128 128) (rowOf v75) := by
  unfold k0_pay4
  dsimp only
  rw [pay3_eq]
  simp only [shapeCast_self]
  rw [unit_prod dot_S4000x128_S128x128_S4000x128_1_0_0_1_n_n rfl rfl rfl rfl rfl rfl,
    unit_prod dot_S4000x128_S128x128_S4000x128_1_0_0_1_n_n rfl rfl rfl rfl rfl rfl,
    unit_prod dot_S4000x128_S128x128_S4000x128_1_0_0_1_n_n rfl rfl rfl rfl rfl rfl,
    unit_prod dot_S4000x128_S128x128_S4000x128_1_0_0_1_n_n rfl rfl rfl rfl rfl rfl,
    unit_addVec, unit_addVec]
  rfl

set_option backward.isDefEq.respectTransparency.types false in
/-- A whole layer normalisation of a block. -/
theorem pay1_eq (v78 : FVec Ideal S4000x128 .f32) (v79 v80 : Vec Ideal S128 .f32) :
    k0_pay1 (F := Ideal) v78 v79 v80 = lnorm dW εW (v78 : Mat 4000 128) (rowOf v79) (rowOf v80) := by
  unfold k0_pay1
  dsimp only
  rw [unit_centred, unit_scaled, unit_mulVec, unit_addVec]
  rfl

set_option backward.isDefEq.respectTransparency.types false in
/-- The first output block: the edge latents of the block's rows. -/
theorem out17_eq (x0 : Vec Ideal S4000x3 .f32) (x1 x2 : Vec Ideal S4000x128 .bf16) (x3 : Vec Ideal S3x128 .f32) (x4 : Vec Ideal S128 .f32)
    (x5 : Vec Ideal S128x128 .f32) (x6 x7 x8 : Vec Ideal S128 .f32) (x9 x10 x11 : Vec Ideal S128x128 .f32) (x12 : Vec Ideal S128 .f32)
    (x13 : Vec Ideal S128x128 .f32) (x14 x15 x16 : Vec Ideal S128 .f32) :
    out0_17 (F := Ideal) x0 x1 x2 x3 x4 x5 x6 x7 x8 x9 x10 x11 x12 x13 x14 x15 x16
      = ffn (x0 : Mat 4000 3) (x3 : Mat 3 128) (rowOf x4) (x5 : Mat 128 128) (rowOf x6) (rowOf x7) (rowOf x8) := by
  unfold out0_17
  rw [View.canon_unit_zero off2]
  simp only [View.ld_unit_zero (S := S4000x3) off2, View.ld_unit_zero (S := S3x128) off2, View.ld_unit_zero (S := S128x128) off2,
    View.ld_unit_zero (S := S128) off1]
  rw [pay3_eq, pay2_eq]
  rfl

set_option backward.isDefEq.respectTransparency.types false in
/-- The second output block: the updated edges of the block's rows. -/
theorem out18_eq (x0 : Vec Ideal S4000x3 .f32) (x1 x2 : Vec Ideal S4000x128 .bf16) (x3 : Vec Ideal S3x128 .f32) (x4 : Vec Ideal S128 .f32)
    (x5 : Vec Ideal S128x128 .f32) (x6 x7 x8 : Vec Ideal S128 .f32) (x9 x10 x11 : Vec Ideal S128x128 .f32) (x12 : Vec Ideal S128 .f32)
    (x13 : Vec Ideal S128x128 .f32) (x14 x15 x16 : Vec Ideal S128 .f32) :
    out0_18 (F := Ideal) x0 x1 x2 x3 x4 x5 x6 x7 x8 x9 x10 x11 x12 x13 x14 x15 x16
      = ffnTail (plus (plus (matProd (x1 : Mat 4000 128) (x9 : Mat 128 128)) (matProd (x2 : Mat 4000 128) (x10 : Mat 128 128)))
          (matProd (ffn (x0 : Mat 4000 3) (x3 : Mat 3 128) (rowOf x4) (x5 : Mat 128 128) (rowOf x6) (rowOf x7) (rowOf x8)) (x11 : Mat 128 128)))
          (rowOf x12) (x13 : Mat 128 128) (rowOf x14) (rowOf x15) (rowOf x16) := by
  unfold out0_18
  rw [View.canon_unit_zero off2]
  simp only [View.ld_unit_zero (S := S4000x3) off2, View.ld_unit_zero (S := S3x128) off2, View.ld_unit_zero (S := S128x128) off2,
    View.ld_unit_zero (S := S128) off1, View.ld_unit_zero (S := S4000x128) off2]
  rw [pay1_eq, pay4_eq, pay2_eq]
  rfl

end Cert.KernelIdeal.Body

end
-- ==== Proof.EdgeValue.lean ====
/-
  The edge kernel's two output arrays as whole-array functions of the arrays the region finds.

  The grid has 100 points; point t reads rows 4000·t … 4000·t + 3999 of the three row-tiled inputs and the whole of
  every weight and bias array, and writes back rows 4000·t … 4000·t + 3999 of both outputs. The layers act row by row,
  so what point t writes back is that band of rows of the layers applied to the whole arrays; the hundred bands cover
  every row, so each output array ends as the layers of the whole arrays.
-/
import proofs.«115111_j71949292142783_2_alg».proof.Proof.Gen.KernelIdeal.Frame
import proofs.«115111_j71949292142783_2_alg».proof.Proof.EdgeBody
import Idealize.ShloMosaic.Lib.Pipeline.Value

set_option maxRecDepth 16384

noncomputable section

namespace Cert.KernelIdeal.EdgeValue

open Cert.KernelIdeal Cert.KernelIdeal.Gen
open Idealize.ShloMosaic Idealize.ShloMosaic.TcCoe Idealize.ShloMosaic.ValueIdx Idealize.ShloMosaic.Pipeline Idealize.SL.Sem
open Cert.LibMatProd Cert.Layers Cert.NormLayers Cert.Net

variable (V : (c : Dev nD) → (b : Ref sig .tc) → Buf (Elt Ideal) ((c : Thread nD τ).loc b))

/-- The edge latents of all edges, from the arrays as the region finds them. -/
def edgeLat (c : Dev nD) : Mat 400000 128 :=
  ffn (V c main_arg1 : Mat 400000 3) (V c main_arg4 : Mat 3 128) (rowOf (V c main_arg5)) (V c main_arg6 : Mat 128 128)
    (rowOf (V c main_arg7)) (rowOf (V c main_arg8)) (rowOf (V c main_arg9))

/-- The updated edges of all edges, from the arrays as the region finds them (the gathered sender and receiver rows
    and the three bands of the first-layer weights are arrays the host wrote before the region). -/
def newEdge (c : Dev nD) : Mat 400000 128 :=
  ffnTail (plus (plus (matProd (V c main_v15 : Mat 400000 128) (V c main_v24 : Mat 128 128)) (matProd (V c main_v23 : Mat 400000 128) (V c main_v25 : Mat 128 128)))
      (matProd (edgeLat V c) (V c main_v26 : Mat 128 128)))
    (rowOf (V c main_arg11)) (V c main_arg12 : Mat 128 128) (rowOf (V c main_arg13)) (rowOf (V c main_arg14)) (rowOf (V c main_arg15))

/-- Point t's band of 4000 rows lies inside the 400000 rows. -/
theorem rows_ok (t : Fin cfg0.N) : 4000 * t.val + 4000 ≤ 400000 := by
  have h : t.val < grid0.N := t.isLt
  rw [N_0] at h
  omega

/-- The printed index maps, decided over the grid: a row-tiled window's block index is (t, 0), an untiled window's is 0. -/
theorem idx0 : ∀ t : Fin cfg0.N, win0_0.index t (0 : Fin 2) = t.val
    ∧ win0_0.index t (1 : Fin 2) = 0
    ∧ win0_1.index t (0 : Fin 2) = t.val
    ∧ win0_1.index t (1 : Fin 2) = 0
    ∧ win0_2.index t (0 : Fin 2) = t.val
    ∧ win0_2.index t (1 : Fin 2) = 0
    ∧ win0_3.index t (0 : Fin 2) = 0
    ∧ win0_3.index t (1 : Fin 2) = 0
    ∧ win0_4.index t (0 : Fin 1) = 0
    ∧ win0_5.index t (0 : Fin 2) = 0
    ∧ win0_5.index t (1 : Fin 2) = 0
    ∧ win0_6.index t (0 : Fin 1) = 0
    ∧ win0_7.index t (0 : Fin 1) = 0
    ∧ win0_8.index t (0 : Fin 1) = 0
    ∧ win0_9.index t (0 : Fin 2) = 0
    ∧ win0_9.index t (1 : Fin 2) = 0
    ∧ win0_10.index t (0 : Fin 2) = 0
    ∧ win0_10.index t (1 : Fin 2) = 0
    ∧ win0_11.index t (0 : Fin 2) = 0
    ∧ win0_11.index t (1 : Fin 2) = 0
    ∧ win0_12.index t (0 : Fin 1) = 0
    ∧ win0_13.index t (0 : Fin 2) = 0
    ∧ win0_13.index t (1 : Fin 2) = 0
    ∧ win0_14.index t (0 : Fin 1) = 0
    ∧ win0_15.index t (0 : Fin 1) = 0
    ∧ win0_16.index t (0 : Fin 1) = 0
    ∧ win0_17.index t (0 : Fin 2) = t.val
    ∧ win0_17.index t (1 : Fin 2) = 0
    ∧ win0_18.index t (0 : Fin 2) = t.val
    ∧ win0_18.index t (1 : Fin 2) = 0 :=
  (by decide +kernel : ∀ t : Fin grid0.N, _)

/-- Window 0's block at point t: rows 4000·t … 4000·t + 3999 of its array. -/
theorem blk0_0 (c : Dev nD) (t : Fin cfg0.N) :
    iblk0 (F := Ideal) V c 0 t = band 4000 (4000 * t.val) (rows_ok t) (V c main_arg1 : Mat 400000 3) := by
  funext y
  show V c main_arg1 (((cfg0.win 0).blk t).view.emb y) = V c main_arg1 _
  refine congrArg (V c main_arg1) (funext fun a => Fin.ext ?_)
  have f0 := (idx0 t).1
  have f1 := (idx0 t).2.1
  match a with
  | ⟨0, _⟩ => show win0_0.index t (0 : Fin 2) * 4000 + 1 * (y 0).val = 4000 * t.val + (y 0).val; omega
  | ⟨1, _⟩ => show win0_0.index t (1 : Fin 2) * 3 + 1 * (y 1).val = (y 1).val; omega

/-- Window 1's block at point t: rows 4000·t … 4000·t + 3999 of its array. -/
theorem blk0_1 (c : Dev nD) (t : Fin cfg0.N) :
    iblk0 (F := Ideal) V c 1 t = band 4000 (4000 * t.val) (rows_ok t) (V c main_v15 : Mat 400000 128) := by
  funext y
  show V c main_v15 (((cfg0.win 1).blk t).view.emb y) = V c main_v15 _
  refine congrArg (V c main_v15) (funext fun a => Fin.ext ?_)
  have f0 := (idx0 t).2.2.1
  have f1 := (idx0 t).2.2.2.1
  match a with
  | ⟨0, _⟩ => show win0_1.index t (0 : Fin 2) * 4000 + 1 * (y 0).val = 4000 * t.val + (y 0).val; omega
  | ⟨1, _⟩ => show win0_1.index t (1 : Fin 2) * 128 + 1 * (y 1).val = (y 1).val; omega

/-- Window 2's block at point t: rows 4000·t … 4000·t + 3999 of its array. -/
theorem blk0_2 (c : Dev nD) (t : Fin cfg0.N) :
    iblk0 (F := Ideal) V c 2 t = band 4000 (4000 * t.val) (rows_ok t) (V c main_v23 : Mat 400000 128) := by
  funext y
  show V c main_v23 (((cfg0.win 2).blk t).view.emb y) = V c main_v23 _
  refine congrArg (V c main_v23) (funext fun a => Fin.ext ?_)
  have f0 := (idx0 t).2.2.2.2.1
  have f1 := (idx0 t).2.2.2.2.2.1
  match a with
  | ⟨0, _⟩ => show win0_2.index t (0 : Fin 2) * 4000 + 1 * (y 0).val = 4000 * t.val + (y 0).val; omega
  | ⟨1, _⟩ => show win0_2.index t (1 : Fin 2) * 128 + 1 * (y 1).val = (y 1).val; omega

/-- Window 3's block at any point is its whole array. -/
theorem blk0_3 (c : Dev nD) (t : Fin cfg0.N) : iblk0 (F := Ideal) V c 3 t = V c main_arg4 := by
  funext y
  show V c main_arg4 (((cfg0.win 3).blk t).view.emb y) = V c main_arg4 y
  refine congrArg (V c main_arg4) (funext fun a => Fin.ext ?_)
  have f0 := (idx0 t).2.2.2.2.2.2.1
  have f1 := (idx0 t).2.2.2.2.2.2.2.1
  match a with
  | ⟨0, _⟩ => show win0_3.index t (0 : Fin 2) * 3 + 1 * (y 0).val = (y 0).val; omega
  | ⟨1, _⟩ => show win0_3.index t (1 : Fin 2) * 128 + 1 * (y 1).val = (y 1).val; omega

/-- Window 4's block at any point is its whole array. -/
theorem blk0_4 (c : Dev nD) (t : Fin cfg0.N) : iblk0 (F := Ideal) V c 4 t = V c main_arg5 := by
  funext y
  show V c main_arg5 (((cfg0.win 4).blk t).view.emb y) = V c main_arg5 y
  refine congrArg (V c main_arg5) (funext fun a => Fin.ext ?_)
  have f0 := (idx0 t).2.2.2.2.2.2.2.2.1
  match a with
  | ⟨0, _⟩ => show win0_4.index t (0 : Fin 1) * 128 + 1 * (y 0).val = (y 0).val; omega

/-- Window 5's block at any point is its whole array. -/
theorem blk0_5 (c : Dev nD) (t : Fin cfg0.N) : iblk0 (F := Ideal) V c 5 t = V c main_arg6 := by
  funext y
  show V c main_arg6 (((cfg0.win 5).blk t).view.emb y) = V c main_arg6 y
  refine congrArg (V c main_arg6) (funext fun a => Fin.ext ?_)
  have f0 := (idx0 t).2.2.2.2.2.2.2.2.2.1
  have f1 := (idx0 t).2.2.2.2.2.2.2.2.2.2.1
  match a with
  | ⟨0, _⟩ => show win0_5.index t (0 : Fin 2) * 128 + 1 * (y 0).val = (y 0).val; omega
  | ⟨1, _⟩ => show win0_5.index t (1 : Fin 2) * 128 + 1 * (y 1).val = (y 1).val; omega

/-- Window 6's block at any point is its whole array. -/
theorem blk0_6 (c : Dev nD) (t : Fin cfg0.N) : iblk0 (F := Ideal) V c 6 t = V c main_arg7 := by
  funext y
  show V c main_arg7 (((cfg0.win 6).blk t).view.emb y) = V c main_arg7 y
  refine congrArg (V c main_arg7) (funext fun a => Fin.ext ?_)
  have f0 := (idx0 t).2.2.2.2.2.2.2.2.2.2.2.1
  match a with
  | ⟨0, _⟩ => show win0_6.index t (0 : Fin 1) * 128 + 1 * (y 0).val = (y 0).val; omega

/-- Window 7's block at any point is its whole array. -/
theorem blk0_7 (c : Dev nD) (t : Fin cfg0.N) : iblk0 (F := Ideal) V c 7 t = V c main_arg8 := by
  funext y
  show V c main_arg8 (((cfg0.win 7).blk t).view.emb y) = V c main_arg8 y
  refine congrArg (V c main_arg8) (funext fun a => Fin.ext ?_)
  have f0 := (idx0 t).2.2.2.2.2.2.2.2.2.2.2.2.1
  match a with
  | ⟨0, _⟩ => show win0_7.index t (0 : Fin 1) * 128 + 1 * (y 0).val = (y 0).val; omega

/-- Window 8's block at any point is its whole array. -/
theorem blk0_8 (c : Dev nD) (t : Fin cfg0.N) : iblk0 (F := Ideal) V c 8 t = V c main_arg9 := by
  funext y
  show V c main_arg9 (((cfg0.win 8).blk t).view.emb y) = V c main_arg9 y
  refine congrArg (V c main_arg9) (funext fun a => Fin.ext ?_)
  have f0 := (idx0 t).2.2.2.2.2.2.2.2.2.2.2.2.2.1
  match a with
  | ⟨0, _⟩ => show win0_8.index t (0 : Fin 1) * 128 + 1 * (y 0).val = (y 0).val; omega

/-- Window 9's block at any point is its whole array. -/
theorem blk0_9 (c : Dev nD) (t : Fin cfg0.N) : iblk0 (F := Ideal) V c 9 t = V c main_v24 := by
  funext y
  show V c main_v24 (((cfg0.win 9).blk t).view.emb y) = V c main_v24 y
  refine congrArg (V c main_v24) (funext fun a => Fin.ext ?_)
  have f0 := (idx0 t).2.2.2.2.2.2.2.2.2.2.2.2.2.2.1
  have f1 := (idx0 t).2.2.2.2.2.2.2.2.2.2.2.2.2.2.2.1
  match a with
  | ⟨0, _⟩ => show win0_9.index t (0 : Fin 2) * 128 + 1 * (y 0).val = (y 0).val; omega
  | ⟨1, _⟩ => show win0_9.index t (1 : Fin 2) * 128 + 1 * (y 1).val = (y 1).val; omega

/-- Window 10's block at any point is its whole array. -/
theorem blk0_10 (c : Dev nD) (t : Fin cfg0.N) : iblk0 (F := Ideal) V c 10 t = V c main_v25 := by
  funext y
  show V c main_v25 (((cfg0.win 10).blk t).view.emb y) = V c main_v25 y
  refine congrArg (V c main_v25) (funext fun a => Fin.ext ?_)
  have f0 := (idx0 t).2.2.2.2.2.2.2.2.2.2.2.2.2.2.2.2.1
  have f1 := (idx0 t).2.2.2.2.2.2.2.2.2.2.2.2.2.2.2.2.2.1
  match a with
  | ⟨0, _⟩ => show win0_10.index t (0 : Fin 2) * 128 + 1 * (y 0).val = (y 0).val; omega
  | ⟨1, _⟩ => show win0_10.index t (1 : Fin 2) * 128 + 1 * (y 1).val = (y 1).val; omega

/-- Window 11's block at any point is its whole array. -/
theorem blk0_11 (c : Dev nD) (t : Fin cfg0.N) : iblk0 (F := Ideal) V c 11 t = V c main_v26 := by
  funext y
  show V c main_v26 (((cfg0.win 11).blk t).view.emb y) = V c main_v26 y
  refine congrArg (V c main_v26) (funext fun a => Fin.ext ?_)
  have f0 := (idx0 t).2.2.2.2.2.2.2.2.2.2.2.2.2.2.2.2.2.2.1
  have f1 := (idx0 t).2.2.2.2.2.2.2.2.2.2.2.2.2.2.2.2.2.2.2.1
  match a with
  | ⟨0, _⟩ => show win0_11.index t (0 : Fin 2) * 128 + 1 * (y 0).val = (y 0).val; omega
  | ⟨1, _⟩ => show win0_11.index t (1 : Fin 2) * 128 + 1 * (y 1).val = (y 1).val; omega

/-- Window 12's block at any point is its whole array. -/
theorem blk0_12 (c : Dev nD) (t : Fin cfg0.N) : iblk0 (F := Ideal) V c 12 t = V c main_arg11 := by
  funext y
  show V c main_arg11 (((cfg0.win 12).blk t).view.emb y) = V c main_arg11 y
  refine congrArg (V c main_arg11) (funext fun a => Fin.ext ?_)
  have f0 := (idx0 t).2.2.2.2.2.2.2.2.2.2.2.2.2.2.2.2.2.2.2.2.1
  match a with
  | ⟨0, _⟩ => show win0_12.index t (0 : Fin 1) * 128 + 1 * (y 0).val = (y 0).val; omega

/-- Window 13's block at any point is its whole array. -/
theorem blk0_13 (c : Dev nD) (t : Fin cfg0.N) : iblk0 (F := Ideal) V c 13 t = V c main_arg12 := by
  funext y
  show V c main_arg12 (((cfg0.win 13).blk t).view.emb y) = V c main_arg12 y
  refine congrArg (V c main_arg12) (funext fun a => Fin.ext ?_)
  have f0 := (idx0 t).2.2.2.2.2.2.2.2.2.2.2.2.2.2.2.2.2.2.2.2.2.1
  have f1 := (idx0 t).2.2.2.2.2.2.2.2.2.2.2.2.2.2.2.2.2.2.2.2.2.2.1
  match a with
  | ⟨0, _⟩ => show win0_13.index t (0 : Fin 2) * 128 + 1 * (y 0).val = (y 0).val; omega
  | ⟨1, _⟩ => show win0_13.index t (1 : Fin 2) * 128 + 1 * (y 1).val = (y 1).val; omega

/-- Window 14's block at any point is its whole array. -/
theorem blk0_14 (c : Dev nD) (t : Fin cfg0.N) : iblk0 (F := Ideal) V c 14 t = V c main_arg13 := by
  funext y
  show V c main_arg13 (((cfg0.win 14).blk t).view.emb y) = V c main_arg13 y
  refine congrArg (V c main_arg13) (funext fun a => Fin.ext ?_)
  have f0 := (idx0 t).2.2.2.2.2.2.2.2.2.2.2.2.2.2.2.2.2.2.2.2.2.2.2.1
  match a with
  | ⟨0, _⟩ => show win0_14.index t (0 : Fin 1) * 128 + 1 * (y 0).val = (y 0).val; omega

/-- Window 15's block at any point is its whole array. -/
theorem blk0_15 (c : Dev nD) (t : Fin cfg0.N) : iblk0 (F := Ideal) V c 15 t = V c main_arg14 := by
  funext y
  show V c main_arg14 (((cfg0.win 15).blk t).view.emb y) = V c main_arg14 y
  refine congrArg (V c main_arg14) (funext fun a => Fin.ext ?_)
  have f0 := (idx0 t).2.2.2.2.2.2.2.2.2.2.2.2.2.2.2.2.2.2.2.2.2.2.2.2.1
  match a with
  | ⟨0, _⟩ => show win0_15.index t (0 : Fin 1) * 128 + 1 * (y 0).val = (y 0).val; omega

/-- Window 16's block at any point is its whole array. -/
theorem blk0_16 (c : Dev nD) (t : Fin cfg0.N) : iblk0 (F := Ideal) V c 16 t = V c main_arg15 := by
  funext y
  show V c main_arg15 (((cfg0.win 16).blk t).view.emb y) = V c main_arg15 y
  refine congrArg (V c main_arg15) (funext fun a => Fin.ext ?_)
  have f0 := (idx0 t).2.2.2.2.2.2.2.2.2.2.2.2.2.2.2.2.2.2.2.2.2.2.2.2.2.1
  match a with
  | ⟨0, _⟩ => show win0_16.index t (0 : Fin 1) * 128 + 1 * (y 0).val = (y 0).val; omega

/-- What point t writes back through output window 17: rows 4000·t … 4000·t + 3999 of the edge latents. -/
theorem flushed17 (c : Dev nD) (t : Fin cfg0.N) :
    (dat0 V c).flushed 17 t = ((cfg0.win 17).blk t).view.read (Elt Ideal) (edgeLat V c) := by
  show (cfg0.win 17).cut (grid0.coords t) ((dat0 V c).after 17 t) = _
  rw [after0_17]
  rw [blk0_0, blk0_1, blk0_2, blk0_3, blk0_4, blk0_5, blk0_6, blk0_7, blk0_8, blk0_9, blk0_10, blk0_11, blk0_12, blk0_13, blk0_14, blk0_15, blk0_16]
  rw [Body.out17_eq]
  rw [band_ffn]
  funext j
  show band 4000 (4000 * t.val) _ (edgeLat V c) j = edgeLat V c (((cfg0.win 17).blk t).view.emb j)
  have f0 := (idx0 t).2.2.2.2.2.2.2.2.2.2.2.2.2.2.2.2.2.2.2.2.2.2.2.2.2.2.1
  have f1 := (idx0 t).2.2.2.2.2.2.2.2.2.2.2.2.2.2.2.2.2.2.2.2.2.2.2.2.2.2.2.1
  refine band_apply 4000 (4000 * t.val) _ (edgeLat V c) j _ ?_ ?_
  · show win0_17.index t (0 : Fin 2) * 4000 + 1 * (j 0).val = 4000 * t.val + (j 0).val; omega
  · show win0_17.index t (1 : Fin 2) * 128 + 1 * (j 1).val = (j 1).val; omega

/-- An index of the array is in point t's block iff each coordinate is in the block's range on its axis. -/
theorem mem_blk17 (t : Fin cfg0.N) (i : S400000x128.Idx) :
    i ∈ ((cfg0.win 17).blk t).view.set ↔ ∀ a : Fin 2, win0_17.index t a * S4000x128.size a ≤ (i a).val
      ∧ (i a).val < win0_17.index t a * S4000x128.size a + S4000x128.size a := by
  show i ∈ ((View.whole main_v27_0).slice (win0_17.rect t)).set ↔ _
  rw [View.set_slice_whole, Rect.mem_set_unit]
  exact Iff.rfl

/-- Every index of the array is in the block of the point numbered by its row divided by 4000. -/
theorem cover17 (i : S400000x128.Idx) :
    ∃ t : Fin cfg0.N, (cfg0.win 17).flush t = true ∧ i ∈ ((cfg0.win 17).blk t).view.set := by
  have hi0 : (i 0).val < 400000 := (i 0).isLt
  have hi1 : (i 1).val < 128 := (i 1).isLt
  obtain ⟨t, ht⟩ : ∃ t : Fin cfg0.N, t.val = (i 0).val / 4000 :=
    ⟨⟨(i 0).val / 4000, by show (i 0).val / 4000 < grid0.N; rw [N_0]; omega⟩, rfl⟩
  refine ⟨t, flush0_17 t, ?_⟩
  rw [mem_blk17]
  have f0 := (idx0 t).2.2.2.2.2.2.2.2.2.2.2.2.2.2.2.2.2.2.2.2.2.2.2.2.2.2.1
  have f1 := (idx0 t).2.2.2.2.2.2.2.2.2.2.2.2.2.2.2.2.2.2.2.2.2.2.2.2.2.2.2.1
  intro a
  match a with
  | ⟨0, _⟩ => show win0_17.index t (0 : Fin 2) * 4000 ≤ (i 0).val ∧ (i 0).val < win0_17.index t (0 : Fin 2) * 4000 + 4000; omega
  | ⟨1, _⟩ => show win0_17.index t (1 : Fin 2) * 128 ≤ (i 1).val ∧ (i 1).val < win0_17.index t (1 : Fin 2) * 128 + 128; omega

/-- The output array after the region: the edge latents. -/
theorem final17 (c : Dev nD) : (dat0 V c).arrAt 17 cfg0.N = edgeLat V c :=
  (dat0 V c).arrAt_eq_of_cover 17 (edgeLat V c) (fun t _ => flushed17 V c t) cover17

/-- What point t writes back through output window 18: rows 4000·t … 4000·t + 3999 of the updated edges. -/
theorem flushed18 (c : Dev nD) (t : Fin cfg0.N) :
    (dat0 V c).flushed 18 t = ((cfg0.win 18).blk t).view.read (Elt Ideal) (newEdge V c) := by
  show (cfg0.win 18).cut (grid0.coords t) ((dat0 V c).after 18 t) = _
  rw [after0_18]
  rw [blk0_0, blk0_1, blk0_2, blk0_3, blk0_4, blk0_5, blk0_6, blk0_7, blk0_8, blk0_9, blk0_10, blk0_11, blk0_12, blk0_13, blk0_14, blk0_15, blk0_16]
  rw [Body.out18_eq]
  rw [band_ffn, band_prod, band_prod, band_prod, band_plus, band_plus, band_ffnTail]
  funext j
  show band 4000 (4000 * t.val) _ (newEdge V c) j = newEdge V c (((cfg0.win 18).blk t).view.emb j)
  have f0 := (idx0 t).2.2.2.2.2.2.2.2.2.2.2.2.2.2.2.2.2.2.2.2.2.2.2.2.2.2.2.2.1
  have f1 := (idx0 t).2.2.2.2.2.2.2.2.2.2.2.2.2.2.2.2.2.2.2.2.2.2.2.2.2.2.2.2.2
  refine band_apply 4000 (4000 * t.val) _ (newEdge V c) j _ ?_ ?_
  · show win0_18.index t (0 : Fin 2) * 4000 + 1 * (j 0).val = 4000 * t.val + (j 0).val; omega
  · show win0_18.index t (1 : Fin 2) * 128 + 1 * (j 1).val = (j 1).val; omega

/-- An index of the array is in point t's block iff each coordinate is in the block's range on its axis. -/
theorem mem_blk18 (t : Fin cfg0.N) (i : S400000x128.Idx) :
    i ∈ ((cfg0.win 18).blk t).view.set ↔ ∀ a : Fin 2, win0_18.index t a * S4000x128.size a ≤ (i a).val
      ∧ (i a).val < win0_18.index t a * S4000x128.size a + S4000x128.size a := by
  show i ∈ ((View.whole main_v27_1).slice (win0_18.rect t)).set ↔ _
  rw [View.set_slice_whole, Rect.mem_set_unit]
  exact Iff.rfl

/-- Every index of the array is in the block of the point numbered by its row divided by 4000. -/
theorem cover18 (i : S400000x128.Idx) :
    ∃ t : Fin cfg0.N, (cfg0.win 18).flush t = true ∧ i ∈ ((cfg0.win 18).blk t).view.set := by
  have hi0 : (i 0).val < 400000 := (i 0).isLt
  have hi1 : (i 1).val < 128 := (i 1).isLt
  obtain ⟨t, ht⟩ : ∃ t : Fin cfg0.N, t.val = (i 0).val / 4000 :=
    ⟨⟨(i 0).val / 4000, by show (i 0).val / 4000 < grid0.N; rw [N_0]; omega⟩, rfl⟩
  refine ⟨t, flush0_18 t, ?_⟩
  rw [mem_blk18]
  have f0 := (idx0 t).2.2.2.2.2.2.2.2.2.2.2.2.2.2.2.2.2.2.2.2.2.2.2.2.2.2.2.2.1
  have f1 := (idx0 t).2.2.2.2.2.2.2.2.2.2.2.2.2.2.2.2.2.2.2.2.2.2.2.2.2.2.2.2.2
  intro a
  match a with
  | ⟨0, _⟩ => show win0_18.index t (0 : Fin 2) * 4000 ≤ (i 0).val ∧ (i 0).val < win0_18.index t (0 : Fin 2) * 4000 + 4000; omega
  | ⟨1, _⟩ => show win0_18.index t (1 : Fin 2) * 128 ≤ (i 1).val ∧ (i 1).val < win0_18.index t (1 : Fin 2) * 128 + 128; omega

/-- The output array after the region: the updated edges. -/
theorem final18 (c : Dev nD) : (dat0 V c).arrAt 18 cfg0.N = newEdge V c :=
  (dat0 V c).arrAt_eq_of_cover 18 (newEdge V c) (fun t _ => flushed18 V c t) cover18

end Cert.KernelIdeal.EdgeValue

end
-- ==== Proof.NodeBody.lean ====
/-
  What the node kernel's body leaves in its output block, as the network's layers applied to the input blocks.

  The first dense layer is fed two partial products — the node-feature block and the mean-incoming-edge block, each
  against its own 128-row weight matrix — then x · logistic x, the second dense layer and the layer normalisation (the
  body computes the row means and the row sums of squared deviations as separate columns and joins them afterwards),
  and last the output head: a dense layer, the logistic function, and a dense layer onto three columns.
-/
import proofs.«115111_j71949292142783_2_alg».proof.Proof.Gen.KernelIdeal.Frame
import proofs.«115111_j71949292142783_2_alg».proof.Proof.Net
import Idealize.ShloMosaic.Lib.Pipeline.Value

set_option maxRecDepth 16384

noncomputable section

namespace Cert.KernelIdeal.NodeBody

open Cert.KernelIdeal Cert.KernelIdeal.Gen
open Idealize.ShloMosaic Idealize.ShloMosaic.ValueIdx Idealize.ShloMosaic.Pipeline
open Cert.LibMatProd Cert.Layers Cert.NormLayers Cert.Net

theorem zero2 : (![0, 0] : Fin 2 → Nat) = fun _ => 0 := funext fun a => by fin_cases a <;> rfl
theorem zero1 : (![0] : Fin 1 → Nat) = fun _ => 0 := funext fun a => by fin_cases a; rfl

set_option backward.isDefEq.respectTransparency.types false in
/-- The node update before its normalisation: two partial products, bias, x · logistic x, second dense layer. -/
theorem pay2_eq (v0 v2 : Vec Ideal S2000x128 .f32) (v5 v9 : Vec Ideal S128x128 .f32) (v14 : Vec Ideal S128 .f32)
    (v21 : Vec Ideal S128x128 .f32) (v24 : Vec Ideal S128 .f32) :
    k1_pay2 (F := Ideal) v0 v2 v5 v9 v14 v21 v24
      = dense (silu (addRow (plus (matProd (v0 : Mat 2000 128) (v5 : Mat 128 128)) (matProd (v2 : Mat 2000 128) (v9 : Mat 128 128))) (rowOf v14)))
          (v21 : Mat 128 128) (rowOf v24) := by
  unfold k1_pay2
  dsimp only
  simp only [shapeCast_self]
  rw [unit_prod dot_S2000x128_S128x128_S2000x128_1_0_0_1_n_n rfl rfl rfl rfl rfl rfl,
    unit_prod dot_S2000x128_S128x128_S2000x128_1_0_0_1_n_n rfl rfl rfl rfl rfl rfl,
    unit_prod dot_S2000x128_S128x128_S2000x128_1_0_0_1_n_n rfl rfl rfl rfl rfl rfl,
    unit_addVec, unit_addVec]
  rfl

set_option backward.isDefEq.respectTransparency.types false in
/-- The output block: the node outputs of the block's rows. -/
theorem out13_eq (x0 x1 : Vec Ideal S2000x128 .f32) (x2 x3 : Vec Ideal S128x128 .f32) (x4 : Vec Ideal S128 .f32)
    (x5 : Vec Ideal S128x128 .f32) (x6 x7 x8 : Vec Ideal S128 .f32) (x9 : Vec Ideal S128x128 .f32) (x10 : Vec Ideal S128 .f32)
    (x11 : Vec Ideal S128x3 .f32) (x12 : Vec Ideal S3 .f32) :
    out1_13 (F := Ideal) x0 x1 x2 x3 x4 x5 x6 x7 x8 x9 x10 x11 x12
      = head (ffnTail (plus (matProd (x0 : Mat 2000 128) (x2 : Mat 128 128)) (matProd (x1 : Mat 2000 128) (x3 : Mat 128 128)))
          (rowOf x4) (x5 : Mat 128 128) (rowOf x6) (rowOf x7) (rowOf x8)) (x9 : Mat 128 128) (rowOf x10) (x11 : Mat 128 3) (rowOf x12) := by
  unfold out1_13
  rw [View.canon_unit_zero zero2]
  simp only [View.ld_unit_zero (S := S2000x128) zero2, View.ld_unit_zero (S := S128x128) zero2, View.ld_unit_zero (S := S128x3) zero2,
    View.ld_unit_zero (S := S128) zero1, View.ld_unit_zero (S := S3) zero1]
  unfold k1_pay1 k1_pay4 k1_pay3
  dsimp only
  rw [pay2_eq]
  rw [unit_centred, unit_scaled, unit_mulVec,
    unit_prod dot_S2000x128_S128x128_S2000x128_1_0_0_1_n_n rfl rfl rfl rfl rfl rfl,
    unit_prod dot_S2000x128_S128x3_S2000x3_1_0_0_1_n_n rfl rfl rfl rfl rfl rfl,
    unit_addVec, unit_addVec, unit_addVec]
  rfl

end Cert.KernelIdeal.NodeBody

end
-- ==== Proof.NodeValue.lean ====
/-
  The node kernel's output array as a whole-array function of the arrays the region finds.

  The grid has 25 points; point t reads rows 2000·t … 2000·t + 1999 of the node features and of the mean incoming
  edges and the whole of every weight and bias array, and writes back rows 2000·t … 2000·t + 1999 of the output. The
  layers act row by row, so what point t writes back is that band of rows of the layers applied to the whole arrays;
  the twenty-five bands cover every row.
-/
import proofs.«115111_j71949292142783_2_alg».proof.Proof.Gen.KernelIdeal.Frame
import proofs.«115111_j71949292142783_2_alg».proof.Proof.NodeBody
import Idealize.ShloMosaic.Lib.Pipeline.Value

set_option maxRecDepth 16384

noncomputable section

namespace Cert.KernelIdeal.NodeValue

open Cert.KernelIdeal Cert.KernelIdeal.Gen
open Idealize.ShloMosaic Idealize.ShloMosaic.TcCoe Idealize.ShloMosaic.ValueIdx Idealize.ShloMosaic.Pipeline Idealize.SL.Sem
open Cert.LibMatProd Cert.Layers Cert.NormLayers Cert.Net

variable (V : (c : Dev nD) → (b : Ref sig .tc) → Buf (Elt Ideal) ((c : Thread nD τ).loc b))

/-- The node outputs of all nodes, from the arrays as the region finds them (the mean incoming edges and the two bands
    of the first-layer weights are arrays the host wrote before the region). -/
def nodeOut (c : Dev nD) : Mat 50000 3 :=
  head (ffnTail (plus (matProd (V c main_arg3 : Mat 50000 128) (V c main_v35 : Mat 128 128)) (matProd (V c main_v34 : Mat 50000 128) (V c main_v36 : Mat 128 128)))
      (rowOf (V c main_arg17)) (V c main_arg18 : Mat 128 128) (rowOf (V c main_arg19)) (rowOf (V c main_arg20)) (rowOf (V c main_arg21)))
    (V c main_arg22 : Mat 128 128) (rowOf (V c main_arg23)) (V c main_arg24 : Mat 128 3) (rowOf (V c main_arg25))

/-- Point t's band of 2000 rows lies inside the 50000 rows. -/
theorem rows_ok (t : Fin cfg1.N) : 2000 * t.val + 2000 ≤ 50000 := by
  have h : t.val < grid1.N := t.isLt
  rw [N_1] at h
  omega

/-- The printed index maps, decided over the grid: a row-tiled window's block index is (t, 0), an untiled window's is 0. -/
theorem idx1 : ∀ t : Fin cfg1.N, win1_0.index t (0 : Fin 2) = t.val
    ∧ win1_0.index t (1 : Fin 2) = 0
    ∧ win1_1.index t (0 : Fin 2) = t.val
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 1) = 0
    ∧ win1_5.index t (0 : Fin 2) = 0
    ∧ win1_5.index t (1 : Fin 2) = 0
    ∧ win1_6.index t (0 : Fin 1) = 0
    ∧ win1_7.index t (0 : Fin 1) = 0
    ∧ win1_8.index t (0 : Fin 1) = 0
    ∧ win1_9.index t (0 : Fin 2) = 0
    ∧ win1_9.index t (1 : Fin 2) = 0
    ∧ win1_10.index t (0 : Fin 1) = 0
    ∧ win1_11.index t (0 : Fin 2) = 0
    ∧ win1_11.index t (1 : Fin 2) = 0
    ∧ win1_12.index t (0 : Fin 1) = 0
    ∧ win1_13.index t (0 : Fin 2) = t.val
    ∧ win1_13.index t (1 : Fin 2) = 0 :=
  (by decide +kernel : ∀ t : Fin grid1.N, _)

/-- Window 0's block at point t: rows 2000·t … 2000·t + 1999 of its array. -/
theorem blk1_0 (c : Dev nD) (t : Fin cfg1.N) :
    iblk1 (F := Ideal) V c 0 t = band 2000 (2000 * t.val) (rows_ok t) (V c main_arg3 : Mat 50000 128) := by
  funext y
  show V c main_arg3 (((cfg1.win 0).blk t).view.emb y) = V c main_arg3 _
  refine congrArg (V c main_arg3) (funext fun a => Fin.ext ?_)
  have f0 := (idx1 t).1
  have f1 := (idx1 t).2.1
  match a with
  | ⟨0, _⟩ => show win1_0.index t (0 : Fin 2) * 2000 + 1 * (y 0).val = 2000 * t.val + (y 0).val; omega
  | ⟨1, _⟩ => show win1_0.index t (1 : Fin 2) * 128 + 1 * (y 1).val = (y 1).val; omega

/-- Window 1's block at point t: rows 2000·t … 2000·t + 1999 of its array. -/
theorem blk1_1 (c : Dev nD) (t : Fin cfg1.N) :
    iblk1 (F := Ideal) V c 1 t = band 2000 (2000 * t.val) (rows_ok t) (V c main_v34 : Mat 50000 128) := by
  funext y
  show V c main_v34 (((cfg1.win 1).blk t).view.emb y) = V c main_v34 _
  refine congrArg (V c main_v34) (funext fun a => Fin.ext ?_)
  have f0 := (idx1 t).2.2.1
  have f1 := (idx1 t).2.2.2.1
  match a with
  | ⟨0, _⟩ => show win1_1.index t (0 : Fin 2) * 2000 + 1 * (y 0).val = 2000 * t.val + (y 0).val; omega
  | ⟨1, _⟩ => show win1_1.index t (1 : Fin 2) * 128 + 1 * (y 1).val = (y 1).val; omega

/-- Window 2's block at any point is its whole array. -/
theorem blk1_2 (c : Dev nD) (t : Fin cfg1.N) : iblk1 (F := Ideal) V c 2 t = V c main_v35 := by
  funext y
  show V c main_v35 (((cfg1.win 2).blk t).view.emb y) = V c main_v35 y
  refine congrArg (V c main_v35) (funext fun a => Fin.ext ?_)
  have f0 := (idx1 t).2.2.2.2.1
  have f1 := (idx1 t).2.2.2.2.2.1
  match a with
  | ⟨0, _⟩ => show win1_2.index t (0 : Fin 2) * 128 + 1 * (y 0).val = (y 0).val; omega
  | ⟨1, _⟩ => show win1_2.index t (1 : Fin 2) * 128 + 1 * (y 1).val = (y 1).val; omega

/-- Window 3's block at any point is its whole array. -/
theorem blk1_3 (c : Dev nD) (t : Fin cfg1.N) : iblk1 (F := Ideal) V c 3 t = V c main_v36 := by
  funext y
  show V c main_v36 (((cfg1.win 3).blk t).view.emb y) = V c main_v36 y
  refine congrArg (V c main_v36) (funext fun a => Fin.ext ?_)
  have f0 := (idx1 t).2.2.2.2.2.2.1
  have f1 := (idx1 t).2.2.2.2.2.2.2.1
  match a with
  | ⟨0, _⟩ => show win1_3.index t (0 : Fin 2) * 128 + 1 * (y 0).val = (y 0).val; omega
  | ⟨1, _⟩ => show win1_3.index t (1 : Fin 2) * 128 + 1 * (y 1).val = (y 1).val; omega

/-- Window 4's block at any point is its whole array. -/
theorem blk1_4 (c : Dev nD) (t : Fin cfg1.N) : iblk1 (F := Ideal) V c 4 t = V c main_arg17 := by
  funext y
  show V c main_arg17 (((cfg1.win 4).blk t).view.emb y) = V c main_arg17 y
  refine congrArg (V c main_arg17) (funext fun a => Fin.ext ?_)
  have f0 := (idx1 t).2.2.2.2.2.2.2.2.1
  match a with
  | ⟨0, _⟩ => show win1_4.index t (0 : Fin 1) * 128 + 1 * (y 0).val = (y 0).val; omega

/-- Window 5's block at any point is its whole array. -/
theorem blk1_5 (c : Dev nD) (t : Fin cfg1.N) : iblk1 (F := Ideal) V c 5 t = V c main_arg18 := by
  funext y
  show V c main_arg18 (((cfg1.win 5).blk t).view.emb y) = V c main_arg18 y
  refine congrArg (V c main_arg18) (funext fun a => Fin.ext ?_)
  have f0 := (idx1 t).2.2.2.2.2.2.2.2.2.1
  have f1 := (idx1 t).2.2.2.2.2.2.2.2.2.2.1
  match a with
  | ⟨0, _⟩ => show win1_5.index t (0 : Fin 2) * 128 + 1 * (y 0).val = (y 0).val; omega
  | ⟨1, _⟩ => show win1_5.index t (1 : Fin 2) * 128 + 1 * (y 1).val = (y 1).val; omega

/-- Window 6's block at any point is its whole array. -/
theorem blk1_6 (c : Dev nD) (t : Fin cfg1.N) : iblk1 (F := Ideal) V c 6 t = V c main_arg19 := by
  funext y
  show V c main_arg19 (((cfg1.win 6).blk t).view.emb y) = V c main_arg19 y
  refine congrArg (V c main_arg19) (funext fun a => Fin.ext ?_)
  have f0 := (idx1 t).2.2.2.2.2.2.2.2.2.2.2.1
  match a with
  | ⟨0, _⟩ => show win1_6.index t (0 : Fin 1) * 128 + 1 * (y 0).val = (y 0).val; omega

/-- Window 7's block at any point is its whole array. -/
theorem blk1_7 (c : Dev nD) (t : Fin cfg1.N) : iblk1 (F := Ideal) V c 7 t = V c main_arg20 := by
  funext y
  show V c main_arg20 (((cfg1.win 7).blk t).view.emb y) = V c main_arg20 y
  refine congrArg (V c main_arg20) (funext fun a => Fin.ext ?_)
  have f0 := (idx1 t).2.2.2.2.2.2.2.2.2.2.2.2.1
  match a with
  | ⟨0, _⟩ => show win1_7.index t (0 : Fin 1) * 128 + 1 * (y 0).val = (y 0).val; omega

/-- Window 8's block at any point is its whole array. -/
theorem blk1_8 (c : Dev nD) (t : Fin cfg1.N) : iblk1 (F := Ideal) V c 8 t = V c main_arg21 := by
  funext y
  show V c main_arg21 (((cfg1.win 8).blk t).view.emb y) = V c main_arg21 y
  refine congrArg (V c main_arg21) (funext fun a => Fin.ext ?_)
  have f0 := (idx1 t).2.2.2.2.2.2.2.2.2.2.2.2.2.1
  match a with
  | ⟨0, _⟩ => show win1_8.index t (0 : Fin 1) * 128 + 1 * (y 0).val = (y 0).val; omega

/-- Window 9's block at any point is its whole array. -/
theorem blk1_9 (c : Dev nD) (t : Fin cfg1.N) : iblk1 (F := Ideal) V c 9 t = V c main_arg22 := by
  funext y
  show V c main_arg22 (((cfg1.win 9).blk t).view.emb y) = V c main_arg22 y
  refine congrArg (V c main_arg22) (funext fun a => Fin.ext ?_)
  have f0 := (idx1 t).2.2.2.2.2.2.2.2.2.2.2.2.2.2.1
  have f1 := (idx1 t).2.2.2.2.2.2.2.2.2.2.2.2.2.2.2.1
  match a with
  | ⟨0, _⟩ => show win1_9.index t (0 : Fin 2) * 128 + 1 * (y 0).val = (y 0).val; omega
  | ⟨1, _⟩ => show win1_9.index t (1 : Fin 2) * 128 + 1 * (y 1).val = (y 1).val; omega

/-- Window 10's block at any point is its whole array. -/
theorem blk1_10 (c : Dev nD) (t : Fin cfg1.N) : iblk1 (F := Ideal) V c 10 t = V c main_arg23 := by
  funext y
  show V c main_arg23 (((cfg1.win 10).blk t).view.emb y) = V c main_arg23 y
  refine congrArg (V c main_arg23) (funext fun a => Fin.ext ?_)
  have f0 := (idx1 t).2.2.2.2.2.2.2.2.2.2.2.2.2.2.2.2.1
  match a with
  | ⟨0, _⟩ => show win1_10.index t (0 : Fin 1) * 128 + 1 * (y 0).val = (y 0).val; omega

/-- Window 11's block at any point is its whole array. -/
theorem blk1_11 (c : Dev nD) (t : Fin cfg1.N) : iblk1 (F := Ideal) V c 11 t = V c main_arg24 := by
  funext y
  show V c main_arg24 (((cfg1.win 11).blk t).view.emb y) = V c main_arg24 y
  refine congrArg (V c main_arg24) (funext fun a => Fin.ext ?_)
  have f0 := (idx1 t).2.2.2.2.2.2.2.2.2.2.2.2.2.2.2.2.2.1
  have f1 := (idx1 t).2.2.2.2.2.2.2.2.2.2.2.2.2.2.2.2.2.2.1
  match a with
  | ⟨0, _⟩ => show win1_11.index t (0 : Fin 2) * 128 + 1 * (y 0).val = (y 0).val; omega
  | ⟨1, _⟩ => show win1_11.index t (1 : Fin 2) * 3 + 1 * (y 1).val = (y 1).val; omega

/-- Window 12's block at any point is its whole array. -/
theorem blk1_12 (c : Dev nD) (t : Fin cfg1.N) : iblk1 (F := Ideal) V c 12 t = V c main_arg25 := by
  funext y
  show V c main_arg25 (((cfg1.win 12).blk t).view.emb y) = V c main_arg25 y
  refine congrArg (V c main_arg25) (funext fun a => Fin.ext ?_)
  have f0 := (idx1 t).2.2.2.2.2.2.2.2.2.2.2.2.2.2.2.2.2.2.2.1
  match a with
  | ⟨0, _⟩ => show win1_12.index t (0 : Fin 1) * 3 + 1 * (y 0).val = (y 0).val; omega

/-- What point t writes back through output window 13: rows 2000·t … 2000·t + 1999 of the node outputs. -/
theorem flushed13 (c : Dev nD) (t : Fin cfg1.N) :
    (dat1 V c).flushed 13 t = ((cfg1.win 13).blk t).view.read (Elt Ideal) (nodeOut V c) := by
  show (cfg1.win 13).cut (grid1.coords t) ((dat1 V c).after 13 t) = _
  rw [after1_13]
  rw [blk1_0, blk1_1, blk1_2, blk1_3, blk1_4, blk1_5, blk1_6, blk1_7, blk1_8, blk1_9, blk1_10, blk1_11, blk1_12]
  rw [NodeBody.out13_eq]
  rw [band_prod, band_prod, band_plus, band_ffnTail, band_head]
  funext j
  show band 2000 (2000 * t.val) _ (nodeOut V c) j = nodeOut V c (((cfg1.win 13).blk t).view.emb j)
  have f0 := (idx1 t).2.2.2.2.2.2.2.2.2.2.2.2.2.2.2.2.2.2.2.2.1
  have f1 := (idx1 t).2.2.2.2.2.2.2.2.2.2.2.2.2.2.2.2.2.2.2.2.2
  refine band_apply 2000 (2000 * t.val) _ (nodeOut V c) j _ ?_ ?_
  · show win1_13.index t (0 : Fin 2) * 2000 + 1 * (j 0).val = 2000 * t.val + (j 0).val; omega
  · show win1_13.index t (1 : Fin 2) * 3 + 1 * (j 1).val = (j 1).val; omega

/-- An index of the array is in point t's block iff each coordinate is in the block's range on its axis. -/
theorem mem_blk13 (t : Fin cfg1.N) (i : S50000x3.Idx) :
    i ∈ ((cfg1.win 13).blk t).view.set ↔ ∀ a : Fin 2, win1_13.index t a * S2000x3.size a ≤ (i a).val
      ∧ (i a).val < win1_13.index t a * S2000x3.size a + S2000x3.size a := by
  show i ∈ ((View.whole main_v37).slice (win1_13.rect t)).set ↔ _
  rw [View.set_slice_whole, Rect.mem_set_unit]
  exact Iff.rfl

/-- Every index of the array is in the block of the point numbered by its row divided by 2000. -/
theorem cover13 (i : S50000x3.Idx) :
    ∃ t : Fin cfg1.N, (cfg1.win 13).flush t = true ∧ i ∈ ((cfg1.win 13).blk t).view.set := by
  have hi0 : (i 0).val < 50000 := (i 0).isLt
  have hi1 : (i 1).val < 3 := (i 1).isLt
  obtain ⟨t, ht⟩ : ∃ t : Fin cfg1.N, t.val = (i 0).val / 2000 :=
    ⟨⟨(i 0).val / 2000, by show (i 0).val / 2000 < grid1.N; rw [N_1]; omega⟩, rfl⟩
  refine ⟨t, flush1_13 t, ?_⟩
  rw [mem_blk13]
  have f0 := (idx1 t).2.2.2.2.2.2.2.2.2.2.2.2.2.2.2.2.2.2.2.2.1
  have f1 := (idx1 t).2.2.2.2.2.2.2.2.2.2.2.2.2.2.2.2.2.2.2.2.2
  intro a
  match a with
  | ⟨0, _⟩ => show win1_13.index t (0 : Fin 2) * 2000 ≤ (i 0).val ∧ (i 0).val < win1_13.index t (0 : Fin 2) * 2000 + 2000; omega
  | ⟨1, _⟩ => show win1_13.index t (1 : Fin 2) * 3 ≤ (i 1).val ∧ (i 1).val < win1_13.index t (1 : Fin 2) * 3 + 3; omega

/-- The output array after the region: the node outputs. -/
theorem final13 (c : Dev nD) : (dat1 V c).arrAt 13 cfg1.N = nodeOut V c :=
  (dat1 V c).arrAt_eq_of_cover 13 (nodeOut V c) (fun t _ => flushed13 V c t) cover13

end Cert.KernelIdeal.NodeValue

end
-- ==== Proof.NetHost.lean ====
/-
  The host's spellings of matrices side by side and of a band of rows.

  A concatenation of three (or two) 128-column matrices along the column axis reads, at column q, the piece whose column
  range holds q, at column q minus the widths of the pieces before it. A unit-stride slice of 128 consecutive rows
  starting at row r, all columns, is the band of rows r … r + 127.
-/
import proofs.«115111_j71949292142783_2_alg».proof.Proof.Net

noncomputable section

namespace Cert.Net

open Idealize.ShloMosaic Idealize.ShloMosaic.ValueIdx Cert.LibMatProd Cert.Layers Cert.NormLayers

private theorem off_axis {M A B : ℕ} (p : Fin M) (q' : Fin A) (q : Fin B) :
    ∀ b : Fin 2, b.cast (rfl : (2 : Nat) = 2) ≠ (1 : Fin 2) → ((ix2 p q') b).val = ((ix2 p q) (b.cast rfl)).val :=
  fun b hb => match b with
    | ⟨0, _⟩ => rfl
    | ⟨1, _⟩ => absurd rfl hb

/-- Three 128-column matrices concatenated along the columns. -/
theorem host_cat3 {M : ℕ} (a b c : (⟨2, ![M, 128]⟩ : Shape).Idx → EReal)
    (h : Shape.Concatenates [⟨2, ![M, 128]⟩, ⟨2, ![M, 128]⟩, ⟨2, ![M, 128]⟩] ⟨2, ![M, 384]⟩ 1) :
    concatenate ⟨2, ![M, 384]⟩ 1 [⟨⟨2, ![M, 128]⟩, a⟩, ⟨⟨2, ![M, 128]⟩, b⟩, ⟨⟨2, ![M, 128]⟩, c⟩] h = cat3 a b c := by
  funext j
  obtain ⟨p, q, rfl⟩ : ∃ (p : Fin M) (q : Fin 384), j = ix2 p q := ⟨j 0, j 1, eq_ix2 j⟩
  unfold cat3
  by_cases h1 : q.val < 128
  · rw [dif_pos (show ((ix2 p q) 1).val < 128 from h1)]
    exact concatenate_apply_piece 1 [⟨⟨2, ![M, 128]⟩, a⟩, ⟨⟨2, ![M, 128]⟩, b⟩, ⟨⟨2, ![M, 128]⟩, c⟩] h _ 0 (show 0 < 3 by omega) _ a rfl rfl 0 rfl
      (ix2 p ⟨q.val, h1⟩) (off_axis p _ q) (show 0 + q.val = q.val by omega)
  · rw [dif_neg (show ¬ ((ix2 p q) 1).val < 128 from h1)]
    by_cases h2 : q.val < 256
    · rw [dif_pos (show ((ix2 p q) 1).val < 256 from h2)]
      exact concatenate_apply_piece 1 [⟨⟨2, ![M, 128]⟩, a⟩, ⟨⟨2, ![M, 128]⟩, b⟩, ⟨⟨2, ![M, 128]⟩, c⟩] h _ 1 (show 1 < 3 by omega) _ b rfl rfl 128 rfl
        (ix2 p ⟨q.val - 128, by omega⟩) (off_axis p _ q) (show 128 + (q.val - 128) = q.val by omega)
    · rw [dif_neg (show ¬ ((ix2 p q) 1).val < 256 from h2)]
      exact concatenate_apply_piece 1 [⟨⟨2, ![M, 128]⟩, a⟩, ⟨⟨2, ![M, 128]⟩, b⟩, ⟨⟨2, ![M, 128]⟩, c⟩] h _ 2 (show 2 < 3 by omega) _ c rfl rfl 256 rfl
        (ix2 p ⟨q.val - 256, by have := q.isLt; omega⟩) (off_axis p _ q) (show 256 + (q.val - 256) = q.val by omega)

/-- Two 128-column matrices concatenated along the columns. -/
theorem host_cat2 {M : ℕ} (a b : (⟨2, ![M, 128]⟩ : Shape).Idx → EReal)
    (h : Shape.Concatenates [⟨2, ![M, 128]⟩, ⟨2, ![M, 128]⟩] ⟨2, ![M, 256]⟩ 1) :
    concatenate ⟨2, ![M, 256]⟩ 1 [⟨⟨2, ![M, 128]⟩, a⟩, ⟨⟨2, ![M, 128]⟩, b⟩] h = cat2 a b := by
  funext j
  obtain ⟨p, q, rfl⟩ : ∃ (p : Fin M) (q : Fin 256), j = ix2 p q := ⟨j 0, j 1, eq_ix2 j⟩
  unfold cat2
  by_cases h1 : q.val < 128
  · rw [dif_pos (show ((ix2 p q) 1).val < 128 from h1)]
    exact concatenate_apply_piece 1 [⟨⟨2, ![M, 128]⟩, a⟩, ⟨⟨2, ![M, 128]⟩, b⟩] h _ 0 (show 0 < 2 by omega) _ a rfl rfl 0 rfl
      (ix2 p ⟨q.val, h1⟩) (off_axis p _ q) (show 0 + q.val = q.val by omega)
  · rw [dif_neg (show ¬ ((ix2 p q) 1).val < 128 from h1)]
    exact concatenate_apply_piece 1 [⟨⟨2, ![M, 128]⟩, a⟩, ⟨⟨2, ![M, 128]⟩, b⟩] h _ 1 (show 1 < 2 by omega) _ b rfl rfl 128 rfl
      (ix2 p ⟨q.val - 128, by have := q.isLt; omega⟩) (off_axis p _ q) (show 128 + (q.val - 128) = q.val by omega)

/-- Rows r … r + 127, all columns, sliced out of a matrix. -/
theorem host_rows {K N : ℕ} (r : ℕ) (hK : r + 128 ≤ K) (W : (⟨2, ![K, N]⟩ : Shape).Idx → EReal)
    (hs : (⟨2, ![K, N]⟩ : Shape).Slices ![r, 0] ⟨2, ![128, N]⟩) :
    extractStridedSlice ⟨2, ![128, N]⟩ ![r, 0] W hs = band 128 r hK W := by
  funext y
  obtain ⟨k, q, rfl⟩ : ∃ (k : Fin 128) (q : Fin N), y = ix2 k q := ⟨y 0, y 1, eq_ix2 y⟩
  rw [band_w]
  exact extractStridedSlice_apply ![r, 0] W hs _ _ (fun a => match a with
    | ⟨0, _⟩ => by show k.val + r = r + k.val; omega
    | ⟨1, _⟩ => by show q.val = 0 + q.val; omega)

end Cert.Net

end
-- ==== Proof.RefNet.lean ====
/-
  The reference's two results as the network's layers applied to its argument arrays.

  The whole computation, as functions of the argument arrays: the edge latents are the feed-forward block of the edge
  features; the updated edges are the feed-forward block of [gathered sender latents | gathered receiver features | edge
  latents]; the mean incoming edge of a node is the scatter-sum of the updated edges over the receivers divided by the
  larger of the receiver count and one; the node outputs are the output head of the feed-forward block of
  [node features | mean incoming edge]. The gathers and scatter-sums are kept as the host operations they are.

  The reference program's run states each result as a composed term of host operations; here each such term is shown
  to be the corresponding function above, one named intermediate at a time.
-/
import proofs.«115111_j71949292142783_2_alg».proof.Proof.Gen.ReferenceIdeal.Run
import proofs.«115111_j71949292142783_2_alg».proof.Proof.NetHost

set_option maxRecDepth 16384

noncomputable section

namespace Cert.RefNet

open Cert.ReferenceIdeal Cert.ReferenceIdeal.Gen Cert.ReferenceIdeal.Value
open Idealize.ShloMosaic Idealize.ShloMosaic.TcCoe Idealize.ShloMosaic.ValueIdx Idealize.ShloMosaic.StableHlo
open Cert.LibMatProd Cert.Layers Cert.NormLayers Cert.Net

/-! ## The network as functions of the argument arrays -/

/-- Column k of the edge-index array, flattened: the senders (k = 0) or the receivers (k = 1). -/
def senders (e : IVec S400000x2 32) : IVec S400000 32 :=
  shapeCast S400000 (extractStridedSlice S400000x1 ![0, 0] e slices_S400000x2_S400000x1_0_0) shapeCasts_S400000x1_S400000
def receivers (e : IVec S400000x2 32) : IVec S400000 32 :=
  shapeCast S400000 (extractStridedSlice S400000x1 ![0, 1] e slices_S400000x2_S400000x1_0_1) shapeCasts_S400000x1_S400000

/-- The rows of a 50000-row table named by an index vector (a negative index counted from the end), as the host gathers them. -/
def gatherRows (tbl : FVec Ideal S50000x128 .f32) (ix : IVec S400000 32) : FVec Ideal S400000x128 .f32 :=
  Host.gather gather_S50000x128_S400000x1_S400000x128_1_0_n_n_0_1_1128 tbl
    (broadcastInDim S400000x1 ![0] bcast_S400000_S400000x1_0
      (select (cmpi .slt ix (broadcastInDim S400000 ![] bcast_S_S400000 (constantI S_ 32 0#32)))
        (addi ix (broadcastInDim S400000 ![] bcast_S_S400000 (constantI S_ 32 50000#32))) ix))

/-- Per node, the sum of the rows whose index names it, divided by the larger of their number and one. -/
def meanRows (ix : IVec S400000 32) (x : FVec Ideal S400000x128 .f32) : FVec Ideal S50000x128 .f32 :=
  Host.divf (Host.scatterAdd scatter_S50000x128_S400000x1_S400000x128_1_0_0_1
      (broadcastInDim S50000x128 ![] bcast_S_S50000x128 (constant S_ .f32 0x00000000#32))
      (broadcastInDim S400000x1 ![0] bcast_S400000_S400000x1_0 ix) x)
    (broadcastInDim S50000x128 ![0, 1] bcast_S50000x1_S50000x128_0_1
      (maximumf (Host.scatterAdd scatter_S50000x1_S400000x1_S400000x1_1_0_0_1
          (broadcastInDim S50000x1 ![] bcast_S_S50000x1 (constant S_ .f32 0x00000000#32))
          (broadcastInDim S400000x1 ![0] bcast_S400000_S400000x1_0 ix)
          (broadcastInDim S400000x1 ![] bcast_S_S400000x1 (constant S_ .f32 0x3F800000#32)))
        (broadcastInDim S50000x1 ![] bcast_S_S50000x1 (constant S_ .f32 0x3F800000#32))))

/-- The edge latents. -/
def edgeOut (a1 : FVec Ideal S400000x3 .f32) (a4 : FVec Ideal S3x128 .f32) (a5 : FVec Ideal S128 .f32) (a6 : FVec Ideal S128x128 .f32)
    (a7 a8 a9 : FVec Ideal S128 .f32) : Mat 400000 128 :=
  ffn (a1 : Mat 400000 3) (a4 : Mat 3 128) (rowOf a5) (a6 : Mat 128 128) (rowOf a7) (rowOf a8) (rowOf a9)

/-- The updated edges. -/
def edgeUpd (a0 : IVec S400000x2 32) (a2 a3 : FVec Ideal S50000x128 .f32) (el : Mat 400000 128) (a10 : FVec Ideal S384x128 .f32)
    (a11 : FVec Ideal S128 .f32) (a12 : FVec Ideal S128x128 .f32) (a13 a14 a15 : FVec Ideal S128 .f32) : Mat 400000 128 :=
  ffn (cat3 (gatherRows a2 (senders a0) : Mat 400000 128) (gatherRows a3 (receivers a0) : Mat 400000 128) el) (a10 : Mat 384 128) (rowOf a11)
    (a12 : Mat 128 128) (rowOf a13) (rowOf a14) (rowOf a15)

/-- The node outputs. -/
def nodeOut (a0 : IVec S400000x2 32) (a3 : FVec Ideal S50000x128 .f32) (ne : Mat 400000 128) (a16 : FVec Ideal S256x128 .f32)
    (a17 : FVec Ideal S128 .f32) (a18 : FVec Ideal S128x128 .f32) (a19 a20 a21 : FVec Ideal S128 .f32) (a22 : FVec Ideal S128x128 .f32)
    (a23 : FVec Ideal S128 .f32) (a24 : FVec Ideal S128x3 .f32) (a25 : FVec Ideal S3 .f32) : Mat 50000 3 :=
  head (ffn (cat2 (a3 : Mat 50000 128) (meanRows (receivers a0) ne : Mat 50000 128)) (a16 : Mat 256 128) (rowOf a17) (a18 : Mat 128 128)
      (rowOf a19) (rowOf a20) (rowOf a21)) (a22 : Mat 128 128) (rowOf a23) (a24 : Mat 128 3) (rowOf a25)

/-! ## The reference's terms -/

variable (V0 : Valuation τ sig (Elt Ideal))

theorem red400k : S400000x128.Reduces [1] S400000 := by decide
theorem red50k : S50000x128.Reduces [1] S50000 := by decide

theorem v1_eq : res_main_v1 (F := Ideal) V0 = senders (V0 (Proc.devRef .tc main_arg0)) := rfl
theorem v3_eq : res_main_v3 (F := Ideal) V0 = receivers (V0 (Proc.devRef .tc main_arg0)) := rfl

set_option backward.isDefEq.respectTransparency.types false in
theorem v7_eq : res_main_v7 (F := Ideal) V0 = dense ((V0 (Proc.devRef .tc main_arg1)) : Mat 400000 3) ((V0 (Proc.devRef .tc main_arg4)) : Mat 3 128) (rowOf (V0 (Proc.devRef .tc main_arg5))) := by
  unfold res_main_v7
  rw [host_prod dot_S400000x3_S3x128_S400000x128_1_0_0_1_n_n rfl rfl rfl rfl rfl rfl, host_addRow]
  rfl

set_option backward.isDefEq.respectTransparency.types false in
theorem v18_eq : res_main_v18 (F := Ideal) V0 = dense (silu (res_main_v7 V0 : Mat 400000 128)) ((V0 (Proc.devRef .tc main_arg6)) : Mat 128 128) (rowOf (V0 (Proc.devRef .tc main_arg7))) := by
  unfold res_main_v18
  rw [host_silu, host_prod dot_S400000x128_S128x128_S400000x128_1_0_0_1_n_n rfl rfl rfl rfl rfl rfl, host_addRow]
  rfl

theorem v24_eq : res_main_v24 (F := Ideal) V0 = centred dW (res_main_v18 V0 : Mat 400000 128) := by
  unfold res_main_v24 res_main_v22
  exact host_centred (res_main_v18 V0) _ red400k _ _ _ _ _

set_option backward.isDefEq.respectTransparency.types false in
/-- The first result: the edge latents. -/
theorem edge_eq : val4 (F := Ideal) V0 (no_index (Proc.devRef .tc main_v42))
    = edgeOut (V0 (Proc.devRef .tc main_arg1)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) := by
  rw [val4_main_v42]
  rw [show subf (res_main_v18 (F := Ideal) V0) (broadcastInDim S400000x128 ![0, 1] bcast_S400000x1_S400000x128_0_1 (res_main_v22 V0))
      = res_main_v24 V0 from rfl, v24_eq]
  rw [host_scaled (hr := red400k), host_mulVec, host_addRow, v18_eq, v7_eq]
  rfl

set_option backward.isDefEq.respectTransparency.types false in
/-- The first dense layer of the edge update, on [gathered senders | gathered receivers | edge latents]. -/
theorem v61_eq : res_main_v61 (F := Ideal) V0
    = dense (cat3 (gatherRows (V0 (Proc.devRef .tc main_arg2)) (senders (V0 (Proc.devRef .tc main_arg0))) : Mat 400000 128) (gatherRows (V0 (Proc.devRef .tc main_arg3)) (receivers (V0 (Proc.devRef .tc main_arg0))) : Mat 400000 128) (edgeOut (V0 (Proc.devRef .tc main_arg1)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9))))
        ((V0 (Proc.devRef .tc main_arg10)) : Mat 384 128) (rowOf (V0 (Proc.devRef .tc main_arg11))) := by
  unfold res_main_v61
  rw [show subf (res_main_v18 (F := Ideal) V0) (broadcastInDim S400000x128 ![0, 1] bcast_S400000x1_S400000x128_0_1 (res_main_v22 V0))
      = res_main_v24 V0 from rfl, v24_eq]
  rw [host_scaled (hr := red400k), host_mulVec, host_addRow, v18_eq, v7_eq]
  rw [host_cat3, host_prod dot_S400000x384_S384x128_S400000x128_1_0_0_1_n_n rfl rfl rfl rfl rfl rfl, host_addRow]
  rfl

set_option backward.isDefEq.respectTransparency.types false in
theorem v72_eq : res_main_v72 (F := Ideal) V0 = dense (silu (res_main_v61 V0 : Mat 400000 128)) ((V0 (Proc.devRef .tc main_arg12)) : Mat 128 128) (rowOf (V0 (Proc.devRef .tc main_arg13))) := by
  unfold res_main_v72
  rw [host_silu, host_prod dot_S400000x128_S128x128_S400000x128_1_0_0_1_n_n rfl rfl rfl rfl rfl rfl, host_addRow]
  rfl

theorem v78_eq : res_main_v78 (F := Ideal) V0 = centred dW (res_main_v72 V0 : Mat 400000 128) := by
  unfold res_main_v78 res_main_v76
  exact host_centred (res_main_v72 V0) _ red400k _ _ _ _ _

set_option backward.isDefEq.respectTransparency.types false in
/-- The first dense layer of the node update, on [node features | mean incoming edge]. -/
theorem v112_eq : res_main_v112 (F := Ideal) V0
    = dense (cat2 ((V0 (Proc.devRef .tc main_arg3)) : Mat 50000 128) (meanRows (receivers (V0 (Proc.devRef .tc main_arg0))) (edgeUpd (V0 (Proc.devRef .tc main_arg0)) (V0 (Proc.devRef .tc main_arg2)) (V0 (Proc.devRef .tc main_arg3)) (edgeOut (V0 (Proc.devRef .tc main_arg1)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9))) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15))) : Mat 50000 128)) ((V0 (Proc.devRef .tc main_arg16)) : Mat 256 128) (rowOf (V0 (Proc.devRef .tc main_arg17))) := by
  unfold res_main_v112
  rw [show subf (res_main_v72 (F := Ideal) V0) (broadcastInDim S400000x128 ![0, 1] bcast_S400000x1_S400000x128_0_1 (res_main_v76 V0))
      = res_main_v78 V0 from rfl, v78_eq]
  rw [host_scaled (hr := red400k), host_mulVec, host_addRow, v72_eq, v61_eq]
  rw [host_cat2, host_prod dot_S50000x256_S256x128_S50000x128_1_0_0_1_n_n rfl rfl rfl rfl rfl rfl, host_addRow]
  rfl

set_option backward.isDefEq.respectTransparency.types false in
theorem v123_eq : res_main_v123 (F := Ideal) V0 = dense (silu (res_main_v112 V0 : Mat 50000 128)) ((V0 (Proc.devRef .tc main_arg18)) : Mat 128 128) (rowOf (V0 (Proc.devRef .tc main_arg19))) := by
  unfold res_main_v123
  rw [host_silu, host_prod dot_S50000x128_S128x128_S50000x128_1_0_0_1_n_n rfl rfl rfl rfl rfl rfl, host_addRow]
  rfl

theorem v129_eq : res_main_v129 (F := Ideal) V0 = centred dW (res_main_v123 V0 : Mat 50000 128) := by
  unfold res_main_v129 res_main_v127
  exact host_centred (res_main_v123 V0) _ red50k _ _ _ _ _

set_option backward.isDefEq.respectTransparency.types false in
/-- The second result: the node outputs. -/
theorem node_eq : val4 (F := Ideal) V0 (no_index (Proc.devRef .tc main_v161))
    = nodeOut (V0 (Proc.devRef .tc main_arg0)) (V0 (Proc.devRef .tc main_arg3)) (edgeUpd (V0 (Proc.devRef .tc main_arg0)) (V0 (Proc.devRef .tc main_arg2)) (V0 (Proc.devRef .tc main_arg3)) (edgeOut (V0 (Proc.devRef .tc main_arg1)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9))) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15))) (V0 (Proc.devRef .tc main_arg16)) (V0 (Proc.devRef .tc main_arg17)) (V0 (Proc.devRef .tc main_arg18)) (V0 (Proc.devRef .tc main_arg19)) (V0 (Proc.devRef .tc main_arg20)) (V0 (Proc.devRef .tc main_arg21)) (V0 (Proc.devRef .tc main_arg22)) (V0 (Proc.devRef .tc main_arg23)) (V0 (Proc.devRef .tc main_arg24)) (V0 (Proc.devRef .tc main_arg25)) := by
  rw [val4_main_v161]
  rw [show subf (res_main_v123 (F := Ideal) V0) (broadcastInDim S50000x128 ![0, 1] bcast_S50000x1_S50000x128_0_1 (res_main_v127 V0))
      = res_main_v129 V0 from rfl, v129_eq]
  rw [host_scaled (hr := red50k), host_mulVec, host_addRow, v123_eq, v112_eq]
  rw [host_prod dot_S50000x128_S128x128_S50000x128_1_0_0_1_n_n rfl rfl rfl rfl rfl rfl, host_addRow, host_sigm,
    host_prod dot_S50000x128_S128x3_S50000x3_1_0_0_1_n_n rfl rfl rfl rfl rfl rfl, host_addRow]
  rfl

end Cert.RefNet

end
-- ==== Proof.KernelWhole.lean ====
/-
  The idealized kernel program's two results as the network's functions of its argument arrays.

  Before the edge kernel the host gathers the sender and receiver rows (narrowing them to bf16, which changes nothing
  on exact values), counts the receivers, and cuts the 384-row first-layer weights into three bands of 128 rows; the
  edge kernel then finds the argument arrays as launched and those host-written arrays. Between the two kernels the
  host scatter-sums the updated edges over the receivers, divides by the larger of the count and one, and cuts the
  256-row weights into two bands; the node kernel finds the argument arrays as launched and those.

  A product of side-by-side blocks against a weight matrix is the sum of the blocks' products against the bands of
  the weights, so the kernel's three (two) partial products are the reference's one product of the concatenation.
-/
import proofs.«115111_j71949292142783_2_alg».proof.Proof.KernelRun
import proofs.«115111_j71949292142783_2_alg».proof.Proof.EdgeValue
import proofs.«115111_j71949292142783_2_alg».proof.Proof.NodeValue
import proofs.«115111_j71949292142783_2_alg».proof.Proof.RefNet

set_option maxRecDepth 16384

noncomputable section

namespace Cert.KernelIdeal.Whole

open Cert.KernelIdeal Cert.KernelIdeal.Gen
open Idealize.ShloMosaic Idealize.ShloMosaic.TcCoe Idealize.ShloMosaic.ValueIdx Idealize.ShloMosaic.Pipeline Idealize.SL.Sem
open Cert.LibMatProd Cert.Layers Cert.NormLayers Cert.Net

variable (m : (ℓ : Loc nD τ sig) → Buf (Elt Ideal) ℓ) (ρ : Dev nD → PrngReg) (c : Dev nD)

/-! ## The argument arrays as the regions find them -/

theorem W1_arg1 : W1 m ρ c (Proc.devRef .tc main_arg1) = (m ((c : Thread nD τ).loc main_arg1)) :=
  (StableHlo.after_of_forall_not_mem (b := Proc.devRef .tc main_arg1) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl

theorem W1_arg4 : W1 m ρ c (Proc.devRef .tc main_arg4) = (m ((c : Thread nD τ).loc main_arg4)) :=
  (StableHlo.after_of_forall_not_mem (b := Proc.devRef .tc main_arg4) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl

theorem W1_arg5 : W1 m ρ c (Proc.devRef .tc main_arg5) = (m ((c : Thread nD τ).loc main_arg5)) :=
  (StableHlo.after_of_forall_not_mem (b := Proc.devRef .tc main_arg5) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl

theorem W1_arg6 : W1 m ρ c (Proc.devRef .tc main_arg6) = (m ((c : Thread nD τ).loc main_arg6)) :=
  (StableHlo.after_of_forall_not_mem (b := Proc.devRef .tc main_arg6) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl

theorem W1_arg7 : W1 m ρ c (Proc.devRef .tc main_arg7) = (m ((c : Thread nD τ).loc main_arg7)) :=
  (StableHlo.after_of_forall_not_mem (b := Proc.devRef .tc main_arg7) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl

theorem W1_arg8 : W1 m ρ c (Proc.devRef .tc main_arg8) = (m ((c : Thread nD τ).loc main_arg8)) :=
  (StableHlo.after_of_forall_not_mem (b := Proc.devRef .tc main_arg8) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl

theorem W1_arg9 : W1 m ρ c (Proc.devRef .tc main_arg9) = (m ((c : Thread nD τ).loc main_arg9)) :=
  (StableHlo.after_of_forall_not_mem (b := Proc.devRef .tc main_arg9) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl

theorem W1_arg11 : W1 m ρ c (Proc.devRef .tc main_arg11) = (m ((c : Thread nD τ).loc main_arg11)) :=
  (StableHlo.after_of_forall_not_mem (b := Proc.devRef .tc main_arg11) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl

theorem W1_arg12 : W1 m ρ c (Proc.devRef .tc main_arg12) = (m ((c : Thread nD τ).loc main_arg12)) :=
  (StableHlo.after_of_forall_not_mem (b := Proc.devRef .tc main_arg12) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl

theorem W1_arg13 : W1 m ρ c (Proc.devRef .tc main_arg13) = (m ((c : Thread nD τ).loc main_arg13)) :=
  (StableHlo.after_of_forall_not_mem (b := Proc.devRef .tc main_arg13) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl

theorem W1_arg14 : W1 m ρ c (Proc.devRef .tc main_arg14) = (m ((c : Thread nD τ).loc main_arg14)) :=
  (StableHlo.after_of_forall_not_mem (b := Proc.devRef .tc main_arg14) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl

theorem W1_arg15 : W1 m ρ c (Proc.devRef .tc main_arg15) = (m ((c : Thread nD τ).loc main_arg15)) :=
  (StableHlo.after_of_forall_not_mem (b := Proc.devRef .tc main_arg15) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl

theorem W2_arg3 : W2 m ρ c (Proc.devRef .tc main_arg3) = (m ((c : Thread nD τ).loc main_arg3)) :=
  (W2_of_ne m ρ c main_arg3 (by decide)).trans ((StableHlo.after_of_forall_not_mem (b := Proc.devRef .tc main_arg3) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl)

theorem W3_arg3 : W3 m ρ c (Proc.devRef .tc main_arg3) = (m ((c : Thread nD τ).loc main_arg3)) :=
  (StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_arg3 m ρ c)

theorem W2_arg16 : W2 m ρ c (Proc.devRef .tc main_arg16) = (m ((c : Thread nD τ).loc main_arg16)) :=
  (W2_of_ne m ρ c main_arg16 (by decide)).trans ((StableHlo.after_of_forall_not_mem (b := Proc.devRef .tc main_arg16) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl)

theorem W2_arg17 : W2 m ρ c (Proc.devRef .tc main_arg17) = (m ((c : Thread nD τ).loc main_arg17)) :=
  (W2_of_ne m ρ c main_arg17 (by decide)).trans ((StableHlo.after_of_forall_not_mem (b := Proc.devRef .tc main_arg17) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl)

theorem W3_arg17 : W3 m ρ c (Proc.devRef .tc main_arg17) = (m ((c : Thread nD τ).loc main_arg17)) :=
  (StableHlo.after_of_forall_not_mem (b := Proc.devRef .tc main_arg17) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_arg17 m ρ c)

theorem W2_arg18 : W2 m ρ c (Proc.devRef .tc main_arg18) = (m ((c : Thread nD τ).loc main_arg18)) :=
  (W2_of_ne m ρ c main_arg18 (by decide)).trans ((StableHlo.after_of_forall_not_mem (b := Proc.devRef .tc main_arg18) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl)

theorem W3_arg18 : W3 m ρ c (Proc.devRef .tc main_arg18) = (m ((c : Thread nD τ).loc main_arg18)) :=
  (StableHlo.after_of_forall_not_mem (b := Proc.devRef .tc main_arg18) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_arg18 m ρ c)

theorem W2_arg19 : W2 m ρ c (Proc.devRef .tc main_arg19) = (m ((c : Thread nD τ).loc main_arg19)) :=
  (W2_of_ne m ρ c main_arg19 (by decide)).trans ((StableHlo.after_of_forall_not_mem (b := Proc.devRef .tc main_arg19) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl)

theorem W3_arg19 : W3 m ρ c (Proc.devRef .tc main_arg19) = (m ((c : Thread nD τ).loc main_arg19)) :=
  (StableHlo.after_of_forall_not_mem (b := Proc.devRef .tc main_arg19) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_arg19 m ρ c)

theorem W2_arg20 : W2 m ρ c (Proc.devRef .tc main_arg20) = (m ((c : Thread nD τ).loc main_arg20)) :=
  (W2_of_ne m ρ c main_arg20 (by decide)).trans ((StableHlo.after_of_forall_not_mem (b := Proc.devRef .tc main_arg20) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl)

theorem W3_arg20 : W3 m ρ c (Proc.devRef .tc main_arg20) = (m ((c : Thread nD τ).loc main_arg20)) :=
  (StableHlo.after_of_forall_not_mem (b := Proc.devRef .tc main_arg20) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_arg20 m ρ c)

theorem W2_arg21 : W2 m ρ c (Proc.devRef .tc main_arg21) = (m ((c : Thread nD τ).loc main_arg21)) :=
  (W2_of_ne m ρ c main_arg21 (by decide)).trans ((StableHlo.after_of_forall_not_mem (b := Proc.devRef .tc main_arg21) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl)

theorem W3_arg21 : W3 m ρ c (Proc.devRef .tc main_arg21) = (m ((c : Thread nD τ).loc main_arg21)) :=
  (StableHlo.after_of_forall_not_mem (b := Proc.devRef .tc main_arg21) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_arg21 m ρ c)

theorem W2_arg22 : W2 m ρ c (Proc.devRef .tc main_arg22) = (m ((c : Thread nD τ).loc main_arg22)) :=
  (W2_of_ne m ρ c main_arg22 (by decide)).trans ((StableHlo.after_of_forall_not_mem (b := Proc.devRef .tc main_arg22) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl)

theorem W3_arg22 : W3 m ρ c (Proc.devRef .tc main_arg22) = (m ((c : Thread nD τ).loc main_arg22)) :=
  (StableHlo.after_of_forall_not_mem (b := Proc.devRef .tc main_arg22) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_arg22 m ρ c)

theorem W2_arg23 : W2 m ρ c (Proc.devRef .tc main_arg23) = (m ((c : Thread nD τ).loc main_arg23)) :=
  (W2_of_ne m ρ c main_arg23 (by decide)).trans ((StableHlo.after_of_forall_not_mem (b := Proc.devRef .tc main_arg23) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl)

theorem W3_arg23 : W3 m ρ c (Proc.devRef .tc main_arg23) = (m ((c : Thread nD τ).loc main_arg23)) :=
  (StableHlo.after_of_forall_not_mem (b := Proc.devRef .tc main_arg23) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_arg23 m ρ c)

theorem W2_arg24 : W2 m ρ c (Proc.devRef .tc main_arg24) = (m ((c : Thread nD τ).loc main_arg24)) :=
  (W2_of_ne m ρ c main_arg24 (by decide)).trans ((StableHlo.after_of_forall_not_mem (b := Proc.devRef .tc main_arg24) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl)

theorem W3_arg24 : W3 m ρ c (Proc.devRef .tc main_arg24) = (m ((c : Thread nD τ).loc main_arg24)) :=
  (StableHlo.after_of_forall_not_mem (b := Proc.devRef .tc main_arg24) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_arg24 m ρ c)

theorem W2_arg25 : W2 m ρ c (Proc.devRef .tc main_arg25) = (m ((c : Thread nD τ).loc main_arg25)) :=
  (W2_of_ne m ρ c main_arg25 (by decide)).trans ((StableHlo.after_of_forall_not_mem (b := Proc.devRef .tc main_arg25) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl)

theorem W3_arg25 : W3 m ρ c (Proc.devRef .tc main_arg25) = (m ((c : Thread nD τ).loc main_arg25)) :=
  (StableHlo.after_of_forall_not_mem (b := Proc.devRef .tc main_arg25) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_arg25 m ρ c)

/-! ## What the host writes before the edge kernel -/

/-- The flattened receiver column. -/
theorem W1_v3 : W1 m ρ c (Proc.devRef .tc main_v3) = (Cert.RefNet.receivers (m ((c : Thread nD τ).loc main_arg0))) := by
  show StableHlo.after hostOps0 (W0 m ρ c) (Proc.devRef .tc main_v3) = _
  simp only [hostOps0]
  after_results_simp
  rfl

/-- The receiver count per node. -/
theorem W1_v7 : W1 m ρ c (Proc.devRef .tc main_v7) = (Host.scatterAdd (F := Ideal) scatter_S50000x1_S400000x1_S400000x1_1_0_0_1
        (broadcastInDim S50000x1 ![] bcast_S_S50000x1 (constant (F := Ideal) S_ .f32 0x00000000#32))
        (broadcastInDim S400000x1 ![0] bcast_S400000_S400000x1_0 (Cert.RefNet.receivers (m ((c : Thread nD τ).loc main_arg0))))
        (broadcastInDim S400000x1 ![] bcast_S_S400000x1 (constant (F := Ideal) S_ .f32 0x3F800000#32))) := by
  show StableHlo.after hostOps0 (W0 m ρ c) (Proc.devRef .tc main_v7) = _
  simp only [hostOps0]
  after_results_simp
  rfl

/-- The gathered sender rows (narrowed to bf16: the same exact values). -/
theorem W1_v15 : W1 m ρ c (Proc.devRef .tc main_v15) = Cert.RefNet.gatherRows (m ((c : Thread nD τ).loc main_arg2)) (Cert.RefNet.senders (m ((c : Thread nD τ).loc main_arg0))) := by
  show StableHlo.after hostOps0 (W0 m ρ c) (Proc.devRef .tc main_v15) = _
  simp only [hostOps0]
  after_results_simp
  rfl

/-- The gathered receiver rows. -/
theorem W1_v23 : W1 m ρ c (Proc.devRef .tc main_v23) = Cert.RefNet.gatherRows (m ((c : Thread nD τ).loc main_arg3)) (Cert.RefNet.receivers (m ((c : Thread nD τ).loc main_arg0))) := by
  show StableHlo.after hostOps0 (W0 m ρ c) (Proc.devRef .tc main_v23) = _
  simp only [hostOps0]
  after_results_simp
  rfl

/-- Rows 0 … 127 of the edge update's first-layer weights. -/
theorem W1_v24 : W1 m ρ c (Proc.devRef .tc main_v24) = band 128 0 (by omega) ((m ((c : Thread nD τ).loc main_arg10)) : Mat 384 128) := by
  show StableHlo.after hostOps0 (W0 m ρ c) (Proc.devRef .tc main_v24) = _
  simp only [hostOps0]
  after_results_simp
  exact host_rows 0 (by omega) _ _

/-- Rows 128 … 255 of the edge update's first-layer weights. -/
theorem W1_v25 : W1 m ρ c (Proc.devRef .tc main_v25) = band 128 128 (by omega) ((m ((c : Thread nD τ).loc main_arg10)) : Mat 384 128) := by
  show StableHlo.after hostOps0 (W0 m ρ c) (Proc.devRef .tc main_v25) = _
  simp only [hostOps0]
  after_results_simp
  exact host_rows 128 (by omega) _ _

/-- Rows 256 … 383 of the edge update's first-layer weights. -/
theorem W1_v26 : W1 m ρ c (Proc.devRef .tc main_v26) = band 128 256 (by omega) ((m ((c : Thread nD τ).loc main_arg10)) : Mat 384 128) := by
  show StableHlo.after hostOps0 (W0 m ρ c) (Proc.devRef .tc main_v26) = _
  simp only [hostOps0]
  after_results_simp
  exact host_rows 256 (by omega) _ _

/-! ## The edge kernel's outputs -/

/-- The edge latents, from the argument arrays. -/
theorem edge_spec : EdgeValue.edgeLat (V1 m ρ) c = (Cert.RefNet.edgeOut (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) := by
  unfold EdgeValue.edgeLat
  dsimp only [V1]
  rw [W1_arg1, W1_arg4, W1_arg5, W1_arg6, W1_arg7, W1_arg8, W1_arg9]
  rfl

/-- The updated edges, from the argument arrays: the three partial products are the product of the concatenation. -/
theorem upd_spec : EdgeValue.newEdge (V1 m ρ) c = (Cert.RefNet.edgeUpd (m ((c : Thread nD τ).loc main_arg0)) (m ((c : Thread nD τ).loc main_arg2)) (m ((c : Thread nD τ).loc main_arg3)) (Cert.RefNet.edgeOut (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))) := by
  unfold EdgeValue.newEdge
  rw [edge_spec]
  dsimp only [V1]
  rw [W1_v15, W1_v23, W1_v24, W1_v25, W1_v26, W1_arg11, W1_arg12, W1_arg13, W1_arg14, W1_arg15]
  unfold Cert.RefNet.edgeUpd ffn
  rw [cat3_prod]

/-- Region 0's second output array, where the host finds it. -/
theorem W2_v27_1 : W2 m ρ c (Proc.devRef .tc main_v27_1) = (Cert.RefNet.edgeUpd (m ((c : Thread nD τ).loc main_arg0)) (m ((c : Thread nD τ).loc main_arg2)) (m ((c : Thread nD τ).loc main_arg3)) (Cert.RefNet.edgeOut (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))) :=
  (W2_arr m ρ c 18).trans ((EdgeValue.final18 (V1 m ρ) c).trans (upd_spec m ρ c))

/-! ## What the host writes between the kernels -/

theorem W2_v3 : W2 m ρ c (Proc.devRef .tc main_v3) = (Cert.RefNet.receivers (m ((c : Thread nD τ).loc main_arg0))) :=
  (W2_of_ne m ρ c main_v3 (by decide)).trans (W1_v3 m ρ c)

theorem W2_v7 : W2 m ρ c (Proc.devRef .tc main_v7) = (Host.scatterAdd (F := Ideal) scatter_S50000x1_S400000x1_S400000x1_1_0_0_1
        (broadcastInDim S50000x1 ![] bcast_S_S50000x1 (constant (F := Ideal) S_ .f32 0x00000000#32))
        (broadcastInDim S400000x1 ![0] bcast_S400000_S400000x1_0 (Cert.RefNet.receivers (m ((c : Thread nD τ).loc main_arg0))))
        (broadcastInDim S400000x1 ![] bcast_S_S400000x1 (constant (F := Ideal) S_ .f32 0x3F800000#32))) :=
  (W2_of_ne m ρ c main_v7 (by decide)).trans (W1_v7 m ρ c)

/-- The mean incoming edge per node. -/
theorem W3_v34 : W3 m ρ c (Proc.devRef .tc main_v34) = Cert.RefNet.meanRows (Cert.RefNet.receivers (m ((c : Thread nD τ).loc main_arg0))) (Cert.RefNet.edgeUpd (m ((c : Thread nD τ).loc main_arg0)) (m ((c : Thread nD τ).loc main_arg2)) (m ((c : Thread nD τ).loc main_arg3)) (Cert.RefNet.edgeOut (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))) := by
  show StableHlo.after hostOps1 (W2 m ρ c) (Proc.devRef .tc main_v34) = _
  simp only [hostOps1]
  after_results_simp
  rw [W2_v3, W2_v7, W2_v27_1]
  rfl

/-- Rows 0 … 127 of the node update's first-layer weights. -/
theorem W3_v35 : W3 m ρ c (Proc.devRef .tc main_v35) = band 128 0 (by omega) ((m ((c : Thread nD τ).loc main_arg16)) : Mat 256 128) := by
  show StableHlo.after hostOps1 (W2 m ρ c) (Proc.devRef .tc main_v35) = _
  simp only [hostOps1]
  after_results_simp
  rw [W2_arg16]
  exact host_rows 0 (by omega) _ _

/-- Rows 128 … 255 of the node update's first-layer weights. -/
theorem W3_v36 : W3 m ρ c (Proc.devRef .tc main_v36) = band 128 128 (by omega) ((m ((c : Thread nD τ).loc main_arg16)) : Mat 256 128) := by
  show StableHlo.after hostOps1 (W2 m ρ c) (Proc.devRef .tc main_v36) = _
  simp only [hostOps1]
  after_results_simp
  rw [W2_arg16]
  exact host_rows 128 (by omega) _ _

/-! ## The node kernel's output -/

/-- The node outputs, from the argument arrays: the two partial products are the product of the concatenation. -/
theorem node_spec : NodeValue.nodeOut (V3 m ρ) c = (Cert.RefNet.nodeOut (m ((c : Thread nD τ).loc main_arg0)) (m ((c : Thread nD τ).loc main_arg3)) (Cert.RefNet.edgeUpd (m ((c : Thread nD τ).loc main_arg0)) (m ((c : Thread nD τ).loc main_arg2)) (m ((c : Thread nD τ).loc main_arg3)) (Cert.RefNet.edgeOut (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25))) := by
  unfold NodeValue.nodeOut
  dsimp only [V3]
  rw [W3_v34, W3_v35, W3_v36, W3_arg3, W3_arg17, W3_arg18, W3_arg19, W3_arg20, W3_arg21, W3_arg22, W3_arg23, W3_arg24, W3_arg25]
  unfold Cert.RefNet.nodeOut ffn
  rw [cat2_prod]

/-! ## The two results in the final contents -/

/-- The first result is region 0's first output array: neither the host operations after it nor region 1 write it. -/
theorem W4_edge : W4 m ρ c (Proc.devRef .tc main_v27_0) = (Cert.RefNet.edgeOut (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) :=
  calc W4 m ρ c (Proc.devRef .tc main_v27_0)
    _ = W3 m ρ c (Proc.devRef .tc main_v27_0) := W4_of_ne m ρ c main_v27_0 (by decide)
    _ = W2 m ρ c (Proc.devRef .tc main_v27_0) := StableHlo.after_of_forall_not_mem (b := Proc.devRef .tc main_v27_0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = (dat0 (V1 m ρ) c).arrAt 17 cfg0.N := W2_arr m ρ c 17
    _ = EdgeValue.edgeLat (V1 m ρ) c := EdgeValue.final17 (V1 m ρ) c
    _ = _ := edge_spec m ρ c

/-- The second result is region 1's output array. -/
theorem W4_node : W4 m ρ c (Proc.devRef .tc main_v37) = (Cert.RefNet.nodeOut (m ((c : Thread nD τ).loc main_arg0)) (m ((c : Thread nD τ).loc main_arg3)) (Cert.RefNet.edgeUpd (m ((c : Thread nD τ).loc main_arg0)) (m ((c : Thread nD τ).loc main_arg2)) (m ((c : Thread nD τ).loc main_arg3)) (Cert.RefNet.edgeOut (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25))) :=
  (W4_arr m ρ c 13).trans ((NodeValue.final13 (V3 m ρ) c).trans (node_spec m ρ c))

/-! ## The run -/

/-- Every weakly fair execution of the idealized kernel program terminates with the two results at the network's
    functions of the argument arrays, the arguments unchanged. -/
theorem run : θ_run defs (onTc (τ := τ) (main (F := Ideal))) ⟨m, fun _ => 0, ρ⟩ (fun r => ∀ c : Dev nD,
      r.2.mem ((c.tc : Thread nD τ).loc main_v27_0) = (Cert.RefNet.edgeOut (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)))
      ∧ r.2.mem ((c.tc : Thread nD τ).loc main_v37) = (Cert.RefNet.nodeOut (m ((c : Thread nD τ).loc main_arg0)) (m ((c : Thread nD τ).loc main_arg3)) (Cert.RefNet.edgeUpd (m ((c : Thread nD τ).loc main_arg0)) (m ((c : Thread nD τ).loc main_arg2)) (m ((c : Thread nD τ).loc main_arg3)) (Cert.RefNet.edgeOut (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)) :=
  (θ_run defs _ _).mono (fun r h c =>
    ⟨(h c _ (mem_uc main_v27_0 (by decide))).trans (W4_edge m ρ c),
     (h c _ (mem_uc main_v37 (by decide))).trans (W4_node m ρ c),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c),
     (h c _ (mem_uc main_arg8 (by decide))).trans (W4_main_arg8 m ρ c),
     (h c _ (mem_uc main_arg9 (by decide))).trans (W4_main_arg9 m ρ c),
     (h c _ (mem_uc main_arg10 (by decide))).trans (W4_main_arg10 m ρ c),
     (h c _ (mem_uc main_arg11 (by decide))).trans (W4_main_arg11 m ρ c),
     (h c _ (mem_uc main_arg12 (by decide))).trans (W4_main_arg12 m ρ c),
     (h c _ (mem_uc main_arg13 (by decide))).trans (W4_main_arg13 m ρ c),
     (h c _ (mem_uc main_arg14 (by decide))).trans (W4_main_arg14 m ρ c),
     (h c _ (mem_uc main_arg15 (by decide))).trans (W4_main_arg15 m ρ c),
     (h c _ (mem_uc main_arg16 (by decide))).trans (W4_main_arg16 m ρ c),
     (h c _ (mem_uc main_arg17 (by decide))).trans (W4_main_arg17 m ρ c),
     (h c _ (mem_uc main_arg18 (by decide))).trans (W4_main_arg18 m ρ c),
     (h c _ (mem_uc main_arg19 (by decide))).trans (W4_main_arg19 m ρ c),
     (h c _ (mem_uc main_arg20 (by decide))).trans (W4_main_arg20 m ρ c),
     (h c _ (mem_uc main_arg21 (by decide))).trans (W4_main_arg21 m ρ c),
     (h c _ (mem_uc main_arg22 (by decide))).trans (W4_main_arg22 m ρ c),
     (h c _ (mem_uc main_arg23 (by decide))).trans (W4_main_arg23 m ρ c),
     (h c _ (mem_uc main_arg24 (by decide))).trans (W4_main_arg24 m ρ c),
     (h c _ (mem_uc main_arg25 (by decide))).trans (W4_main_arg25 m ρ c)⟩)
    (Cert.KernelIdeal.Run.run_all m ρ)

end Cert.KernelIdeal.Whole

end
-- ==== Proof.lean ====
/-
  A message-passing step of a graph network on 400000 edges and 50000 nodes, computed by two row-tiled kernels with
  host gathers and scatter-sums between them, against its plain reference: the two programs compute the same results
  on the exact extended reals.

  Both results are functions of the argument arrays built from four row-wise layers — a matrix product plus a bias row,
  x · logistic x, the logistic function, and a layer normalisation of every row — around a gather of sender and
  receiver rows and a scatter-mean over the receivers. The reference forms the matrices [senders | receivers | edge
  latents] and [node features | mean incoming edge] and multiplies each by one tall weight matrix; the kernels never
  form them and add the blocks' products against bands of the weight rows instead. A finite sum of products over 384
  (or 256) indices is the sum of its consecutive 128-blocks by commutativity and associativity of addition alone, which
  hold on all extended reals, so no finiteness of the inputs is used. The kernels narrow matrix-product operands to
  bf16 first, which is the identity on exact values; their logistic operation is by definition one over one plus the
  exponential of the negation, which is how the reference spells it; a lane sum from the neutral accumulator and a host
  sum from a scalar zero are the same sum.

  Each kernel walks its arrays in bands of rows (4000 edges or 2000 nodes per grid point). Every layer acts row by row,
  so the band a grid point writes back is that band of the layers applied to the whole arrays, and the bands cover all
  rows: each kernel's output array is the layers of the whole arrays. The frames of the two kernel programs are the
  generated ones; the reference's frame is its generated run with the results dropped; no rewrite was made when the
  kernel was idealized, so that conjunct is trivial.
-/
import proofs.«115111_j71949292142783_2_alg».proof.Defs
import proofs.«115111_j71949292142783_2_alg».proof.Proof.Gen.Kernel
import proofs.«115111_j71949292142783_2_alg».proof.Proof.Gen.Kernel.Skeleton
import proofs.«115111_j71949292142783_2_alg».proof.Proof.Gen.Kernel.Launch
import proofs.«115111_j71949292142783_2_alg».proof.Proof.Gen.Kernel.Points
import proofs.«115111_j71949292142783_2_alg».proof.Proof.Gen.Kernel.Frame
import proofs.«115111_j71949292142783_2_alg».proof.Proof.Gen.KernelIdeal
import proofs.«115111_j71949292142783_2_alg».proof.Proof.Gen.KernelIdeal.Skeleton
import proofs.«115111_j71949292142783_2_alg».proof.Proof.Gen.KernelIdeal.Launch
import proofs.«115111_j71949292142783_2_alg».proof.Proof.Gen.KernelIdeal.Points
import proofs.«115111_j71949292142783_2_alg».proof.Proof.Gen.KernelIdeal.Frame
import proofs.«115111_j71949292142783_2_alg».proof.Proof.Gen.ReferenceIdeal
import proofs.«115111_j71949292142783_2_alg».proof.Proof.Gen.Pre_finite_inputs
import proofs.«115111_j71949292142783_2_alg».proof.Proof.Gen.ReferenceIdeal.Run
import proofs.«115111_j71949292142783_2_alg».proof.Proof.KernelWhole
import proofs.«115111_j71949292142783_2_alg».proof.Proof.RefNet
import Idealize.ShloMosaic.Adequacy
import Idealize.ShloMosaic.Init

set_option maxRecDepth 16384

noncomputable section

namespace Cert.Proof

open Idealize.ShloMosaic Idealize.ShloMosaic.TcCoe Idealize.SL.Sem

/-- The five conjuncts: the two kernel programs' generated frames; the reference's frame, which is its run with the two
    results dropped; nothing was rewritten when the kernel was idealized; and both idealized runs end with the results at
    the same functions of arguments that agree. -/
theorem claim : Cert.Claim := by
  refine ⟨Cert.Kernel.Gen.facts, Cert.KernelIdeal.Gen.facts, Cert.ReferenceIdeal.Gen.facts, Cert.Pre_finite_inputs.Gen.facts,
    ?_, ?_, ?_, trivial, ?_⟩
  · exact fun m ρ _ => Cert.Kernel.Gen.frame m ρ
  · exact fun m ρ _ => Cert.KernelIdeal.Gen.frame m ρ
  · exact fun m ρ _ =>
      (θ_run Cert.ReferenceIdeal.defs _ _).mono (fun _ h c => (h c).2.2) (Cert.ReferenceIdeal.Value.run (F := Ideal) m ρ)
  · intro m ρ m' ρ' _ hagree
    refine ⟨fun c => (Cert.RefNet.edgeOut (m ((c.tc : Thread Cert.KernelIdeal.nD Cert.KernelIdeal.τ).loc Cert.KernelIdeal.main_arg1)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))),
      fun c => (Cert.RefNet.nodeOut (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (Cert.RefNet.edgeUpd (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (Cert.RefNet.edgeOut (m ((c.tc : Thread Cert.KernelIdeal.nD Cert.KernelIdeal.τ).loc Cert.KernelIdeal.main_arg1)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))),
      Cert.KernelIdeal.Whole.run m ρ, ?_⟩
    refine (θ_run Cert.ReferenceIdeal.defs _ _).mono (fun r h c => ?_) (Cert.ReferenceIdeal.Value.run (F := Ideal) m' ρ')
    obtain ⟨h42, h161, hargs⟩ := h c
    obtain ⟨a0, a1, a2, a3, a4, a5, a6, a7, a8, a9, a10, a11, a12, a13, a14, a15, a16, a17, a18, a19, a20, a21, a22, a23, a24, a25⟩ := hagree c
    refine ⟨?_, ?_, hargs⟩
    · refine (h42.trans ((Cert.ReferenceIdeal.Value.val4_main_v42 _).symm.trans (Cert.RefNet.edge_eq _))).trans ?_
      beta_reduce
      rw [← a1, ← a4, ← a5, ← a6, ← a7, ← a8, ← a9]
    · refine (h161.trans ((Cert.ReferenceIdeal.Value.val4_main_v161 _).symm.trans (Cert.RefNet.node_eq _))).trans ?_
      beta_reduce
      rw [← a0, ← a1, ← a2, ← a3, ← a4, ← a5, ← a6, ← a7, ← a8, ← a9, ← a10, ← a11, ← a12, ← a13, ← a14, ← a15, ← a16, ← a17, ← a18, ← a19, ← a20, ← a21, ← a22, ← a23, ← a24, ← a25]

end Cert.Proof

end
